-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S100000x2 : Shape := ⟨2, ![100000, 2]⟩
abbrev S2x3200000 : Shape := ⟨2, ![2, 3200000]⟩
abbrev S3200000 : Shape := ⟨1, ![3200000]⟩
abbrev S100000 : Shape := ⟨1, ![100000]⟩
abbrev S10x32 : Shape := ⟨2, ![10, 32]⟩
abbrev S32 : Shape := ⟨1, ![32]⟩
abbrev S2x5x32x32 : Shape := ⟨4, ![2, 5, 32, 32]⟩
abbrev S2x32 : Shape := ⟨2, ![2, 32]⟩
abbrev S32x1 : Shape := ⟨2, ![32, 1]⟩
abbrev S1 : Shape := ⟨1, ![1]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S3200000 : S_.BroadcastsInDim S3200000 (![] : Fin 0 → Fin S3200000.rank)
  reducesTo_S3200000_S_d0 : S3200000.ReducesTo [0] S_
  bcast_S_S10x32 : S_.BroadcastsInDim S10x32 (![] : Fin 0 → Fin S10x32.rank)
  reducesTo_S10x32_S_d0_1 : S10x32.ReducesTo [0, 1] S_
  bcast_S_S32 : S_.BroadcastsInDim S32 (![] : Fin 0 → Fin S32.rank)
  reducesTo_S32_S_d0 : S32.ReducesTo [0] S_
  bcast_S_S2x5x32x32 : S_.BroadcastsInDim S2x5x32x32 (![] : Fin 0 → Fin S2x5x32x32.rank)
  reducesTo_S2x5x32x32_S_d0_1_2_3 : S2x5x32x32.ReducesTo [0, 1, 2, 3] S_
  bcast_S_S2x32 : S_.BroadcastsInDim S2x32 (![] : Fin 0 → Fin S2x32.rank)
  reducesTo_S2x32_S_d0_1 : S2x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S32x1 .f32) (main_arg10 : FVec F S1 .f32) (main_v33 : IVec S_ 1) : IVec S_ 1 :=
  let main_v34 : FVec F S32x1 .f32 := Host.absf main_arg9
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S32 .f32) (main_arg7 : FVec F S2x5x32x32 .f32) (main_arg8 : FVec F S2x32 .f32) (main_arg9 : FVec F S32x1 .f32) (main_arg10 : FVec F S1 .f32) (main_v13 : IVec S_ 1) (main_v16 : IVec S10x32 1) : IVec S_ 1 :=
  let main_c_5 : IVec S_ 1 := constantI S_ 1 1#1
  let main_v17 : IVec S_ 1 := (fun x v => Host.reduce IntOp.andi x v reducesTo_S10x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S2x5x32x32 .f32 := Host.absf main_arg7
  let main_cst_8 : FVec F S_ .f32 := constant S_ .f32 0x7F800000#32
  let main_v25 : FVec F S2x5x32x32 .f32 := broadcastInDim S2x5x32x32 ![] bcast_S_S2x5x32x32 main_cst_8
  let main_v26 : IVec S2x5x32x32 1 := cmpf .olt main_v24 main_v25
  let main_c_9 : IVec S_ 1 := constantI S_ 1 1#1
  let main_v27 : IVec S_ 1 := (fun x v => Host.reduce IntOp.andi x v reducesTo_S2x5x32x32_S_d0_1_2_3 h_S_) main_v26 main_c_9
  let main_v28 : IVec S_ 1 := andi main_v23 main_v27
  let main_v29 : FVec F S2x32 .f32 := Host.absf main_arg8
  let main_cst_10 : FVec F S_ .f32 := constant S_ .f32 0x7F800000#32
  let main_v30 : FVec F S2x32 .f32 := broadcastInDim S2x32 ![] bcast_S_S2x32 main_cst_10
  let main_v31 : IVec S2x32 1 := cmpf .olt main_v29 main_v30
  let main_c_11 : IVec S_ 1 := constantI S_ 1 1#1
  let main_v32 : IVec S_ 1 := (fun x v => Host.reduce IntOp.andi x v reducesTo_S2x32_S_d0_1 h_S_) main_v31 main_c_11
  let main_v33 : IVec S_ 1 := andi main_v28 main_v32
  fn_part2 (F := F) main_arg9 main_arg10 main_v33

def fn {F : FTy → Type} [FloatOps F] (main_arg0 : FVec F S100000x8 .f32) (main_arg1 : FVec F S100000x2 .f32) (main_arg2 : IVec S2x3200000 32) (main_arg3 : FVec F S3200000 .f32) (main_arg4 : IVec S100000 32) (main_arg5 : FVec F S10x32 .f32) (main_arg6 : FVec F S32 .f32) (main_arg7 : FVec F S2x5x32x32 .f32) (main_arg8 : FVec F S2x32 .f32) (main_arg9 : FVec F S32x1 .f32) (main_arg10 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S3200000 .f32 := Host.absf main_arg3
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S10x32 .f32 := Host.absf main_arg5
  let main_cst_4 : FVec F S_ .f32 := constant S_ .f32 0x7F800000#32
  let main_v15 : FVec F S10x32 .f32 := broadcastInDim S10x32 ![] bcast_S_S10x32 main_cst_4
  let main_v16 : IVec S10x32 1 := cmpf .olt main_v14 main_v15
  fn_part1 (F := F) main_arg6 main_arg7 main_arg8 main_arg9 main_arg10 main_v13 main_v16
-- ==== Kernel.lean ====
abbrev S100000x8 : Shape := ⟨2, ![100000, 8]⟩
abbrev S100000x2 : Shape := ⟨2, ![100000, 2]⟩
abbrev S2x3200000 : Shape := ⟨2, ![2, 3200000]⟩
abbrev S3200000 : Shape := ⟨1, ![3200000]⟩
abbrev S100000 : Shape := ⟨1, ![100000]⟩
abbrev S10x32 : Shape := ⟨2, ![10, 32]⟩
abbrev S32 : Shape := ⟨1, ![32]⟩
abbrev S2x5x32x32 : Shape := ⟨4, ![2, 5, 32, 32]⟩
abbrev S2x32 : Shape := ⟨2, ![2, 32]⟩
abbrev S32x1 : Shape := ⟨2, ![32, 1]⟩
abbrev S1 : Shape := ⟨1, ![1]⟩
abbrev S1x3200000 : Shape := ⟨2, ![1, 3200000]⟩
abbrev S_ : Shape := ⟨0, ![]⟩
abbrev S3200000x1 : Shape := ⟨2, ![3200000, 1]⟩
abbrev S100000x10 : Shape := ⟨2, ![100000, 10]⟩
abbrev S100000x32 : Shape := ⟨2, ![100000, 32]⟩
abbrev S5000x10 : Shape := ⟨2, ![5000, 10]⟩
abbrev S5000x32 : Shape := ⟨2, ![5000, 32]⟩
abbrev S1x32 : Shape := ⟨2, ![1, 32]⟩
abbrev S3200000x32 : Shape := ⟨2, ![3200000, 32]⟩
abbrev S100000x160 : Shape := ⟨2, ![100000, 160]⟩
abbrev S1x5x32x32 : Shape := ⟨4, ![1, 5, 32, 32]⟩
abbrev S5x32x32 : Shape := ⟨3, ![5, 32, 32]⟩
abbrev S160x32 : Shape := ⟨2, ![160, 32]⟩
abbrev S5000x160 : Shape := ⟨2, ![5000, 160]⟩
abbrev S100000x1 : Shape := ⟨2, ![100000, 1]⟩
abbrev S5000x1 : Shape := ⟨2, ![5000, 1]⟩
abbrev S1x1 : Shape := ⟨2, ![1, 1]⟩
abbrev S100x1 : Shape := ⟨2, ![100, 1]⟩

abbrev nBuf : Space → Nat
  | .hbm => 209
  | .vmem => 24
  | .smem => 0
  | _ => 0

abbrev hbmTy0_0 (i : Nat) : BufTy := match i % 128 with
  | 0 => ⟨S100000x8, .f32⟩
  | 1 => ⟨S100000x2, .f32⟩
  | 2 => ⟨S2x3200000, .i32⟩
  | 3 => ⟨S3200000, .f32⟩
  | 4 => ⟨S100000, .i32⟩
  | 5 => ⟨S10x32, .f32⟩
  | 6 => ⟨S32, .f32⟩
  | 7 => ⟨S2x5x32x32, .f32⟩
  | 8 => ⟨S2x32, .f32⟩
  | 9 => ⟨S32x1, .f32⟩
  | 10 => ⟨S1, .f32⟩
  | 11 => ⟨S1x3200000, .i32⟩
  | 12 => ⟨S3200000, .i32⟩
  | 13 => ⟨S1x3200000, .i32⟩
  | 14 => ⟨S3200000, .i32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S100000x10, .f32⟩
  | 51 => ⟨S100000x32, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x32, .f32⟩
  | 61 => ⟨S3200000x1, .f32⟩
  | 62 => ⟨S3200000x32, .f32⟩
  | 63 => ⟨S3200000x32, .f32⟩
  | 64 => ⟨S_, .f32⟩
  | 65 => ⟨S100000x32, .f32⟩
  | 66 => ⟨S3200000x1, .i32⟩
  | 67 => ⟨S100000x32, .f32⟩
  | 68 => ⟨S_, .i32⟩
  | 69 => ⟨S3200000, .i32⟩
  | 70 => ⟨S3200000, .i1⟩
  | 71 => ⟨S_, .i32⟩
  | 72 => ⟨S3200000, .i32⟩
  | 73 => ⟨S3200000, .i32⟩
  | 74 => ⟨S3200000, .i32⟩
  | 75 => ⟨S3200000x1, .i32⟩
  | 76 => ⟨S3200000x32, .f32⟩
  | 77 => ⟨S3200000x1, .f32⟩
  | 78 => ⟨S3200000x32, .f32⟩
  | 79 => ⟨S3200000x32, .f32⟩
  | 80 => ⟨S_, .f32⟩
  | 81 => ⟨S100000x32, .f32⟩
  | 82 => ⟨S3200000x1, .i32⟩
  | 83 => ⟨S100000x32, .f32⟩
  | 84 => ⟨S_, .i32⟩
  | 85 => ⟨S3200000, .i32⟩
  | 86 => ⟨S3200000, .i1⟩
  | 87 => ⟨S_, .i32⟩
  | 88 => ⟨S3200000, .i32⟩
  | 89 => ⟨S3200000, .i32⟩
  | 90 => ⟨S3200000, .i32⟩
  | 91 => ⟨S3200000x1, .i32⟩
  | 92 => ⟨S3200000x32, .f32⟩
  | 93 => ⟨S3200000x1, .f32⟩
  | 94 => ⟨S3200000x32, .f32⟩
  | 95 => ⟨S3200000x32, .f32⟩
  | 96 => ⟨S_, .f32⟩
  | 97 => ⟨S100000x32, .f32⟩
  | 98 => ⟨S3200000x1, .i32⟩
  | 99 => ⟨S100000x32, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000x32, .f32⟩
  | 109 => ⟨S3200000x1, .f32⟩
  | 110 => ⟨S3200000x32, .f32⟩
  | 111 => ⟨S3200000x32, .f32⟩
  | 112 => ⟨S_, .f32⟩
  | 113 => ⟨S100000x32, .f32⟩
  | 114 => ⟨S3200000x1, .i32⟩
  | 115 => ⟨S100000x32, .f32⟩
  | 116 => ⟨S100000x160, .f32⟩
  | 117 => ⟨S1x5x32x32, .f32⟩
  | 118 => ⟨S5x32x32, .f32⟩
  | 119 => ⟨S160x32, .f32⟩
  | 120 => ⟨S1x32, .f32⟩
  | 121 => ⟨S32, .f32⟩
  | 122 => ⟨S100000x32, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x8, .f32⟩

abbrev hbmTy0_1 (i : Nat) : BufTy := match i % 128 with
  | 0 => ⟨S3200000, .i32⟩
  | 1 => ⟨S3200000, .i32⟩
  | 2 => ⟨S3200000x1, .i32⟩
  | 3 => ⟨S3200000x32, .f32⟩
  | 4 => ⟨S3200000x1, .f32⟩
  | 5 => ⟨S3200000x32, .f32⟩
  | 6 => ⟨S3200000x32, .f32⟩
  | 7 => ⟨S_, .f32⟩
  | 8 => ⟨S100000x32, .f32⟩
  | 9 => ⟨S3200000x1, .i32⟩
  | 10 => ⟨S100000x32, .f32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000x32, .f32⟩
  | 20 => ⟨S3200000x1, .f32⟩
  | 21 => ⟨S3200000x32, .f32⟩
  | 22 => ⟨S3200000x32, .f32⟩
  | 23 => ⟨S_, .f32⟩
  | 24 => ⟨S100000x32, .f32⟩
  | 25 => ⟨S3200000x1, .i32⟩
  | 26 => ⟨S100000x32, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x32, .f32⟩
  | 36 => ⟨S3200000x1, .f32⟩
  | 37 => ⟨S3200000x32, .f32⟩
  | 38 => ⟨S3200000x32, .f32⟩
  | 39 => ⟨S_, .f32⟩
  | 40 => ⟨S100000x32, .f32⟩
  | 41 => ⟨S3200000x1, .i32⟩
  | 42 => ⟨S100000x32, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x32, .f32⟩
  | 52 => ⟨S3200000x1, .f32⟩
  | 53 => ⟨S3200000x32, .f32⟩
  | 54 => ⟨S3200000x32, .f32⟩
  | 55 => ⟨S_, .f32⟩
  | 56 => ⟨S100000x32, .f32⟩
  | 57 => ⟨S3200000x1, .i32⟩
  | 58 => ⟨S100000x32, .f32⟩
  | 59 => ⟨S100000x160, .f32⟩
  | 60 => ⟨S1x5x32x32, .f32⟩
  | 61 => ⟨S5x32x32, .f32⟩
  | 62 => ⟨S160x32, .f32⟩
  | 63 => ⟨S1x32, .f32⟩
  | 64 => ⟨S32, .f32⟩
  | 65 => ⟨S100000x32, .f32⟩
  | 66 => ⟨S100000x1, .f32⟩
  | 67 => ⟨S_, .f32⟩
  | 68 => ⟨S100x1, .f32⟩
  | 69 => ⟨S100000x1, .i32⟩
  | 70 => ⟨S100x1, .f32⟩
  | 71 => ⟨S_, .f32⟩
  | 72 => ⟨S100000x1, .f32⟩
  | 73 => ⟨S_, .f32⟩
  | 74 => ⟨S100x1, .f32⟩
  | 75 => ⟨S100000x1, .i32⟩
  | 76 => ⟨S100x1, .f32⟩
  | 77 => ⟨S_, .f32⟩
  | 78 => ⟨S100x1, .f32⟩
  | 79 => ⟨S100x1, .f32⟩
  | 80 => ⟨S100x1, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S5000x10, .f32⟩
  | .local _ .vmem, ⟨1, _⟩ => ⟨S5000x10, .f32⟩
  | .local _ .vmem, ⟨2, _⟩ => ⟨S10x32, .f32⟩
  | .local _ .vmem, ⟨3, _⟩ => ⟨S32, .f32⟩
  | .local _ .vmem, ⟨4, _⟩ => ⟨S5000x32, .f32⟩
  | .local _ .vmem, ⟨5, _⟩ => ⟨S5000x32, .f32⟩
  | .local _ .vmem, ⟨6, _⟩ => ⟨S5000x160, .f32⟩
  | .local _ .vmem, ⟨7, _⟩ => ⟨S5000x160, .f32⟩
  | .local _ .vmem, ⟨8, _⟩ => ⟨S160x32, .f32⟩
  | .local _ .vmem, ⟨9, _⟩ => ⟨S32, .f32⟩
  | .local _ .vmem, ⟨10, _⟩ => ⟨S5000x32, .f32⟩
  | .local _ .vmem, ⟨11, _⟩ => ⟨S5000x32, .f32⟩
  | .local _ .vmem, ⟨12, _⟩ => ⟨S5000x160, .f32⟩
  | .local _ .vmem, ⟨13, _⟩ => ⟨S5000x160, .f32⟩
  | .local _ .vmem, ⟨14, _⟩ => ⟨S160x32, .f32⟩
  | .local _ .vmem, ⟨15, _⟩ => ⟨S32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S32x1, .f32⟩
  | .local _ .vmem, ⟨21, _⟩ => ⟨S1, .f32⟩
  | .local _ .vmem, ⟨22, _⟩ => ⟨S5000x1, .f32⟩
  | .local _ .vmem, ⟨23, _⟩ => ⟨S5000x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_18 : Ref sig .tc := ⟨.hbm, 123, rfl⟩
abbrev main_v90 : Ref sig .tc := ⟨.hbm, 124, rfl⟩
abbrev main_v91 : Ref sig .tc := ⟨.hbm, 125, rfl⟩
abbrev main_c_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_20 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_21 : Ref sig .tc := ⟨.hbm, 139, rfl⟩
abbrev main_v103 : Ref sig .tc := ⟨.hbm, 140, rfl⟩
abbrev main_v104 : Ref sig .tc := ⟨.hbm, 141, rfl⟩
abbrev main_c_22 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_23 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c_24 : Ref sig .tc := ⟨.hbm, 155, rfl⟩
abbrev main_v116 : Ref sig .tc := ⟨.hbm, 156, rfl⟩
abbrev main_v117 : Ref sig .tc := ⟨.hbm, 157, rfl⟩
abbrev main_c_25 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_26 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_c_27 : Ref sig .tc := ⟨.hbm, 171, rfl⟩
abbrev main_v129 : Ref sig .tc := ⟨.hbm, 172, rfl⟩
abbrev main_v130 : Ref sig .tc := ⟨.hbm, 173, rfl⟩
abbrev main_c_28 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_29 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_30 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_31 : Ref sig .tc := ⟨.hbm, 199, rfl⟩
abbrev main_v153 : Ref sig .tc := ⟨.hbm, 200, rfl⟩
abbrev main_cst_32 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_33 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S160x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x160 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S160x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  concatenates_S100000x8_S100000x2_S100000x10_d1 : Shape.Concatenates [S100000x8, S100000x2] S100000x10 1
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  bitsLt_bf16_f32 : FTy.bits .bf16 < FTy.bits .f32
  inb_S10x32_S10x32_0_0 : ∀ a, (![0, 0] : Fin 2 → Nat) a + S10x32.size a ≤ S10x32.size a
  h_S10x32 : 0 < S10x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  concatenates_S100000x32_S100000x32_S100000x32_S100000x32_S100000x32_S100000x160_d1 : Shape.Concatenates [S100000x32, S100000x32, S100000x32, S100000x32, S100000x32] S100000x160 1
  slices_S2x5x32x32_S1x5x32x32_0_0_0_0 : S2x5x32x32.Slices ![0, 0, 0, 0] S1x5x32x32
  shapeCasts_S1x5x32x32_S5x32x32 : S1x5x32x32.ShapeCasts S5x32x32
  shapeCasts_S5x32x32_S160x32 : S5x32x32.ShapeCasts S160x32
  slices_S2x32_S1x32_0_0 : S2x32.Slices ![0, 0] S1x32
  shapeCasts_S1x32_S32 : S1x32.ShapeCasts S32
  inb_S5000x160_S5000x160_0_0 : ∀ a, (![0, 0] : Fin 2 → Nat) a + S5000x160.size a ≤ S5000x160.size a
  h_S5000x160 : 0 < S5000x160.numel
  shapeCasts_S5000x160_S5000x160 : S5000x160.ShapeCasts S5000x160
  inb_S160x32_S160x32_0_0 : ∀ a, (![0, 0] : Fin 2 → Nat) a + S160x32.size a ≤ S160x32.size a
  h_S160x32 : 0 < S160x32.numel
  shapeCasts_S160x32_S160x32 : S160x32.ShapeCasts S160x32
  shapeCasts_S32_S32 : S32.ShapeCasts S32
  slices_S2x5x32x32_S1x5x32x32_1_0_0_0 : S2x5x32x32.Slices ![1, 0, 0, 0] S1x5x32x32
  slices_S2x32_S1x32_1_0 : S2x32.Slices ![1, 0] S1x32
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S100x1 : S_.BroadcastsInDim S100x1 (![] : Fin 0 → Fin S100x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x10_S10x32_S5000x32_1_0_0_1_n_n_wf : DotDims.WF S5000x10 S10x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x160_S160x32_S5000x32_1_0_0_1_n_n_wf : DotDims.WF S5000x160 S160x32 S5000x32 [1] [0] [0] [1] [] []
  dot_S5000x32_S32x1_S5000x1_1_0_0_1_n_n_wf : DotDims.WF S5000x32 S32x1 S5000x1 [1] [0] [0] [1] [] []
  scatter_S100x1_S100000x1_S100000x1_1_0_0_1_wf : ScatterDims.WF S100x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S100000x10.size a
  hwx0_0 : ∀ i : grid0.Coords, EltTy.bits .f32 = 32 ∨ (Rect.block (s := S100000x10) S5000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x32.size a ≤ S10x32.size a
  hwx0_1 : ∀ i : grid0.Coords, EltTy.bits .f32 = 32 ∨ (Rect.block (s := S10x32) S10x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x160.size a ≤ S100000x160.size a
  hwx1_0 : ∀ i : grid1.Coords, EltTy.bits .f32 = 32 ∨ (Rect.block (s := S100000x160) S5000x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S160x32.size a ≤ S160x32.size a
  hwx1_1 : ∀ i : grid1.Coords, EltTy.bits .f32 = 32 ∨ (Rect.block (s := S160x32) S160x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x160.size a ≤ S100000x160.size a
  hwx2_0 : ∀ i : grid2.Coords, EltTy.bits .f32 = 32 ∨ (Rect.block (s := S100000x160) S5000x160.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S160x32.size a ≤ S160x32.size a
  hwx2_1 : ∀ i : grid2.Coords, EltTy.bits .f32 = 32 ∨ (Rect.block (s := S160x32) S160x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x1.size a ≤ S32x1.size a
  hwx3_1 : ∀ i : grid3.Coords, EltTy.bits .f32 = 32 ∨ (Rect.block (s := S32x1) S32x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1.size a ≤ S1.size a
  hwx3_2 : ∀ i : grid3.Coords, EltTy.bits .f32 = 32 ∨ (Rect.block (s := S1) S1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x10_S10x32_S5000x32_1_0_0_1_n_n : DotDims S5000x10 S10x32 S5000x32 where
  lhsContracting := [1]
  rhsContracting := [0]
  lhsNonContracting := [0]
  rhsNonContracting := [1]
  lhsBatch := []
  rhsBatch := []
  wf := dot_S5000x10_S10x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x160_S160x32_S5000x32_1_0_0_1_n_n : DotDims S5000x160 S160x32 S5000x32 where
  lhsContracting := [1]
  rhsContracting := [0]
  lhsNonContracting := [0]
  rhsNonContracting := [1]
  lhsBatch := []
  rhsBatch := []
  wf := dot_S5000x160_S160x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def scatter_S100x1_S100000x1_S100000x1_1_0_0_1 : ScatterDims S100x1 S100000x1 S100000x1 where
  updateWindowDims := [1]
  insertedWindowDims := [0]
  scatterDimsToOperandDims := [0]
  indexVectorDim := 1
  wf := scatter_S100x1_S100000x1_S100000x1_1_0_0_1_wf

abbrev win0_0 : Pipeline.Window sig grid0 :=
  Pipeline.Window.ofSpec (Memref.whole main_v29) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S10x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v83) S5000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v86) S160x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v88) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v89) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v142) S5000x160.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v145) S160x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v147) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v148) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v148) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S32x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v149) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x8 : Shape := ⟨2, ![100000, 8]⟩
abbrev S100000x2 : Shape := ⟨2, ![100000, 2]⟩
abbrev S2x3200000 : Shape := ⟨2, ![2, 3200000]⟩
abbrev S3200000 : Shape := ⟨1, ![3200000]⟩
abbrev S100000 : Shape := ⟨1, ![100000]⟩
abbrev S10x32 : Shape := ⟨2, ![10, 32]⟩
abbrev S32 : Shape := ⟨1, ![32]⟩
abbrev S2x5x32x32 : Shape := ⟨4, ![2, 5, 32, 32]⟩
abbrev S2x32 : Shape := ⟨2, ![2, 32]⟩
abbrev S32x1 : Shape := ⟨2, ![32, 1]⟩
abbrev S1 : Shape := ⟨1, ![1]⟩
abbrev S1x3200000 : Shape := ⟨2, ![1, 3200000]⟩
abbrev S_ : Shape := ⟨0, ![]⟩
abbrev S3200000x1 : Shape := ⟨2, ![3200000, 1]⟩
abbrev S100000x10 : Shape := ⟨2, ![100000, 10]⟩
abbrev S100000x32 : Shape := ⟨2, ![100000, 32]⟩
abbrev S1x32 : Shape := ⟨2, ![1, 32]⟩
abbrev S1x1x32x32 : Shape := ⟨4, ![1, 1, 32, 32]⟩
abbrev S32x32 : Shape := ⟨2, ![32, 32]⟩
abbrev S3200000x32 : Shape := ⟨2, ![3200000, 32]⟩
abbrev S100000x1 : Shape := ⟨2, ![100000, 1]⟩
abbrev S1x1 : Shape := ⟨2, ![1, 1]⟩
abbrev S100x1 : Shape := ⟨2, ![100, 1]⟩

abbrev nBuf : Space → Nat
  | .hbm => 270
  | .vmem => 0
  | .smem => 0
  | _ => 0

abbrev hbmTy0_0 (i : Nat) : BufTy := match i % 128 with
  | 0 => ⟨S100000x8, .f32⟩
  | 1 => ⟨S100000x2, .f32⟩
  | 2 => ⟨S2x3200000, .i32⟩
  | 3 => ⟨S3200000, .f32⟩
  | 4 => ⟨S100000, .i32⟩
  | 5 => ⟨S10x32, .f32⟩
  | 6 => ⟨S32, .f32⟩
  | 7 => ⟨S2x5x32x32, .f32⟩
  | 8 => ⟨S2x32, .f32⟩
  | 9 => ⟨S32x1, .f32⟩
  | 10 => ⟨S1, .f32⟩
  | 11 => ⟨S1x3200000, .i32⟩
  | 12 => ⟨S3200000, .i32⟩
  | 13 => ⟨S1x3200000, .i32⟩
  | 14 => ⟨S3200000, .i32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000, .f32⟩
  | 49 => ⟨S3200000, .f32⟩
  | 50 => ⟨S100000x10, .f32⟩
  | 51 => ⟨S100000x32, .f32⟩
  | 52 => ⟨S1x32, .f32⟩
  | 53 => ⟨S100000x32, .f32⟩
  | 54 => ⟨S100000x32, .f32⟩
  | 55 => ⟨S_, .f32⟩
  | 56 => ⟨S100000x32, .f32⟩
  | 57 => ⟨S100000x32, .i1⟩
  | 58 => ⟨S_, .f32⟩
  | 59 => ⟨S100000x32, .f32⟩
  | 60 => ⟨S100000x32, .f32⟩
  | 61 => ⟨S100000x32, .f32⟩
  | 62 => ⟨S1x1x32x32, .f32⟩
  | 63 => ⟨S32x32, .f32⟩
  | 64 => ⟨S100000x32, .f32⟩
  | 65 => ⟨S_, .i32⟩
  | 66 => ⟨S3200000, .i32⟩
  | 67 => ⟨S3200000, .i1⟩
  | 68 => ⟨S_, .i32⟩
  | 69 => ⟨S3200000, .i32⟩
  | 70 => ⟨S3200000, .i32⟩
  | 71 => ⟨S3200000, .i32⟩
  | 72 => ⟨S3200000x1, .i32⟩
  | 73 => ⟨S3200000x32, .f32⟩
  | 74 => ⟨S3200000x1, .f32⟩
  | 75 => ⟨S3200000x32, .f32⟩
  | 76 => ⟨S3200000x32, .f32⟩
  | 77 => ⟨S_, .f32⟩
  | 78 => ⟨S100000x32, .f32⟩
  | 79 => ⟨S3200000x1, .i32⟩
  | 80 => ⟨S100000x32, .f32⟩
  | 81 => ⟨S1x1x32x32, .f32⟩
  | 82 => ⟨S32x32, .f32⟩
  | 83 => ⟨S100000x32, .f32⟩
  | 84 => ⟨S100000x32, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000x32, .f32⟩
  | 94 => ⟨S3200000x1, .f32⟩
  | 95 => ⟨S3200000x32, .f32⟩
  | 96 => ⟨S3200000x32, .f32⟩
  | 97 => ⟨S_, .f32⟩
  | 98 => ⟨S100000x32, .f32⟩
  | 99 => ⟨S3200000x1, .i32⟩
  | 100 => ⟨S100000x32, .f32⟩
  | 101 => ⟨S1x1x32x32, .f32⟩
  | 102 => ⟨S32x32, .f32⟩
  | 103 => ⟨S100000x32, .f32⟩
  | 104 => ⟨S100000x32, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000x32, .f32⟩
  | 114 => ⟨S3200000x1, .f32⟩
  | 115 => ⟨S3200000x32, .f32⟩
  | 116 => ⟨S3200000x32, .f32⟩
  | 117 => ⟨S_, .f32⟩
  | 118 => ⟨S100000x32, .f32⟩
  | 119 => ⟨S3200000x1, .i32⟩
  | 120 => ⟨S100000x32, .f32⟩
  | 121 => ⟨S1x1x32x32, .f32⟩
  | 122 => ⟨S32x32, .f32⟩
  | 123 => ⟨S100000x32, .f32⟩
  | 124 => ⟨S100000x32, .f32⟩
  | 125 => ⟨S_, .i32⟩
  | 126 => ⟨S3200000, .i32⟩
  | 127 => ⟨S3200000, .i1⟩
  | _ => ⟨S100000x8, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000x32, .f32⟩
  | 6 => ⟨S3200000x1, .f32⟩
  | 7 => ⟨S3200000x32, .f32⟩
  | 8 => ⟨S3200000x32, .f32⟩
  | 9 => ⟨S_, .f32⟩
  | 10 => ⟨S100000x32, .f32⟩
  | 11 => ⟨S3200000x1, .i32⟩
  | 12 => ⟨S100000x32, .f32⟩
  | 13 => ⟨S1x1x32x32, .f32⟩
  | 14 => ⟨S32x32, .f32⟩
  | 15 => ⟨S100000x32, .f32⟩
  | 16 => ⟨S100000x32, .f32⟩
  | 17 => ⟨S1x32, .f32⟩
  | 18 => ⟨S32, .f32⟩
  | 19 => ⟨S1x32, .f32⟩
  | 20 => ⟨S100000x32, .f32⟩
  | 21 => ⟨S100000x32, .f32⟩
  | 22 => ⟨S_, .f32⟩
  | 23 => ⟨S100000x32, .f32⟩
  | 24 => ⟨S100000x32, .i1⟩
  | 25 => ⟨S_, .f32⟩
  | 26 => ⟨S100000x32, .f32⟩
  | 27 => ⟨S100000x32, .f32⟩
  | 28 => ⟨S100000x32, .f32⟩
  | 29 => ⟨S1x1x32x32, .f32⟩
  | 30 => ⟨S32x32, .f32⟩
  | 31 => ⟨S100000x32, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x32, .f32⟩
  | 41 => ⟨S3200000x1, .f32⟩
  | 42 => ⟨S3200000x32, .f32⟩
  | 43 => ⟨S3200000x32, .f32⟩
  | 44 => ⟨S_, .f32⟩
  | 45 => ⟨S100000x32, .f32⟩
  | 46 => ⟨S3200000x1, .i32⟩
  | 47 => ⟨S100000x32, .f32⟩
  | 48 => ⟨S1x1x32x32, .f32⟩
  | 49 => ⟨S32x32, .f32⟩
  | 50 => ⟨S100000x32, .f32⟩
  | 51 => ⟨S100000x32, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x32, .f32⟩
  | 61 => ⟨S3200000x1, .f32⟩
  | 62 => ⟨S3200000x32, .f32⟩
  | 63 => ⟨S3200000x32, .f32⟩
  | 64 => ⟨S_, .f32⟩
  | 65 => ⟨S100000x32, .f32⟩
  | 66 => ⟨S3200000x1, .i32⟩
  | 67 => ⟨S100000x32, .f32⟩
  | 68 => ⟨S1x1x32x32, .f32⟩
  | 69 => ⟨S32x32, .f32⟩
  | 70 => ⟨S100000x32, .f32⟩
  | 71 => ⟨S100000x32, .f32⟩
  | 72 => ⟨S_, .i32⟩
  | 73 => ⟨S3200000, .i32⟩
  | 74 => ⟨S3200000, .i1⟩
  | 75 => ⟨S_, .i32⟩
  | 76 => ⟨S3200000, .i32⟩
  | 77 => ⟨S3200000, .i32⟩
  | 78 => ⟨S3200000, .i32⟩
  | 79 => ⟨S3200000x1, .i32⟩
  | 80 => ⟨S3200000x32, .f32⟩
  | 81 => ⟨S3200000x1, .f32⟩
  | 82 => ⟨S3200000x32, .f32⟩
  | 83 => ⟨S3200000x32, .f32⟩
  | 84 => ⟨S_, .f32⟩
  | 85 => ⟨S100000x32, .f32⟩
  | 86 => ⟨S3200000x1, .i32⟩
  | 87 => ⟨S100000x32, .f32⟩
  | 88 => ⟨S1x1x32x32, .f32⟩
  | 89 => ⟨S32x32, .f32⟩
  | 90 => ⟨S100000x32, .f32⟩
  | 91 => ⟨S100000x32, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000x32, .f32⟩
  | 101 => ⟨S3200000x1, .f32⟩
  | 102 => ⟨S3200000x32, .f32⟩
  | 103 => ⟨S3200000x32, .f32⟩
  | 104 => ⟨S_, .f32⟩
  | 105 => ⟨S100000x32, .f32⟩
  | 106 => ⟨S3200000x1, .i32⟩
  | 107 => ⟨S100000x32, .f32⟩
  | 108 => ⟨S1x1x32x32, .f32⟩
  | 109 => ⟨S32x32, .f32⟩
  | 110 => ⟨S100000x32, .f32⟩
  | 111 => ⟨S100000x32, .f32⟩
  | 112 => ⟨S1x32, .f32⟩
  | 113 => ⟨S32, .f32⟩
  | 114 => ⟨S1x32, .f32⟩
  | 115 => ⟨S100000x32, .f32⟩
  | 116 => ⟨S100000x32, .f32⟩
  | 117 => ⟨S_, .f32⟩
  | 118 => ⟨S100000x32, .f32⟩
  | 119 => ⟨S100000x32, .i1⟩
  | 120 => ⟨S_, .f32⟩
  | 121 => ⟨S100000x32, .f32⟩
  | 122 => ⟨S100000x32, .f32⟩
  | 123 => ⟨S100000x32, .f32⟩
  | 124 => ⟨S100000x1, .f32⟩
  | 125 => ⟨S1x1, .f32⟩
  | 126 => ⟨S100000x1, .f32⟩
  | 127 => ⟨S100000x1, .f32⟩
  | _ => ⟨S100000x8, .f32⟩

abbrev hbmTy0_2 (i : Nat) : BufTy := match i % 128 with
  | 0 => ⟨S_, .f32⟩
  | 1 => ⟨S100x1, .f32⟩
  | 2 => ⟨S100000x1, .i32⟩
  | 3 => ⟨S100x1, .f32⟩
  | 4 => ⟨S_, .f32⟩
  | 5 => ⟨S100000x1, .f32⟩
  | 6 => ⟨S_, .f32⟩
  | 7 => ⟨S100x1, .f32⟩
  | 8 => ⟨S100000x1, .i32⟩
  | 9 => ⟨S100x1, .f32⟩
  | 10 => ⟨S_, .f32⟩
  | 11 => ⟨S100x1, .f32⟩
  | 12 => ⟨S100x1, .f32⟩
  | 13 => ⟨S100x1, .f32⟩
  | _ => ⟨S100000x8, .f32⟩

abbrev hbmTy (i : Nat) : BufTy := match i / 128 with
  | 0 => hbmTy0_0 i
  | 1 => hbmTy0_1 i
  | 2 => hbmTy0_2 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_6 : Ref sig .tc := ⟨.hbm, 65, rfl⟩
abbrev main_v38 : Ref sig .tc := ⟨.hbm, 66, rfl⟩
abbrev main_v39 : Ref sig .tc := ⟨.hbm, 67, rfl⟩
abbrev main_c_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_9 : Ref sig .tc := ⟨.hbm, 85, rfl⟩
abbrev main_v55 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_12 : Ref sig .tc := ⟨.hbm, 105, rfl⟩
abbrev main_v72 : Ref sig .tc := ⟨.hbm, 106, rfl⟩
abbrev main_v73 : Ref sig .tc := ⟨.hbm, 107, rfl⟩
abbrev main_c_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_15 : Ref sig .tc := ⟨.hbm, 125, rfl⟩
abbrev main_v89 : Ref sig .tc := ⟨.hbm, 126, rfl⟩
abbrev main_v90 : Ref sig .tc := ⟨.hbm, 127, rfl⟩
abbrev main_c_16 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_17 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_call2_cst : Ref sig .tc := ⟨.hbm, 150, rfl⟩
abbrev main_call2_v0 : Ref sig .tc := ⟨.hbm, 151, rfl⟩
abbrev main_call2_v1 : Ref sig .tc := ⟨.hbm, 152, rfl⟩
abbrev main_call2_cst_0 : Ref sig .tc := ⟨.hbm, 153, rfl⟩
abbrev main_call2_v2 : Ref sig .tc := ⟨.hbm, 154, rfl⟩
abbrev main_call2_v3 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_c_18 : Ref sig .tc := ⟨.hbm, 160, rfl⟩
abbrev main_v115 : Ref sig .tc := ⟨.hbm, 161, rfl⟩
abbrev main_v116 : Ref sig .tc := ⟨.hbm, 162, rfl⟩
abbrev main_c_19 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_20 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_c_21 : Ref sig .tc := ⟨.hbm, 180, rfl⟩
abbrev main_v132 : Ref sig .tc := ⟨.hbm, 181, rfl⟩
abbrev main_v133 : Ref sig .tc := ⟨.hbm, 182, rfl⟩
abbrev main_c_22 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_23 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_c_24 : Ref sig .tc := ⟨.hbm, 200, rfl⟩
abbrev main_v149 : Ref sig .tc := ⟨.hbm, 201, rfl⟩
abbrev main_v150 : Ref sig .tc := ⟨.hbm, 202, rfl⟩
abbrev main_c_25 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_26 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_c_27 : Ref sig .tc := ⟨.hbm, 220, rfl⟩
abbrev main_v166 : Ref sig .tc := ⟨.hbm, 221, rfl⟩
abbrev main_v167 : Ref sig .tc := ⟨.hbm, 222, rfl⟩
abbrev main_c_28 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_29 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_call3_cst : Ref sig .tc := ⟨.hbm, 245, rfl⟩
abbrev main_call3_v0 : Ref sig .tc := ⟨.hbm, 246, rfl⟩
abbrev main_call3_v1 : Ref sig .tc := ⟨.hbm, 247, rfl⟩
abbrev main_call3_cst_0 : Ref sig .tc := ⟨.hbm, 248, rfl⟩
abbrev main_call3_v2 : Ref sig .tc := ⟨.hbm, 249, rfl⟩
abbrev main_call3_v3 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_cst_30 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_cst_31 : Ref sig .tc := ⟨.hbm, 260, rfl⟩
abbrev main_v196 : Ref sig .tc := ⟨.hbm, 261, rfl⟩
abbrev main_cst_32 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_cst_33 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  concatenates_S100000x8_S100000x2_S100000x10_d1 : Shape.Concatenates [S100000x8, S100000x2] S100000x10 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S2x5x32x32_S1x1x32x32_0_0_0_0 : S2x5x32x32.Slices ![0, 0, 0, 0] S1x1x32x32
  shapeCasts_S1x1x32x32_S32x32 : S1x1x32x32.ShapeCasts S32x32
  bcast_S3200000x1_S3200000x32_0_1 : S3200000x1.BroadcastsInDim S3200000x32 (![0, 1] : Fin 2 → Fin S3200000x32.rank)
  slices_S2x5x32x32_S1x1x32x32_0_1_0_0 : S2x5x32x32.Slices ![0, 1, 0, 0] S1x1x32x32
  slices_S2x5x32x32_S1x1x32x32_0_2_0_0 : S2x5x32x32.Slices ![0, 2, 0, 0] S1x1x32x32
  slices_S2x5x32x32_S1x1x32x32_0_3_0_0 : S2x5x32x32.Slices ![0, 3, 0, 0] S1x1x32x32
  slices_S2x5x32x32_S1x1x32x32_0_4_0_0 : S2x5x32x32.Slices ![0, 4, 0, 0] S1x1x32x32
  slices_S2x32_S1x32_0_0 : S2x32.Slices ![0, 0] S1x32
  shapeCasts_S1x32_S32 : S1x32.ShapeCasts S32
  slices_S2x5x32x32_S1x1x32x32_1_0_0_0 : S2x5x32x32.Slices ![1, 0, 0, 0] S1x1x32x32
  slices_S2x5x32x32_S1x1x32x32_1_1_0_0 : S2x5x32x32.Slices ![1, 1, 0, 0] S1x1x32x32
  slices_S2x5x32x32_S1x1x32x32_1_2_0_0 : S2x5x32x32.Slices ![1, 2, 0, 0] S1x1x32x32
  slices_S2x5x32x32_S1x1x32x32_1_3_0_0 : S2x5x32x32.Slices ![1, 3, 0, 0] S1x1x32x32
  slices_S2x5x32x32_S1x1x32x32_1_4_0_0 : S2x5x32x32.Slices ![1, 4, 0, 0] S1x1x32x32
  slices_S2x32_S1x32_1_0 : S2x32.Slices ![1, 0] S1x32
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100x1 : S_.BroadcastsInDim S100x1 (![] : Fin 0 → Fin S100x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x10_S10x32_S100000x32_1_0_0_1_n_n_wf : DotDims.WF S100000x10 S10x32 S100000x32 [1] [0] [0] [1] [] []
  dot_S100000x32_S32x32_S100000x32_1_0_0_1_n_n_wf : DotDims.WF S100000x32 S32x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x1_S100000x1_1_0_0_1_n_n_wf : DotDims.WF S100000x32 S32x1 S100000x1 [1] [0] [0] [1] [] []
  scatter_S100x1_S100000x1_S100000x1_1_0_0_1_wf : ScatterDims.WF S100x1 S100000x1 S100000x1 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x10_S10x32_S100000x32_1_0_0_1_n_n : DotDims S100000x10 S10x32 S100000x32 where
  lhsContracting := [1]
  rhsContracting := [0]
  lhsNonContracting := [0]
  rhsNonContracting := [1]
  lhsBatch := []
  rhsBatch := []
  wf := dot_S100000x10_S10x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def scatter_S100x1_S100000x1_S100000x1_1_0_0_1 : ScatterDims S100x1 S100000x1 S100000x1 where
  updateWindowDims := [1]
  insertedWindowDims := [0]
  scatterDimsToOperandDims := [0]
  indexVectorDim := 1
  wf := scatter_S100x1_S100000x1_S100000x1_1_0_0_1_wf

class Facts : Prop extends Facts₀ where

variable [Facts]
-- ==== Proof.K.Reg0.lean ====
import proofs.«179590_j19610820673795_1_alg».proof.Proof.Gen.Kernel.Launch
import proofs.«179590_j19610820673795_1_alg».proof.Proof.Gen.Kernel.Skeleton
import proofs.«179590_j19610820673795_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 (the first dense layer), stated at an arbitrary entry valuation

The region is a pipeline over a grid of 20 points. At point `t` it stages a 5000-row block of the
activations (window 0), the whole weight matrix and the whole bias vector (windows 1 and 2, staged once
and then resident), runs the layer body on the staging buffers and writes the 5000-row block of the
result back (window 3).  Everything below is parametrised by `V`, the contents of every buffer of a
core at the moment the region is entered; the run instantiates `V` later.

Contents: the block of each window's array at a point (`iblk0`), the contents the body leaves in the
output buffer as a function of the three input blocks (`out0_3`), the separation-logic triple of the
body (`sound_kernel0`), the per-core proof data of the pipeline (`dat0`) with its projections, and the
body obligation at every grid point (`body_obligation0`).
-/

-- membership of an index in a rectangle with 5000 rows recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## Blocks of the windows' arrays -/

/-- The block of window `w`'s array that point `t` addresses, read from the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (the activations): whenever the body starts at point `t`, the staging buffer holds block `t`
    of the array.  Holds for any proof data whose array is `V`'s and whose body leaves the block untouched;
    a point at which the window is not fetched has the same block index as the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (the weights): its index map is constant, so it is fetched at the first point only and the
    buffer keeps the one block — the whole matrix — at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Window 2 (the bias): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is the whole staging buffer -/

abbrev r0_0 : Rect S5000x10 := Rect.unit (s := S5000x10) ![0, 0] S5000x10.size inb_S5000x10_S5000x10_0_0
abbrev r0_1 : Rect S10x32 := Rect.unit (s := S10x32) ![0, 0] S10x32.size inb_S10x32_S10x32_0_0
abbrev r0_2 : Rect S32 := Rect.unit (s := S32) ![0] S32.size inb_S32_S32_0
abbrev r0_3 : Rect S5000x32 := Rect.unit (s := S5000x32) ![0, 0] S5000x32.size inb_S5000x32_S5000x32_0_0

/-! ## What the body leaves in the output buffer -/

/-- The output staging buffer after the body, as a function of the contents of the three input buffers:
    the body's single store, of the layer's value on the three loads, over the whole buffer. -/
def out0_3 (x0 : Vec F S5000x10 .f32) (x1 : Vec F S10x32 .f32) (x2 : Vec F S32 .f32) : Vec F S5000x32 .f32 :=
  View.canon [⟨r0_3, k0_pay1 (View.ld x0 r0_0) (View.ld x1 r0_1) (View.ld x2 r0_2)⟩]

/-- The single store covers every index of the output buffer. -/
theorem cover0_3 (p0 : Vec F S5000x32 .f32) (y : S5000x32.Idx) :
    ∃ pc ∈ ([⟨r0_3, p0⟩] : List (View.Piece (Elt F) S5000x32 .f32)), y ∈ pc.1.set :=
  View.cover_of_tiled [⟨r0_3, p0⟩] S5000x32.size (by rfl) y

/-! ## The body's triple -/

set_option maxHeartbeats 1000000 in
/-- The layer body run on four whole staging buffers, the three inputs at contents `x0 x1 x2` and the output
    at any contents, reaches its continuation with the inputs unchanged and the output at `out0_3 x0 x1 x2`.
    The body also reads the output buffer once before storing into it; the value read is not used, so the
    unknown prior contents do not appear in the result. -/
theorem sound_kernel0 (c : Dev nD) (E : Set ℕ) (i : grid0.Coords) (arg1 : Memref sig .tc .vmem S5000x10 .f32) (harg1 : arg1.IsWhole) (arg2 : Memref sig .tc .vmem S10x32 .f32) (harg2 : arg2.IsWhole) (arg3 : Memref sig .tc .vmem S32 .f32) (harg3 : arg3.IsWhole) (arg4 : Memref sig .tc .vmem S5000x32 .f32) (harg4 : arg4.IsWhole)
    (x0 : Vec F S5000x10 .f32) (x1 : Vec F S10x32 .f32) (x2 : Vec F S32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Pipeline 0's proof data on core `c`: the arrays are `V`'s; after the body at point `t` every input buffer
    still holds its block and the output buffer holds `out0_3` of the three input blocks; the invariant carried
    between points is the untouched rest (the other scoped buffers and the generator register); nothing is
    owed to another core; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- What each input buffer holds when the body starts at point `t`: its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a grid point -/

/-- What the pipeline hands the body at point `t`: the invariant, what the core owes, and the four current
    staging buffers at the contents the schedule left in them. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the triple applies; the invariant and
    what the core owes are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.Reg1.lean ====
import proofs.«179590_j19610820673795_1_alg».proof.Proof.Gen.Kernel.Launch
import proofs.«179590_j19610820673795_1_alg».proof.Proof.Gen.Kernel.Skeleton
import proofs.«179590_j19610820673795_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 (the first graph-convolution layer: five concatenated taps times a 160x32 matrix), stated at an arbitrary entry valuation

The region is a pipeline over a grid of 20 points. At point `t` it stages a 5000-row block of the
activations (window 0), the whole weight matrix and the whole bias vector (windows 1 and 2, staged once
and then resident), runs the layer body on the staging buffers and writes the 5000-row block of the
result back (window 3).  Everything below is parametrised by `V`, the contents of every buffer of a
core at the moment the region is entered; the run instantiates `V` later.

Contents: the block of each window's array at a point (`iblk1`), the contents the body leaves in the
output buffer as a function of the three input blocks (`out1_3`), the separation-logic triple of the
body (`sound_kernel1`), the per-core proof data of the pipeline (`dat1`) with its projections, and the
body obligation at every grid point (`body_obligation1`).
-/

-- membership of an index in a rectangle with 5000 rows recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## Blocks of the windows' arrays -/

/-- The block of window `w`'s array that point `t` addresses, read from the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 (the activations): whenever the body starts at point `t`, the staging buffer holds block `t`
    of the array.  Holds for any proof data whose array is `V`'s and whose body leaves the block untouched;
    a point at which the window is not fetched has the same block index as the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1 (the weights): its index map is constant, so it is fetched at the first point only and the
    buffer keeps the one block — the whole matrix — at every later point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2 (the bias): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is the whole staging buffer -/

abbrev r1_0 : Rect S5000x160 := Rect.unit (s := S5000x160) ![0, 0] S5000x160.size inb_S5000x160_S5000x160_0_0
abbrev r1_1 : Rect S160x32 := Rect.unit (s := S160x32) ![0, 0] S160x32.size inb_S160x32_S160x32_0_0
abbrev r1_2 : Rect S32 := Rect.unit (s := S32) ![0] S32.size inb_S32_S32_0
abbrev r1_3 : Rect S5000x32 := Rect.unit (s := S5000x32) ![0, 0] S5000x32.size inb_S5000x32_S5000x32_0_0

/-! ## What the body leaves in the output buffer -/

/-- The output staging buffer after the body, as a function of the contents of the three input buffers:
    the body's single store, of the layer's value on the three loads, over the whole buffer. -/
def out1_3 (x0 : Vec F S5000x160 .f32) (x1 : Vec F S160x32 .f32) (x2 : Vec F S32 .f32) : Vec F S5000x32 .f32 :=
  View.canon [⟨r1_3, k1_pay1 (View.ld x0 r1_0) (View.ld x1 r1_1) (View.ld x2 r1_2)⟩]

/-- The single store covers every index of the output buffer. -/
theorem cover1_3 (p0 : Vec F S5000x32 .f32) (y : S5000x32.Idx) :
    ∃ pc ∈ ([⟨r1_3, p0⟩] : List (View.Piece (Elt F) S5000x32 .f32)), y ∈ pc.1.set :=
  View.cover_of_tiled [⟨r1_3, p0⟩] S5000x32.size (by rfl) y

/-! ## The body's triple -/

set_option maxHeartbeats 1000000 in
/-- The layer body run on four whole staging buffers, the three inputs at contents `x0 x1 x2` and the output
    at any contents, reaches its continuation with the inputs unchanged and the output at `out1_3 x0 x1 x2`.
    The body also reads the output buffer once before storing into it; the value read is not used, so the
    unknown prior contents do not appear in the result. -/
theorem sound_kernel1 (c : Dev nD) (E : Set ℕ) (i : grid1.Coords) (arg1 : Memref sig .tc .vmem S5000x160 .f32) (harg1 : arg1.IsWhole) (arg2 : Memref sig .tc .vmem S160x32 .f32) (harg2 : arg2.IsWhole) (arg3 : Memref sig .tc .vmem S32 .f32) (harg3 : arg3.IsWhole) (arg4 : Memref sig .tc .vmem S5000x32 .f32) (harg4 : arg4.IsWhole)
    (x0 : Vec F S5000x160 .f32) (x1 : Vec F S160x32 .f32) (x2 : Vec F S32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Pipeline 1's proof data on core `c`: the arrays are `V`'s; after the body at point `t` every input buffer
    still holds its block and the output buffer holds `out1_3` of the three input blocks; the invariant carried
    between points is the untouched rest (the other scoped buffers and the generator register); nothing is
    owed to another core; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves in each window's buffer. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- What each input buffer holds when the body starts at point `t`: its block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a grid point -/

/-- What the pipeline hands the body at point `t`: the invariant, what the core owes, and the four current
    staging buffers at the contents the schedule left in them. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body must hand back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the triple applies; the invariant and
    what the core owes are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.K.Reg2.lean ====
import proofs.«179590_j19610820673795_1_alg».proof.Proof.Gen.Kernel.Launch
import proofs.«179590_j19610820673795_1_alg».proof.Proof.Gen.Kernel.Skeleton
import proofs.«179590_j19610820673795_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2 (the second graph-convolution layer), stated at an arbitrary entry valuation

The region is a pipeline over a grid of 20 points. At point `t` it stages a 5000-row block of the
activations (window 0), the whole weight matrix and the whole bias vector (windows 1 and 2, staged once
and then resident), runs the layer body on the staging buffers and writes the 5000-row block of the
result back (window 3).  Everything below is parametrised by `V`, the contents of every buffer of a
core at the moment the region is entered; the run instantiates `V` later.

Contents: the block of each window's array at a point (`iblk2`), the contents the body leaves in the
output buffer as a function of the three input blocks (`out2_3`), the separation-logic triple of the
body (`sound_kernel2`), the per-core proof data of the pipeline (`dat2`) with its projections, and the
body obligation at every grid point (`body_obligation2`).
-/

-- membership of an index in a rectangle with 5000 rows recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## Blocks of the windows' arrays -/

/-- The block of window `w`'s array that point `t` addresses, read from the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (the activations): whenever the body starts at point `t`, the staging buffer holds block `t`
    of the array.  Holds for any proof data whose array is `V`'s and whose body leaves the block untouched;
    a point at which the window is not fetched has the same block index as the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Window 1 (the weights): its index map is constant, so it is fetched at the first point only and the
    buffer keeps the one block — the whole matrix — at every later point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Window 2 (the bias): as window 1. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is the whole staging buffer -/

abbrev r2_0 : Rect S5000x160 := Rect.unit (s := S5000x160) ![0, 0] S5000x160.size inb_S5000x160_S5000x160_0_0
abbrev r2_1 : Rect S160x32 := Rect.unit (s := S160x32) ![0, 0] S160x32.size inb_S160x32_S160x32_0_0
abbrev r2_2 : Rect S32 := Rect.unit (s := S32) ![0] S32.size inb_S32_S32_0
abbrev r2_3 : Rect S5000x32 := Rect.unit (s := S5000x32) ![0, 0] S5000x32.size inb_S5000x32_S5000x32_0_0

/-! ## What the body leaves in the output buffer -/

/-- The output staging buffer after the body, as a function of the contents of the three input buffers:
    the body's single store, of the layer's value on the three loads, over the whole buffer. -/
def out2_3 (x0 : Vec F S5000x160 .f32) (x1 : Vec F S160x32 .f32) (x2 : Vec F S32 .f32) : Vec F S5000x32 .f32 :=
  View.canon [⟨r2_3, k2_pay1 (View.ld x0 r2_0) (View.ld x1 r2_1) (View.ld x2 r2_2)⟩]

/-- The single store covers every index of the output buffer. -/
theorem cover2_3 (p0 : Vec F S5000x32 .f32) (y : S5000x32.Idx) :
    ∃ pc ∈ ([⟨r2_3, p0⟩] : List (View.Piece (Elt F) S5000x32 .f32)), y ∈ pc.1.set :=
  View.cover_of_tiled [⟨r2_3, p0⟩] S5000x32.size (by rfl) y

/-! ## The body's triple -/

set_option maxHeartbeats 1000000 in
/-- The layer body run on four whole staging buffers, the three inputs at contents `x0 x1 x2` and the output
    at any contents, reaches its continuation with the inputs unchanged and the output at `out2_3 x0 x1 x2`.
    The body also reads the output buffer once before storing into it; the value read is not used, so the
    unknown prior contents do not appear in the result. -/
theorem sound_kernel2 (c : Dev nD) (E : Set ℕ) (i : grid2.Coords) (arg1 : Memref sig .tc .vmem S5000x160 .f32) (harg1 : arg1.IsWhole) (arg2 : Memref sig .tc .vmem S160x32 .f32) (harg2 : arg2.IsWhole) (arg3 : Memref sig .tc .vmem S32 .f32) (harg3 : arg3.IsWhole) (arg4 : Memref sig .tc .vmem S5000x32 .f32) (harg4 : arg4.IsWhole)
    (x0 : Vec F S5000x160 .f32) (x1 : Vec F S160x32 .f32) (x2 : Vec F S32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- Pipeline 2's proof data on core `c`: the arrays are `V`'s; after the body at point `t` every input buffer
    still holds its block and the output buffer holds `out2_3` of the three input blocks; the invariant carried
    between points is the untouched rest (the other scoped buffers and the generator register); nothing is
    owed to another core; every share is full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The arrays of the proof data are the entry contents. -/
theorem A_eq2 (c : Dev nD) (w : Fin cfg2.W) : (dat2 V c).A w = V c (Pipeline.arrRef spec2 w) := by
  dsimp only [dat2]

/-- What the body leaves in each window's buffer. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- What each input buffer holds when the body starts at point `t`: its block. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a grid point -/

/-- What the pipeline hands the body at point `t`: the invariant, what the core owes, and the four current
    staging buffers at the contents the schedule left in them. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body must hand back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the triple applies; the invariant and
    what the core owes are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.K.Reg3.lean ====
import proofs.«179590_j19610820673795_1_alg».proof.Proof.Gen.Kernel.Launch
import proofs.«179590_j19610820673795_1_alg».proof.Proof.Gen.Kernel.Skeleton
import proofs.«179590_j19610820673795_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3 (the output layer, 32 features to one, with no activation), stated at an arbitrary entry valuation

The region is a pipeline over a grid of 20 points. At point `t` it stages a 5000-row block of the
activations (window 0), the whole weight matrix and the whole bias vector (windows 1 and 2, staged once
and then resident), runs the layer body on the staging buffers and writes the 5000-row block of the
result back (window 3).  Everything below is parametrised by `V`, the contents of every buffer of a
core at the moment the region is entered; the run instantiates `V` later.

Contents: the block of each window's array at a point (`iblk3`), the contents the body leaves in the
output buffer as a function of the three input blocks (`out3_3`), the separation-logic triple of the
body (`sound_kernel3`), the per-core proof data of the pipeline (`dat3`) with its projections, and the
body obligation at every grid point (`body_obligation3`).
-/

-- membership of an index in a rectangle with 5000 rows recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## Blocks of the windows' arrays -/

/-- The block of window `w`'s array that point `t` addresses, read from the entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0 (the activations): whenever the body starts at point `t`, the staging buffer holds block `t`
    of the array.  Holds for any proof data whose array is `V`'s and whose body leaves the block untouched;
    a point at which the window is not fetched has the same block index as the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Window 1 (the weights): its index map is constant, so it is fetched at the first point only and the
    buffer keeps the one block — the whole matrix — at every later point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Window 2 (the bias): as window 1. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is the whole staging buffer -/

abbrev r3_0 : Rect S5000x32 := Rect.unit (s := S5000x32) ![0, 0] S5000x32.size inb_S5000x32_S5000x32_0_0
abbrev r3_1 : Rect S32x1 := Rect.unit (s := S32x1) ![0, 0] S32x1.size inb_S32x1_S32x1_0_0
abbrev r3_2 : Rect S1 := Rect.unit (s := S1) ![0] S1.size inb_S1_S1_0
abbrev r3_3 : Rect S5000x1 := Rect.unit (s := S5000x1) ![0, 0] S5000x1.size inb_S5000x1_S5000x1_0_0

/-! ## What the body leaves in the output buffer -/

/-- The output staging buffer after the body, as a function of the contents of the three input buffers:
    the body's single store, of the layer's value on the three loads, over the whole buffer. -/
def out3_3 (x0 : Vec F S5000x32 .f32) (x1 : Vec F S32x1 .f32) (x2 : Vec F S1 .f32) : Vec F S5000x1 .f32 :=
  View.canon [⟨r3_3, k3_pay1 (View.ld x0 r3_0) (View.ld x1 r3_1) (View.ld x2 r3_2)⟩]

/-- The single store covers every index of the output buffer. -/
theorem cover3_3 (p0 : Vec F S5000x1 .f32) (y : S5000x1.Idx) :
    ∃ pc ∈ ([⟨r3_3, p0⟩] : List (View.Piece (Elt F) S5000x1 .f32)), y ∈ pc.1.set :=
  View.cover_of_tiled [⟨r3_3, p0⟩] S5000x1.size (by rfl) y

/-! ## The body's triple -/

set_option maxHeartbeats 1000000 in
/-- The layer body run on four whole staging buffers, the three inputs at contents `x0 x1 x2` and the output
    at any contents, reaches its continuation with the inputs unchanged and the output at `out3_3 x0 x1 x2`.
    The body also reads the output buffer once before storing into it; the value read is not used, so the
    unknown prior contents do not appear in the result. -/
theorem sound_kernel3 (c : Dev nD) (E : Set ℕ) (i : grid3.Coords) (arg1 : Memref sig .tc .vmem S5000x32 .f32) (harg1 : arg1.IsWhole) (arg2 : Memref sig .tc .vmem S32x1 .f32) (harg2 : arg2.IsWhole) (arg3 : Memref sig .tc .vmem S1 .f32) (harg3 : arg3.IsWhole) (arg4 : Memref sig .tc .vmem S5000x1 .f32) (harg4 : arg4.IsWhole)
    (x0 : Vec F S5000x32 .f32) (x1 : Vec F S32x1 .f32) (x2 : Vec F S1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- Pipeline 3's proof data on core `c`: the arrays are `V`'s; after the body at point `t` every input buffer
    still holds its block and the output buffer holds `out3_3` of the three input blocks; the invariant carried
    between points is the untouched rest (the other scoped buffers and the generator register); nothing is
    owed to another core; every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The arrays of the proof data are the entry contents. -/
theorem A_eq3 (c : Dev nD) (w : Fin cfg3.W) : (dat3 V c).A w = V c (Pipeline.arrRef spec3 w) := by
  dsimp only [dat3]

/-- What the body leaves in each window's buffer. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- What each input buffer holds when the body starts at point `t`: its block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a grid point -/

/-- What the pipeline hands the body at point `t`: the invariant, what the core owes, and the four current
    staging buffers at the contents the schedule left in them. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What the body must hand back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the triple applies; the invariant and
    what the core owes are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.K.Run.lean ====
import proofs.«179590_j19610820673795_1_alg».proof.Proof.K.Reg0
import proofs.«179590_j19610820673795_1_alg».proof.Proof.K.Reg1
import proofs.«179590_j19610820673795_1_alg».proof.Proof.K.Reg2
import proofs.«179590_j19610820673795_1_alg».proof.Proof.K.Reg3

/-!
# The run of the whole program, with every buffer's final contents named

The program is ten items in a row: three stretches of host operations, region 0, a stretch, region 1, a
stretch, regions 2 and 3 back to back, and a last stretch.  `W0 … W10` name the contents of every buffer
of a core at the eleven boundaries: `W0` is the launch memory, a host stretch maps a boundary to the fold
of its operations over it, and a region maps it to the same contents with the region's four arrays replaced
by what its pipeline leaves.  `run_all` says every weakly fair execution terminates without a fault in a
state whose unscoped TensorCore buffers hold `W10`; `W10_main_argK` says `W10` at an argument is the
launch memory (no item writes an argument); `frame` is the two combined.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of a core's buffers at each boundary -/

/-- At launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- The same, read at the TensorCore's references (what the next region is entered from). -/
abbrev V3 : (c : Dev nD) → (b : Ref sig .tc) → Buf (Elt F) ((c : Thread nD τ).loc b) := fun c b => W3 m ρ c b
/-- At region 0's exit: its four arrays hold what the pipeline leaves (the inputs as entered, the output with
    every point's write-back folded in), every other buffer is as at entry. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same, read at the TensorCore's references. -/
abbrev V4 : (c : Dev nD) → (b : Ref sig .tc) → Buf (Elt F) ((c : Thread nD τ).loc b) := fun c b => W4 m ρ c b
/-- The two facts that put the arrays back among the unscoped buffers at the exit. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`. -/
abbrev W5 : Dev nD → Valuation τ sig (Elt F) := fun c => StableHlo.after hostOps1 (W4 m ρ c)
/-- The same, read at the TensorCore's references (what the next region is entered from). -/
abbrev V5 : (c : Dev nD) → (b : Ref sig .tc) → Buf (Elt F) ((c : Thread nD τ).loc b) := fun c b => W5 m ρ c b
/-- At region 1's exit: its four arrays hold what the pipeline leaves (the inputs as entered, the output with
    every point's write-back folded in), every other buffer is as at entry. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same, read at the TensorCore's references. -/
abbrev V6 : (c : Dev nD) → (b : Ref sig .tc) → Buf (Elt F) ((c : Thread nD τ).loc b) := fun c b => W6 m ρ c b
/-- The two facts that put the arrays back among the unscoped buffers at the exit. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2`. -/
abbrev W7 : Dev nD → Valuation τ sig (Elt F) := fun c => StableHlo.after hostOps2 (W6 m ρ c)
/-- The same, read at the TensorCore's references (what the next region is entered from). -/
abbrev V7 : (c : Dev nD) → (b : Ref sig .tc) → Buf (Elt F) ((c : Thread nD τ).loc b) := fun c b => W7 m ρ c b
/-- At region 2's exit: its four arrays hold what the pipeline leaves (the inputs as entered, the output with
    every point's write-back folded in), every other buffer is as at entry. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same, read at the TensorCore's references. -/
abbrev V8 : (c : Dev nD) → (b : Ref sig .tc) → Buf (Elt F) ((c : Thread nD τ).loc b) := fun c b => W8 m ρ c b
/-- The two facts that put the arrays back among the unscoped buffers at the exit. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- At region 3's exit: its four arrays hold what the pipeline leaves (the inputs as entered, the output with
    every point's write-back folded in), every other buffer is as at entry. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- The same, read at the TensorCore's references. -/
abbrev V9 : (c : Dev nD) → (b : Ref sig .tc) → Buf (Elt F) ((c : Thread nD τ).loc b) := fun c b => W9 m ρ c b
/-- The two facts that put the arrays back among the unscoped buffers at the exit. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After `hostOps4`. -/
abbrev W10 : Dev nD → Valuation τ sig (Elt F) := fun c => StableHlo.after hostOps4 (W9 m ρ c)

/-! ## What the host stretches write -/

/-- No operation of `hostOps0` allocates a buffer. -/
theorem hostOps0_fresh : (hostOps0 : List (HloOp τ sig (Elt F))).Forall fun op => op.fresh = ∅ := by
  simp only [List.Forall]; repeat' constructor
/-- The buffers the operations of `hostOps0` write: each operation writes its result buffer only. -/
abbrev hostOps0_W : List (Ref sig .tc) := [main_v0, main_v1, main_v2, main_v3, main_cst, main_v4, main_v5, main_v6, main_cst_0, main_v7, main_v8, main_cst_1, main_v9, main_v10, main_v11, main_cst_2]
theorem hostOps0_writes : (hostOps0 : List (HloOp τ sig (Elt F))).Forall fun op => op.writes ⊆ (hostOps0_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps0_1` allocates a buffer. -/
theorem hostOps0_1_fresh : (hostOps0_1 : List (HloOp τ sig (Elt F))).Forall fun op => op.fresh = ∅ := by
  simp only [List.Forall]; repeat' constructor
/-- The buffers the operations of `hostOps0_1` write: each operation writes its result buffer only. -/
abbrev hostOps0_1_W : List (Ref sig .tc) := [main_call0_v0, main_call0_v1, main_v12]
theorem hostOps0_1_writes : (hostOps0_1 : List (HloOp τ sig (Elt F))).Forall fun op => op.writes ⊆ (hostOps0_1_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps0_2` allocates a buffer. -/
theorem hostOps0_2_fresh : (hostOps0_2 : List (HloOp τ sig (Elt F))).Forall fun op => op.fresh = ∅ := by
  simp only [List.Forall]; repeat' constructor
/-- The buffers the operations of `hostOps0_2` write: each operation writes its result buffer only. -/
abbrev hostOps0_2_W : List (Ref sig .tc) := [main_c, main_v13, main_v14, main_c_3, main_v15, main_v16, main_v17, main_v18, main_v19, main_v20, main_c_4, main_v21, main_v22, main_c_5, main_v23, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps1` allocates a buffer. -/
theorem hostOps1_fresh : (hostOps1 : List (HloOp τ sig (Elt F))).Forall fun op => op.fresh = ∅ := by
  simp only [List.Forall]; repeat' constructor
/-- The buffers the operations of `hostOps1` write: each operation writes its result buffer only. -/
abbrev hostOps1_W : List (Ref sig .tc) := [main_c_6, main_v31, main_v32, main_c_7, main_v33, main_v34, main_v35, main_v36, main_v37, main_v38, main_v39, main_v40, main_cst_8, main_v41, main_v42, main_v43, main_c_9, main_v44, main_v45, main_c_10, main_v46, main_v47, main_v48, main_v49, main_v50, main_v51, main_v52, main_v53, main_cst_11, main_v54, main_v55, main_v56, main_c_12, main_v57, main_v58, main_c_13, main_v59, main_v60, main_v61, main_v62, main_v63, main_v64, main_v65, main_v66, main_cst_14, main_v67, main_v68, main_v69, main_c_15, main_v70, main_v71, main_c_16, main_v72, main_v73, main_v74, main_v75, main_v76, main_v77, main_v78, main_v79, main_cst_17, main_v80, main_v81, main_v82, main_v83, main_v84, main_v85, main_v86, main_v87, main_v88]
theorem hostOps1_writes : (hostOps1 : List (HloOp τ sig (Elt F))).Forall fun op => op.writes ⊆ (hostOps1_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps2` allocates a buffer. -/
theorem hostOps2_fresh : (hostOps2 : List (HloOp τ sig (Elt F))).Forall fun op => op.fresh = ∅ := by
  simp only [List.Forall]; repeat' constructor
/-- The buffers the operations of `hostOps2` write: each operation writes its result buffer only. -/
abbrev hostOps2_W : List (Ref sig .tc) := [main_c_18, main_v90, main_v91, main_c_19, main_v92, main_v93, main_v94, main_v95, main_v96, main_v97, main_v98, main_v99, main_cst_20, main_v100, main_v101, main_v102, main_c_21, main_v103, main_v104, main_c_22, main_v105, main_v106, main_v107, main_v108, main_v109, main_v110, main_v111, main_v112, main_cst_23, main_v113, main_v114, main_v115, main_c_24, main_v116, main_v117, main_c_25, main_v118, main_v119, main_v120, main_v121, main_v122, main_v123, main_v124, main_v125, main_cst_26, main_v126, main_v127, main_v128, main_c_27, main_v129, main_v130, main_c_28, main_v131, main_v132, main_v133, main_v134, main_v135, main_v136, main_v137, main_v138, main_cst_29, main_v139, main_v140, main_v141, main_v142, main_v143, main_v144, main_v145, main_v146, main_v147]
theorem hostOps2_writes : (hostOps2 : List (HloOp τ sig (Elt F))).Forall fun op => op.writes ⊆ (hostOps2_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps4` allocates a buffer. -/
theorem hostOps4_fresh : (hostOps4 : List (HloOp τ sig (Elt F))).Forall fun op => op.fresh = ∅ := by
  simp only [List.Forall]; repeat' constructor
/-- The buffers the operations of `hostOps4` write: each operation writes its result buffer only. -/
abbrev hostOps4_W : List (Ref sig .tc) := [main_cst_30, main_v150, main_v151, main_v152, main_cst_31, main_v153, main_cst_32, main_v154, main_v155, main_v156, main_cst_33, main_v157, main_v158, main_v159]
theorem hostOps4_writes : (hostOps4 : List (HloOp τ sig (Elt F))).Forall fun op => op.writes ⊆ (hostOps4_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-! ## The arguments end as launched

No host operation writes an argument and no region writes one (a region reads an argument through an input
window, whose array it leaves as entered, or does not touch it), so `W10` at an argument's buffer walks
back through the ten items to the launch memory. -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps4 _ hostOps4_writes (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps4 _ hostOps4_writes (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := StableHlo.after_of_writes_sub hostOps4 _ hostOps4_writes (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := StableHlo.after_of_writes_sub hostOps4 _ hostOps4_writes (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := StableHlo.after_of_writes_sub hostOps4 _ hostOps4_writes (by decide)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := StableHlo.after_of_writes_sub hostOps4 _ hostOps4_writes (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := (W4_arr m ρ c 1).trans (((dat0 (V3 m ρ) c).arrAt_in 1 rfl _).trans (A_eq0 (V3 m ρ) c 1))
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := StableHlo.after_of_writes_sub hostOps4 _ hostOps4_writes (by decide)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := (W4_arr m ρ c 2).trans (((dat0 (V3 m ρ) c).arrAt_in 2 rfl _).trans (A_eq0 (V3 m ρ) c 2))
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := StableHlo.after_of_writes_sub hostOps4 _ hostOps4_writes (by decide)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := StableHlo.after_of_writes_sub hostOps4 _ hostOps4_writes (by decide)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl
theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := StableHlo.after_of_writes_sub hostOps4 _ hostOps4_writes (by decide)
    _ = W8 m ρ c (Proc.devRef .tc main_arg9) := (W9_arr m ρ c 1).trans (((dat3 (V8 m ρ) c).arrAt_in 1 rfl _).trans (A_eq3 (V8 m ρ) c 1))
    _ = W7 m ρ c (Proc.devRef .tc main_arg9) := W8_of_ne m ρ c main_arg9 (by decide)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl
theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := StableHlo.after_of_writes_sub hostOps4 _ hostOps4_writes (by decide)
    _ = W8 m ρ c (Proc.devRef .tc main_arg10) := (W9_arr m ρ c 2).trans (((dat3 (V8 m ρ) c).arrAt_in 2 rfl _).trans (A_eq3 (V8 m ρ) c 2))
    _ = W7 m ρ c (Proc.devRef .tc main_arg10) := W8_of_ne m ρ c main_arg10 (by decide)
    _ = W6 m ρ c (Proc.devRef .tc main_arg10) := StableHlo.after_of_writes_sub hostOps2 _ hostOps2_writes (by decide)
    _ = W5 m ρ c (Proc.devRef .tc main_arg10) := W6_of_ne m ρ c main_arg10 (by decide)
    _ = W4 m ρ c (Proc.devRef .tc main_arg10) := StableHlo.after_of_writes_sub hostOps1 _ hostOps1_writes (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

/-! ## The proof data of the four pipelines and the thread state -/

/-- No pipeline has a prefetched table. -/
abbrev adm : (p : Fin 4) → (pcfgs (F := F) p).Adm := fun p => (cfgs p).toPCfg_adm
/-- The proof data of each pipeline, at the contents its region is entered from. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V8 m ρ) c
abbrev 𝒱₀ : Variants := Variants.none
/-- No core ever owes another anything, so no level is assigned. -/
abbrev L : GSem nD τ sig → Finset Unit := fun _ => ∅
abbrev lv : GSem nD τ sig → Unit → ℕ := fun _ _ => 0
/-- What a core holds beside its buffers through every item: its generator register at some state, and owing nothing. -/
abbrev R (c : Dev nD) : sProp 𝕄 := iprop((∃ r, prngReg c r) ∗ ∃ W, owes (c : Thread nD τ) (0 : CellTallies nD τ sig Unit) W)
/-- A host stretch as a segment over the unscoped buffers at contents `W`, `R` carried along unchanged. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W10`, the generator register at some state. -/
abbrev Tₙ (c : Dev nD) : sProp 𝕄 := iprop(StableHlo.held (c : Thread nD τ) (Pipeline.ucRefs τ sig) (W10 m ρ c) ∗ ∃ r, prngReg c r)

/-! ## The regions as segments -/

-- unifying a library lemma stated over the pinned configuration with the printed one needs plain definitions
-- unfolded in the types of metavariables
set_option backward.isDefEq.respectTransparency.types false in
/-- Region 0 as a segment of the thread state: entered with every unscoped buffer at `W3`, left with them at `W4`.
    Its four arrays are split out of the unscoped buffers at the entry and put back at the exit contents; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions
-- unfolded in the types of metavariables
set_option backward.isDefEq.respectTransparency.types false in
/-- Region 1 as a segment of the thread state: entered with every unscoped buffer at `W5`, left with them at `W6`.
    Its four arrays are split out of the unscoped buffers at the entry and put back at the exit contents; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions
-- unfolded in the types of metavariables
set_option backward.isDefEq.respectTransparency.types false in
/-- Region 2 as a segment of the thread state: entered with every unscoped buffer at `W7`, left with them at `W8`.
    Its four arrays are split out of the unscoped buffers at the entry and put back at the exit contents; the generator
    register goes into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions
-- unfolded in the types of metavariables
set_option backward.isDefEq.respectTransparency.types false in
/-- Region 3 as a segment of the thread state: entered with every unscoped buffer at `W8`, left with them at `W9`.
    Its four arrays are split out of the unscoped buffers at the entry and put back at the exit contents; the generator
    register goes into the pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its ten segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .region (reg3 m ρ),
    .host (hseg hostOps4 hostOps4_sub hostOps4_fresh (W9 m ρ)) ]
/-- The program is the run of its segments: both are the same chain of items. -/
theorem main_run (c : Dev nD) : main (F := F) c = Pipeline.Seg.run (segs m ρ) := (main_chain c).trans (by chain_rfl)

-- the launch theorem's implicit arguments are found by unifying its conclusion with this statement, which needs plain
-- definitions unfolded in the types of metavariables
set_option backward.isDefEq.respectTransparency.types false in
/-- From any memory with all semaphore counters at zero, every weakly fair execution of the program on the TensorCores
    terminates, nothing faults, and in every final state each unscoped TensorCore buffer of each core holds `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The frame: the program terminates without a fault from any memory with zero counters, and every argument array
    ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)
    (run_all m ρ)

end Cert.Kernel.Hand

end
-- ==== Proof.KI.Reg0.lean ====
import proofs.«179590_j19610820673795_1_alg».proof.Proof.Gen.KernelIdeal.Launch
import proofs.«179590_j19610820673795_1_alg».proof.Proof.Gen.KernelIdeal.Skeleton
import proofs.«179590_j19610820673795_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 (the first dense layer), stated at an arbitrary entry valuation

The region is a pipeline over a grid of 20 points. At point `t` it stages a 5000-row block of the
activations (window 0), the whole weight matrix and the whole bias vector (windows 1 and 2, staged once
and then resident), runs the layer body on the staging buffers and writes the 5000-row block of the
result back (window 3).  Everything below is parametrised by `V`, the contents of every buffer of a
core at the moment the region is entered; the run instantiates `V` later.

Contents: the block of each window's array at a point (`iblk0`), the contents the body leaves in the
output buffer as a function of the three input blocks (`out0_3`), the separation-logic triple of the
body (`sound_kernel0`), the per-core proof data of the pipeline (`dat0`) with its projections, and the
body obligation at every grid point (`body_obligation0`).
-/

-- membership of an index in a rectangle with 5000 rows recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## Blocks of the windows' arrays -/

/-- The block of window `w`'s array that point `t` addresses, read from the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (the activations): whenever the body starts at point `t`, the staging buffer holds block `t`
    of the array.  Holds for any proof data whose array is `V`'s and whose body leaves the block untouched;
    a point at which the window is not fetched has the same block index as the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (the weights): its index map is constant, so it is fetched at the first point only and the
    buffer keeps the one block — the whole matrix — at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Window 2 (the bias): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is the whole staging buffer -/

abbrev r0_0 : Rect S5000x10 := Rect.unit (s := S5000x10) ![0, 0] S5000x10.size inb_S5000x10_S5000x10_0_0
abbrev r0_1 : Rect S10x32 := Rect.unit (s := S10x32) ![0, 0] S10x32.size inb_S10x32_S10x32_0_0
abbrev r0_2 : Rect S32 := Rect.unit (s := S32) ![0] S32.size inb_S32_S32_0
abbrev r0_3 : Rect S5000x32 := Rect.unit (s := S5000x32) ![0, 0] S5000x32.size inb_S5000x32_S5000x32_0_0

/-! ## What the body leaves in the output buffer -/

/-- The output staging buffer after the body, as a function of the contents of the three input buffers:
    the body's single store, of the layer's value on the three loads, over the whole buffer. -/
def out0_3 (x0 : Vec F S5000x10 .f32) (x1 : Vec F S10x32 .f32) (x2 : Vec F S32 .f32) : Vec F S5000x32 .f32 :=
  View.canon [⟨r0_3, k0_pay1 (View.ld x0 r0_0) (View.ld x1 r0_1) (View.ld x2 r0_2)⟩]

/-- The single store covers every index of the output buffer. -/
theorem cover0_3 (p0 : Vec F S5000x32 .f32) (y : S5000x32.Idx) :
    ∃ pc ∈ ([⟨r0_3, p0⟩] : List (View.Piece (Elt F) S5000x32 .f32)), y ∈ pc.1.set :=
  View.cover_of_tiled [⟨r0_3, p0⟩] S5000x32.size (by rfl) y

/-! ## The body's triple -/

set_option maxHeartbeats 1000000 in
/-- The layer body run on four whole staging buffers, the three inputs at contents `x0 x1 x2` and the output
    at any contents, reaches its continuation with the inputs unchanged and the output at `out0_3 x0 x1 x2`.
    The body also reads the output buffer once before storing into it; the value read is not used, so the
    unknown prior contents do not appear in the result. -/
theorem sound_kernel0 (c : Dev nD) (E : Set ℕ) (i : grid0.Coords) (arg1 : Memref sig .tc .vmem S5000x10 .f32) (harg1 : arg1.IsWhole) (arg2 : Memref sig .tc .vmem S10x32 .f32) (harg2 : arg2.IsWhole) (arg3 : Memref sig .tc .vmem S32 .f32) (harg3 : arg3.IsWhole) (arg4 : Memref sig .tc .vmem S5000x32 .f32) (harg4 : arg4.IsWhole)
    (x0 : Vec F S5000x10 .f32) (x1 : Vec F S10x32 .f32) (x2 : Vec F S32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Pipeline 0's proof data on core `c`: the arrays are `V`'s; after the body at point `t` every input buffer
    still holds its block and the output buffer holds `out0_3` of the three input blocks; the invariant carried
    between points is the untouched rest (the other scoped buffers and the generator register); nothing is
    owed to another core; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- What each input buffer holds when the body starts at point `t`: its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a grid point -/

/-- What the pipeline hands the body at point `t`: the invariant, what the core owes, and the four current
    staging buffers at the contents the schedule left in them. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the triple applies; the invariant and
    what the core owes are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.Reg1.lean ====
import proofs.«179590_j19610820673795_1_alg».proof.Proof.Gen.KernelIdeal.Launch
import proofs.«179590_j19610820673795_1_alg».proof.Proof.Gen.KernelIdeal.Skeleton
import proofs.«179590_j19610820673795_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 (the first graph-convolution layer: five concatenated taps times a 160x32 matrix), stated at an arbitrary entry valuation

The region is a pipeline over a grid of 20 points. At point `t` it stages a 5000-row block of the
activations (window 0), the whole weight matrix and the whole bias vector (windows 1 and 2, staged once
and then resident), runs the layer body on the staging buffers and writes the 5000-row block of the
result back (window 3).  Everything below is parametrised by `V`, the contents of every buffer of a
core at the moment the region is entered; the run instantiates `V` later.

Contents: the block of each window's array at a point (`iblk1`), the contents the body leaves in the
output buffer as a function of the three input blocks (`out1_3`), the separation-logic triple of the
body (`sound_kernel1`), the per-core proof data of the pipeline (`dat1`) with its projections, and the
body obligation at every grid point (`body_obligation1`).
-/

-- membership of an index in a rectangle with 5000 rows recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## Blocks of the windows' arrays -/

/-- The block of window `w`'s array that point `t` addresses, read from the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 (the activations): whenever the body starts at point `t`, the staging buffer holds block `t`
    of the array.  Holds for any proof data whose array is `V`'s and whose body leaves the block untouched;
    a point at which the window is not fetched has the same block index as the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1 (the weights): its index map is constant, so it is fetched at the first point only and the
    buffer keeps the one block — the whole matrix — at every later point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2 (the bias): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is the whole staging buffer -/

abbrev r1_0 : Rect S5000x160 := Rect.unit (s := S5000x160) ![0, 0] S5000x160.size inb_S5000x160_S5000x160_0_0
abbrev r1_1 : Rect S160x32 := Rect.unit (s := S160x32) ![0, 0] S160x32.size inb_S160x32_S160x32_0_0
abbrev r1_2 : Rect S32 := Rect.unit (s := S32) ![0] S32.size inb_S32_S32_0
abbrev r1_3 : Rect S5000x32 := Rect.unit (s := S5000x32) ![0, 0] S5000x32.size inb_S5000x32_S5000x32_0_0

/-! ## What the body leaves in the output buffer -/

/-- The output staging buffer after the body, as a function of the contents of the three input buffers:
    the body's single store, of the layer's value on the three loads, over the whole buffer. -/
def out1_3 (x0 : Vec F S5000x160 .f32) (x1 : Vec F S160x32 .f32) (x2 : Vec F S32 .f32) : Vec F S5000x32 .f32 :=
  View.canon [⟨r1_3, k1_pay1 (View.ld x0 r1_0) (View.ld x1 r1_1) (View.ld x2 r1_2)⟩]

/-- The single store covers every index of the output buffer. -/
theorem cover1_3 (p0 : Vec F S5000x32 .f32) (y : S5000x32.Idx) :
    ∃ pc ∈ ([⟨r1_3, p0⟩] : List (View.Piece (Elt F) S5000x32 .f32)), y ∈ pc.1.set :=
  View.cover_of_tiled [⟨r1_3, p0⟩] S5000x32.size (by rfl) y

/-! ## The body's triple -/

set_option maxHeartbeats 1000000 in
/-- The layer body run on four whole staging buffers, the three inputs at contents `x0 x1 x2` and the output
    at any contents, reaches its continuation with the inputs unchanged and the output at `out1_3 x0 x1 x2`.
    The body also reads the output buffer once before storing into it; the value read is not used, so the
    unknown prior contents do not appear in the result. -/
theorem sound_kernel1 (c : Dev nD) (E : Set ℕ) (i : grid1.Coords) (arg1 : Memref sig .tc .vmem S5000x160 .f32) (harg1 : arg1.IsWhole) (arg2 : Memref sig .tc .vmem S160x32 .f32) (harg2 : arg2.IsWhole) (arg3 : Memref sig .tc .vmem S32 .f32) (harg3 : arg3.IsWhole) (arg4 : Memref sig .tc .vmem S5000x32 .f32) (harg4 : arg4.IsWhole)
    (x0 : Vec F S5000x160 .f32) (x1 : Vec F S160x32 .f32) (x2 : Vec F S32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- Pipeline 1's proof data on core `c`: the arrays are `V`'s; after the body at point `t` every input buffer
    still holds its block and the output buffer holds `out1_3` of the three input blocks; the invariant carried
    between points is the untouched rest (the other scoped buffers and the generator register); nothing is
    owed to another core; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves in each window's buffer. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- What each input buffer holds when the body starts at point `t`: its block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a grid point -/

/-- What the pipeline hands the body at point `t`: the invariant, what the core owes, and the four current
    staging buffers at the contents the schedule left in them. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body must hand back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the triple applies; the invariant and
    what the core owes are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KI.Reg2.lean ====
import proofs.«179590_j19610820673795_1_alg».proof.Proof.Gen.KernelIdeal.Launch
import proofs.«179590_j19610820673795_1_alg».proof.Proof.Gen.KernelIdeal.Skeleton
import proofs.«179590_j19610820673795_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2 (the second graph-convolution layer), stated at an arbitrary entry valuation

The region is a pipeline over a grid of 20 points. At point `t` it stages a 5000-row block of the
activations (window 0), the whole weight matrix and the whole bias vector (windows 1 and 2, staged once
and then resident), runs the layer body on the staging buffers and writes the 5000-row block of the
result back (window 3).  Everything below is parametrised by `V`, the contents of every buffer of a
core at the moment the region is entered; the run instantiates `V` later.

Contents: the block of each window's array at a point (`iblk2`), the contents the body leaves in the
output buffer as a function of the three input blocks (`out2_3`), the separation-logic triple of the
body (`sound_kernel2`), the per-core proof data of the pipeline (`dat2`) with its projections, and the
body obligation at every grid point (`body_obligation2`).
-/

-- membership of an index in a rectangle with 5000 rows recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## Blocks of the windows' arrays -/

/-- The block of window `w`'s array that point `t` addresses, read from the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (the activations): whenever the body starts at point `t`, the staging buffer holds block `t`
    of the array.  Holds for any proof data whose array is `V`'s and whose body leaves the block untouched;
    a point at which the window is not fetched has the same block index as the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Window 1 (the weights): its index map is constant, so it is fetched at the first point only and the
    buffer keeps the one block — the whole matrix — at every later point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Window 2 (the bias): as window 1. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is the whole staging buffer -/

abbrev r2_0 : Rect S5000x160 := Rect.unit (s := S5000x160) ![0, 0] S5000x160.size inb_S5000x160_S5000x160_0_0
abbrev r2_1 : Rect S160x32 := Rect.unit (s := S160x32) ![0, 0] S160x32.size inb_S160x32_S160x32_0_0
abbrev r2_2 : Rect S32 := Rect.unit (s := S32) ![0] S32.size inb_S32_S32_0
abbrev r2_3 : Rect S5000x32 := Rect.unit (s := S5000x32) ![0, 0] S5000x32.size inb_S5000x32_S5000x32_0_0

/-! ## What the body leaves in the output buffer -/

/-- The output staging buffer after the body, as a function of the contents of the three input buffers:
    the body's single store, of the layer's value on the three loads, over the whole buffer. -/
def out2_3 (x0 : Vec F S5000x160 .f32) (x1 : Vec F S160x32 .f32) (x2 : Vec F S32 .f32) : Vec F S5000x32 .f32 :=
  View.canon [⟨r2_3, k2_pay1 (View.ld x0 r2_0) (View.ld x1 r2_1) (View.ld x2 r2_2)⟩]

/-- The single store covers every index of the output buffer. -/
theorem cover2_3 (p0 : Vec F S5000x32 .f32) (y : S5000x32.Idx) :
    ∃ pc ∈ ([⟨r2_3, p0⟩] : List (View.Piece (Elt F) S5000x32 .f32)), y ∈ pc.1.set :=
  View.cover_of_tiled [⟨r2_3, p0⟩] S5000x32.size (by rfl) y

/-! ## The body's triple -/

set_option maxHeartbeats 1000000 in
/-- The layer body run on four whole staging buffers, the three inputs at contents `x0 x1 x2` and the output
    at any contents, reaches its continuation with the inputs unchanged and the output at `out2_3 x0 x1 x2`.
    The body also reads the output buffer once before storing into it; the value read is not used, so the
    unknown prior contents do not appear in the result. -/
theorem sound_kernel2 (c : Dev nD) (E : Set ℕ) (i : grid2.Coords) (arg1 : Memref sig .tc .vmem S5000x160 .f32) (harg1 : arg1.IsWhole) (arg2 : Memref sig .tc .vmem S160x32 .f32) (harg2 : arg2.IsWhole) (arg3 : Memref sig .tc .vmem S32 .f32) (harg3 : arg3.IsWhole) (arg4 : Memref sig .tc .vmem S5000x32 .f32) (harg4 : arg4.IsWhole)
    (x0 : Vec F S5000x160 .f32) (x1 : Vec F S160x32 .f32) (x2 : Vec F S32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- Pipeline 2's proof data on core `c`: the arrays are `V`'s; after the body at point `t` every input buffer
    still holds its block and the output buffer holds `out2_3` of the three input blocks; the invariant carried
    between points is the untouched rest (the other scoped buffers and the generator register); nothing is
    owed to another core; every share is full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The arrays of the proof data are the entry contents. -/
theorem A_eq2 (c : Dev nD) (w : Fin cfg2.W) : (dat2 V c).A w = V c (Pipeline.arrRef spec2 w) := by
  dsimp only [dat2]

/-- What the body leaves in each window's buffer. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- What each input buffer holds when the body starts at point `t`: its block. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a grid point -/

/-- What the pipeline hands the body at point `t`: the invariant, what the core owes, and the four current
    staging buffers at the contents the schedule left in them. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body must hand back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the triple applies; the invariant and
    what the core owes are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.KI.Reg3.lean ====
import proofs.«179590_j19610820673795_1_alg».proof.Proof.Gen.KernelIdeal.Launch
import proofs.«179590_j19610820673795_1_alg».proof.Proof.Gen.KernelIdeal.Skeleton
import proofs.«179590_j19610820673795_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3 (the output layer, 32 features to one, with no activation), stated at an arbitrary entry valuation

The region is a pipeline over a grid of 20 points. At point `t` it stages a 5000-row block of the
activations (window 0), the whole weight matrix and the whole bias vector (windows 1 and 2, staged once
and then resident), runs the layer body on the staging buffers and writes the 5000-row block of the
result back (window 3).  Everything below is parametrised by `V`, the contents of every buffer of a
core at the moment the region is entered; the run instantiates `V` later.

Contents: the block of each window's array at a point (`iblk3`), the contents the body leaves in the
output buffer as a function of the three input blocks (`out3_3`), the separation-logic triple of the
body (`sound_kernel3`), the per-core proof data of the pipeline (`dat3`) with its projections, and the
body obligation at every grid point (`body_obligation3`).
-/

-- membership of an index in a rectangle with 5000 rows recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## Blocks of the windows' arrays -/

/-- The block of window `w`'s array that point `t` addresses, read from the entry contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0 (the activations): whenever the body starts at point `t`, the staging buffer holds block `t`
    of the array.  Holds for any proof data whose array is `V`'s and whose body leaves the block untouched;
    a point at which the window is not fetched has the same block index as the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Window 1 (the weights): its index map is constant, so it is fetched at the first point only and the
    buffer keeps the one block — the whole matrix — at every later point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Window 2 (the bias): as window 1. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each is the whole staging buffer -/

abbrev r3_0 : Rect S5000x32 := Rect.unit (s := S5000x32) ![0, 0] S5000x32.size inb_S5000x32_S5000x32_0_0
abbrev r3_1 : Rect S32x1 := Rect.unit (s := S32x1) ![0, 0] S32x1.size inb_S32x1_S32x1_0_0
abbrev r3_2 : Rect S1 := Rect.unit (s := S1) ![0] S1.size inb_S1_S1_0
abbrev r3_3 : Rect S5000x1 := Rect.unit (s := S5000x1) ![0, 0] S5000x1.size inb_S5000x1_S5000x1_0_0

/-! ## What the body leaves in the output buffer -/

/-- The output staging buffer after the body, as a function of the contents of the three input buffers:
    the body's single store, of the layer's value on the three loads, over the whole buffer. -/
def out3_3 (x0 : Vec F S5000x32 .f32) (x1 : Vec F S32x1 .f32) (x2 : Vec F S1 .f32) : Vec F S5000x1 .f32 :=
  View.canon [⟨r3_3, k3_pay1 (View.ld x0 r3_0) (View.ld x1 r3_1) (View.ld x2 r3_2)⟩]

/-- The single store covers every index of the output buffer. -/
theorem cover3_3 (p0 : Vec F S5000x1 .f32) (y : S5000x1.Idx) :
    ∃ pc ∈ ([⟨r3_3, p0⟩] : List (View.Piece (Elt F) S5000x1 .f32)), y ∈ pc.1.set :=
  View.cover_of_tiled [⟨r3_3, p0⟩] S5000x1.size (by rfl) y

/-! ## The body's triple -/

set_option maxHeartbeats 1000000 in
/-- The layer body run on four whole staging buffers, the three inputs at contents `x0 x1 x2` and the output
    at any contents, reaches its continuation with the inputs unchanged and the output at `out3_3 x0 x1 x2`.
    The body also reads the output buffer once before storing into it; the value read is not used, so the
    unknown prior contents do not appear in the result. -/
theorem sound_kernel3 (c : Dev nD) (E : Set ℕ) (i : grid3.Coords) (arg1 : Memref sig .tc .vmem S5000x32 .f32) (harg1 : arg1.IsWhole) (arg2 : Memref sig .tc .vmem S32x1 .f32) (harg2 : arg2.IsWhole) (arg3 : Memref sig .tc .vmem S1 .f32) (harg3 : arg3.IsWhole) (arg4 : Memref sig .tc .vmem S5000x1 .f32) (harg4 : arg4.IsWhole)
    (x0 : Vec F S5000x32 .f32) (x1 : Vec F S32x1 .f32) (x2 : Vec F S1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- Pipeline 3's proof data on core `c`: the arrays are `V`'s; after the body at point `t` every input buffer
    still holds its block and the output buffer holds `out3_3` of the three input blocks; the invariant carried
    between points is the untouched rest (the other scoped buffers and the generator register); nothing is
    owed to another core; every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The arrays of the proof data are the entry contents. -/
theorem A_eq3 (c : Dev nD) (w : Fin cfg3.W) : (dat3 V c).A w = V c (Pipeline.arrRef spec3 w) := by
  dsimp only [dat3]

/-- What the body leaves in each window's buffer. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- What each input buffer holds when the body starts at point `t`: its block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a grid point -/

/-- What the pipeline hands the body at point `t`: the invariant, what the core owes, and the four current
    staging buffers at the contents the schedule left in them. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What the body must hand back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so the triple applies; the invariant and
    what the core owes are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every grid point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.KI.Run.lean ====
import proofs.«179590_j19610820673795_1_alg».proof.Proof.KI.Reg0
import proofs.«179590_j19610820673795_1_alg».proof.Proof.KI.Reg1
import proofs.«179590_j19610820673795_1_alg».proof.Proof.KI.Reg2
import proofs.«179590_j19610820673795_1_alg».proof.Proof.KI.Reg3

/-!
# The run of the whole program, with every buffer's final contents named

The program is ten items in a row: three stretches of host operations, region 0, a stretch, region 1, a
stretch, regions 2 and 3 back to back, and a last stretch.  `W0 … W10` name the contents of every buffer
of a core at the eleven boundaries: `W0` is the launch memory, a host stretch maps a boundary to the fold
of its operations over it, and a region maps it to the same contents with the region's four arrays replaced
by what its pipeline leaves.  `run_all` says every weakly fair execution terminates without a fault in a
state whose unscoped TensorCore buffers hold `W10`; `W10_main_argK` says `W10` at an argument is the
launch memory (no item writes an argument); `frame` is the two combined.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of a core's buffers at each boundary -/

/-- At launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- The same, read at the TensorCore's references (what the next region is entered from). -/
abbrev V3 : (c : Dev nD) → (b : Ref sig .tc) → Buf (Elt F) ((c : Thread nD τ).loc b) := fun c b => W3 m ρ c b
/-- At region 0's exit: its four arrays hold what the pipeline leaves (the inputs as entered, the output with
    every point's write-back folded in), every other buffer is as at entry. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same, read at the TensorCore's references. -/
abbrev V4 : (c : Dev nD) → (b : Ref sig .tc) → Buf (Elt F) ((c : Thread nD τ).loc b) := fun c b => W4 m ρ c b
/-- The two facts that put the arrays back among the unscoped buffers at the exit. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`. -/
abbrev W5 : Dev nD → Valuation τ sig (Elt F) := fun c => StableHlo.after hostOps1 (W4 m ρ c)
/-- The same, read at the TensorCore's references (what the next region is entered from). -/
abbrev V5 : (c : Dev nD) → (b : Ref sig .tc) → Buf (Elt F) ((c : Thread nD τ).loc b) := fun c b => W5 m ρ c b
/-- At region 1's exit: its four arrays hold what the pipeline leaves (the inputs as entered, the output with
    every point's write-back folded in), every other buffer is as at entry. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same, read at the TensorCore's references. -/
abbrev V6 : (c : Dev nD) → (b : Ref sig .tc) → Buf (Elt F) ((c : Thread nD τ).loc b) := fun c b => W6 m ρ c b
/-- The two facts that put the arrays back among the unscoped buffers at the exit. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2`. -/
abbrev W7 : Dev nD → Valuation τ sig (Elt F) := fun c => StableHlo.after hostOps2 (W6 m ρ c)
/-- The same, read at the TensorCore's references (what the next region is entered from). -/
abbrev V7 : (c : Dev nD) → (b : Ref sig .tc) → Buf (Elt F) ((c : Thread nD τ).loc b) := fun c b => W7 m ρ c b
/-- At region 2's exit: its four arrays hold what the pipeline leaves (the inputs as entered, the output with
    every point's write-back folded in), every other buffer is as at entry. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same, read at the TensorCore's references. -/
abbrev V8 : (c : Dev nD) → (b : Ref sig .tc) → Buf (Elt F) ((c : Thread nD τ).loc b) := fun c b => W8 m ρ c b
/-- The two facts that put the arrays back among the unscoped buffers at the exit. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- At region 3's exit: its four arrays hold what the pipeline leaves (the inputs as entered, the output with
    every point's write-back folded in), every other buffer is as at entry. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- The same, read at the TensorCore's references. -/
abbrev V9 : (c : Dev nD) → (b : Ref sig .tc) → Buf (Elt F) ((c : Thread nD τ).loc b) := fun c b => W9 m ρ c b
/-- The two facts that put the arrays back among the unscoped buffers at the exit. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After `hostOps4`. -/
abbrev W10 : Dev nD → Valuation τ sig (Elt F) := fun c => StableHlo.after hostOps4 (W9 m ρ c)

/-! ## What the host stretches write -/

/-- No operation of `hostOps0` allocates a buffer. -/
theorem hostOps0_fresh : (hostOps0 : List (HloOp τ sig (Elt F))).Forall fun op => op.fresh = ∅ := by
  simp only [List.Forall]; repeat' constructor
/-- The buffers the operations of `hostOps0` write: each operation writes its result buffer only. -/
abbrev hostOps0_W : List (Ref sig .tc) := [main_v0, main_v1, main_v2, main_v3, main_cst, main_v4, main_v5, main_v6, main_cst_0, main_v7, main_v8, main_cst_1, main_v9, main_v10, main_v11, main_cst_2]
theorem hostOps0_writes : (hostOps0 : List (HloOp τ sig (Elt F))).Forall fun op => op.writes ⊆ (hostOps0_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps0_1` allocates a buffer. -/
theorem hostOps0_1_fresh : (hostOps0_1 : List (HloOp τ sig (Elt F))).Forall fun op => op.fresh = ∅ := by
  simp only [List.Forall]; repeat' constructor
/-- The buffers the operations of `hostOps0_1` write: each operation writes its result buffer only. -/
abbrev hostOps0_1_W : List (Ref sig .tc) := [main_call0_v0, main_call0_v1, main_v12]
theorem hostOps0_1_writes : (hostOps0_1 : List (HloOp τ sig (Elt F))).Forall fun op => op.writes ⊆ (hostOps0_1_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps0_2` allocates a buffer. -/
theorem hostOps0_2_fresh : (hostOps0_2 : List (HloOp τ sig (Elt F))).Forall fun op => op.fresh = ∅ := by
  simp only [List.Forall]; repeat' constructor
/-- The buffers the operations of `hostOps0_2` write: each operation writes its result buffer only. -/
abbrev hostOps0_2_W : List (Ref sig .tc) := [main_c, main_v13, main_v14, main_c_3, main_v15, main_v16, main_v17, main_v18, main_v19, main_v20, main_c_4, main_v21, main_v22, main_c_5, main_v23, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps1` allocates a buffer. -/
theorem hostOps1_fresh : (hostOps1 : List (HloOp τ sig (Elt F))).Forall fun op => op.fresh = ∅ := by
  simp only [List.Forall]; repeat' constructor
/-- The buffers the operations of `hostOps1` write: each operation writes its result buffer only. -/
abbrev hostOps1_W : List (Ref sig .tc) := [main_c_6, main_v31, main_v32, main_c_7, main_v33, main_v34, main_v35, main_v36, main_v37, main_v38, main_v39, main_v40, main_cst_8, main_v41, main_v42, main_v43, main_c_9, main_v44, main_v45, main_c_10, main_v46, main_v47, main_v48, main_v49, main_v50, main_v51, main_v52, main_v53, main_cst_11, main_v54, main_v55, main_v56, main_c_12, main_v57, main_v58, main_c_13, main_v59, main_v60, main_v61, main_v62, main_v63, main_v64, main_v65, main_v66, main_cst_14, main_v67, main_v68, main_v69, main_c_15, main_v70, main_v71, main_c_16, main_v72, main_v73, main_v74, main_v75, main_v76, main_v77, main_v78, main_v79, main_cst_17, main_v80, main_v81, main_v82, main_v83, main_v84, main_v85, main_v86, main_v87, main_v88]
theorem hostOps1_writes : (hostOps1 : List (HloOp τ sig (Elt F))).Forall fun op => op.writes ⊆ (hostOps1_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps2` allocates a buffer. -/
theorem hostOps2_fresh : (hostOps2 : List (HloOp τ sig (Elt F))).Forall fun op => op.fresh = ∅ := by
  simp only [List.Forall]; repeat' constructor
/-- The buffers the operations of `hostOps2` write: each operation writes its result buffer only. -/
abbrev hostOps2_W : List (Ref sig .tc) := [main_c_18, main_v90, main_v91, main_c_19, main_v92, main_v93, main_v94, main_v95, main_v96, main_v97, main_v98, main_v99, main_cst_20, main_v100, main_v101, main_v102, main_c_21, main_v103, main_v104, main_c_22, main_v105, main_v106, main_v107, main_v108, main_v109, main_v110, main_v111, main_v112, main_cst_23, main_v113, main_v114, main_v115, main_c_24, main_v116, main_v117, main_c_25, main_v118, main_v119, main_v120, main_v121, main_v122, main_v123, main_v124, main_v125, main_cst_26, main_v126, main_v127, main_v128, main_c_27, main_v129, main_v130, main_c_28, main_v131, main_v132, main_v133, main_v134, main_v135, main_v136, main_v137, main_v138, main_cst_29, main_v139, main_v140, main_v141, main_v142, main_v143, main_v144, main_v145, main_v146, main_v147]
theorem hostOps2_writes : (hostOps2 : List (HloOp τ sig (Elt F))).Forall fun op => op.writes ⊆ (hostOps2_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-- No operation of `hostOps4` allocates a buffer. -/
theorem hostOps4_fresh : (hostOps4 : List (HloOp τ sig (Elt F))).Forall fun op => op.fresh = ∅ := by
  simp only [List.Forall]; repeat' constructor
/-- The buffers the operations of `hostOps4` write: each operation writes its result buffer only. -/
abbrev hostOps4_W : List (Ref sig .tc) := [main_cst_30, main_v150, main_v151, main_v152, main_cst_31, main_v153, main_cst_32, main_v154, main_v155, main_v156, main_cst_33, main_v157, main_v158, main_v159]
theorem hostOps4_writes : (hostOps4 : List (HloOp τ sig (Elt F))).Forall fun op => op.writes ⊆ (hostOps4_W.map (Proc.devRef (τ := τ) .tc)).toFinset := by
  simp only [List.Forall]; exact
    ⟨(by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)),
     (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))⟩

/-! ## The arguments end as launched

No host operation writes an argument and no region writes one (a region reads an argument through an input
window, whose array it leaves as entered, or does not touch it), so `W10` at an argument's buffer walks
back through the ten items to the launch memory. -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps4 _ hostOps4_writes (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps4 _ hostOps4_writes (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := StableHlo.after_of_writes_sub hostOps4 _ hostOps4_writes (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := StableHlo.after_of_writes_sub hostOps4 _ hostOps4_writes (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := StableHlo.after_of_writes_sub hostOps4 _ hostOps4_writes (by decide)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := StableHlo.after_of_writes_sub hostOps4 _ hostOps4_writes (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := (W4_arr m ρ c 1).trans (((dat0 (V3 m ρ) c).arrAt_in 1 rfl _).trans (A_eq0 (V3 m ρ) c 1))
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := StableHlo.after_of_writes_sub hostOps4 _ hostOps4_writes (by decide)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := (W4_arr m ρ c 2).trans (((dat0 (V3 m ρ) c).arrAt_in 2 rfl _).trans (A_eq0 (V3 m ρ) c 2))
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := StableHlo.after_of_writes_sub hostOps4 _ hostOps4_writes (by decide)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := StableHlo.after_of_writes_sub hostOps4 _ hostOps4_writes (by decide)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl
theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := StableHlo.after_of_writes_sub hostOps4 _ hostOps4_writes (by decide)
    _ = W8 m ρ c (Proc.devRef .tc main_arg9) := (W9_arr m ρ c 1).trans (((dat3 (V8 m ρ) c).arrAt_in 1 rfl _).trans (A_eq3 (V8 m ρ) c 1))
    _ = W7 m ρ c (Proc.devRef .tc main_arg9) := W8_of_ne m ρ c main_arg9 (by decide)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl
theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := StableHlo.after_of_writes_sub hostOps4 _ hostOps4_writes (by decide)
    _ = W8 m ρ c (Proc.devRef .tc main_arg10) := (W9_arr m ρ c 2).trans (((dat3 (V8 m ρ) c).arrAt_in 2 rfl _).trans (A_eq3 (V8 m ρ) c 2))
    _ = W7 m ρ c (Proc.devRef .tc main_arg10) := W8_of_ne m ρ c main_arg10 (by decide)
    _ = W6 m ρ c (Proc.devRef .tc main_arg10) := StableHlo.after_of_writes_sub hostOps2 _ hostOps2_writes (by decide)
    _ = W5 m ρ c (Proc.devRef .tc main_arg10) := W6_of_ne m ρ c main_arg10 (by decide)
    _ = W4 m ρ c (Proc.devRef .tc main_arg10) := StableHlo.after_of_writes_sub hostOps1 _ hostOps1_writes (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

/-! ## The proof data of the four pipelines and the thread state -/

/-- No pipeline has a prefetched table. -/
abbrev adm : (p : Fin 4) → (pcfgs (F := F) p).Adm := fun p => (cfgs p).toPCfg_adm
/-- The proof data of each pipeline, at the contents its region is entered from. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V8 m ρ) c
abbrev 𝒱₀ : Variants := Variants.none
/-- No core ever owes another anything, so no level is assigned. -/
abbrev L : GSem nD τ sig → Finset Unit := fun _ => ∅
abbrev lv : GSem nD τ sig → Unit → ℕ := fun _ _ => 0
/-- What a core holds beside its buffers through every item: its generator register at some state, and owing nothing. -/
abbrev R (c : Dev nD) : sProp 𝕄 := iprop((∃ r, prngReg c r) ∗ ∃ W, owes (c : Thread nD τ) (0 : CellTallies nD τ sig Unit) W)
/-- A host stretch as a segment over the unscoped buffers at contents `W`, `R` carried along unchanged. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W10`, the generator register at some state. -/
abbrev Tₙ (c : Dev nD) : sProp 𝕄 := iprop(StableHlo.held (c : Thread nD τ) (Pipeline.ucRefs τ sig) (W10 m ρ c) ∗ ∃ r, prngReg c r)

/-! ## The regions as segments -/

-- unifying a library lemma stated over the pinned configuration with the printed one needs plain definitions
-- unfolded in the types of metavariables
set_option backward.isDefEq.respectTransparency.types false in
/-- Region 0 as a segment of the thread state: entered with every unscoped buffer at `W3`, left with them at `W4`.
    Its four arrays are split out of the unscoped buffers at the entry and put back at the exit contents; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions
-- unfolded in the types of metavariables
set_option backward.isDefEq.respectTransparency.types false in
/-- Region 1 as a segment of the thread state: entered with every unscoped buffer at `W5`, left with them at `W6`.
    Its four arrays are split out of the unscoped buffers at the entry and put back at the exit contents; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions
-- unfolded in the types of metavariables
set_option backward.isDefEq.respectTransparency.types false in
/-- Region 2 as a segment of the thread state: entered with every unscoped buffer at `W7`, left with them at `W8`.
    Its four arrays are split out of the unscoped buffers at the entry and put back at the exit contents; the generator
    register goes into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions
-- unfolded in the types of metavariables
set_option backward.isDefEq.respectTransparency.types false in
/-- Region 3 as a segment of the thread state: entered with every unscoped buffer at `W8`, left with them at `W9`.
    Its four arrays are split out of the unscoped buffers at the entry and put back at the exit contents; the generator
    register goes into the pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its ten segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .region (reg3 m ρ),
    .host (hseg hostOps4 hostOps4_sub hostOps4_fresh (W9 m ρ)) ]
/-- The program is the run of its segments: both are the same chain of items. -/
theorem main_run (c : Dev nD) : main (F := F) c = Pipeline.Seg.run (segs m ρ) := (main_chain c).trans (by chain_rfl)

-- the launch theorem's implicit arguments are found by unifying its conclusion with this statement, which needs plain
-- definitions unfolded in the types of metavariables
set_option backward.isDefEq.respectTransparency.types false in
/-- From any memory with all semaphore counters at zero, every weakly fair execution of the program on the TensorCores
    terminates, nothing faults, and in every final state each unscoped TensorCore buffer of each core holds `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The frame: the program terminates without a fault from any memory with zero counters, and every argument array
    ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)
    (run_all m ρ)

end Cert.KernelIdeal.Hand

end
-- ==== Proof.HostDefs.lean ====
/-
  The host-side stages of both programs as named functions of whole arrays, each written exactly as the program
  composes its operations, so that a buffer's contents after a stretch of host operations is one of these functions
  of the contents before it. The graph part (edge endpoints, degrees, edge normalisation, one propagation step,
  the per-graph mean) is spelt identically by the two programs; the dense layers are the reference's alone, and the
  side-by-side feature matrix and the stacked weight matrix are the kernel program's alone.
-/
import proofs.«179590_j19610820673795_1_alg».proof.Proof.Gen.KernelIdeal
import proofs.«179590_j19610820673795_1_alg».proof.Proof.Gen.ReferenceIdeal

noncomputable section

namespace Cert.ReferenceIdeal.HV

open Cert.ReferenceIdeal Cert.ReferenceIdeal.Facts₀ Idealize.ShloMosaic Idealize.ShloMosaic.TcCoe

variable {F : FTy → Type} [FloatOps F]

/-- Contents of a buffer of shape s and element type e. -/
abbrev C (s : Shape) (e : EltTy) : Type := (⟨s, e⟩ : BufTy).Contents (Elt F)

/-- Source node of every edge: row 0 of the edge table. -/
def rowOf (a2 : C (F := F) S2x3200000 .i32) : C (F := F) S3200000 .i32 :=
  shapeCast S3200000 (extractStridedSlice S1x3200000 ![0, 0] a2 slices_S2x3200000_S1x3200000_0_0) shapeCasts_S1x3200000_S3200000

/-- Destination node of every edge: row 1 of the edge table. -/
def colOf (a2 : C (F := F) S2x3200000 .i32) : C (F := F) S3200000 .i32 :=
  shapeCast S3200000 (extractStridedSlice S1x3200000 ![1, 0] a2 slices_S2x3200000_S1x3200000_1_0) shapeCasts_S1x3200000_S3200000

/-- A node index as a gather reads it: a negative index is shifted up by the node count, then the vector is a column. -/
def wrapIdx (r : C (F := F) S3200000 .i32) : C (F := F) S3200000x1 .i32 :=
  broadcastInDim S3200000x1 ![0] bcast_S3200000_S3200000x1_0
    (select (cmpi .slt r (broadcastInDim S3200000 ![] bcast_S_S3200000 (constantI S_ 32 0#32)))
      (addi r (broadcastInDim S3200000 ![] bcast_S_S3200000 (constantI S_ 32 100000#32))) r)

/-- Weighted in-degree of every node: the edge weights summed at their destinations. -/
def degOf (col : C (F := F) S3200000 .i32) (ea : C (F := F) S3200000 .f32) : C (F := F) S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 col) ea

/-- Inverse square root of the degree where it is positive (the degree clamped below), zero elsewhere. -/
def dinvOf (deg : C (F := F) S100000 .f32) : C (F := F) S100000 .f32 :=
  select (cmpf .ogt deg (broadcastInDim S100000 ![] bcast_S_S100000 (constant S_ .f32 0x00000000#32)))
    (Host.rsqrt (maximumf deg (broadcastInDim S100000 ![] bcast_S_S100000 (constant S_ .f32 0x2B8CBCCC#32))))
    (broadcastInDim S100000 ![] bcast_S_S100000 (id (constant S_ .f32 0x00000000#32)))

/-- Symmetric edge normalisation: dinv at the source times the weight times dinv at the destination. -/
def normOf (row col : C (F := F) S3200000 .i32) (ea : C (F := F) S3200000 .f32) (dinv : C (F := F) S100000 .f32) :
    C (F := F) S3200000 .f32 :=
  mulf (mulf (Host.gather gather_S100000_S3200000x1_S3200000_n_0_n_n_0_1_1 dinv (wrapIdx row)) ea)
    (Host.gather gather_S100000_S3200000x1_S3200000_n_0_n_n_0_1_1 dinv (wrapIdx col))

/-- One propagation step: each edge carries its source's feature row scaled by the edge's normalisation, and
    every node sums what arrives. -/
def prop (row col : C (F := F) S3200000 .i32) (norm : C (F := F) S3200000 .f32) (z : C (F := F) S100000x32 .f32) :
    C (F := F) S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 col)
    (mulf (Host.gather gather_S100000x32_S3200000x1_S3200000x32_1_0_n_n_0_1_132 z (wrapIdx row))
      (broadcastInDim S3200000x32 ![0, 1] bcast_S3200000x1_S3200000x32_0_1
        (broadcastInDim S3200000x1 ![0] bcast_S3200000_S3200000x1_0 norm)))

/-- Node features: state and action side by side. -/
def xOf (a0 : C (F := F) S100000x8 .f32) (a1 : C (F := F) S100000x2 .f32) : C (F := F) S100000x10 .f32 :=
  concatenate S100000x10 1 [⟨S100000x8, a0⟩, ⟨S100000x2, a1⟩] concatenates_S100000x8_S100000x2_S100000x10_d1

/-- Mean read-out per graph: the node values summed per graph, over the node count per graph clamped below by one. -/
def tailOf (a4 : C (F := F) S100000 .i32) (y : C (F := F) S100000x1 .f32) : C (F := F) S100x1 .f32 :=
  Host.divf
    (Host.scatterAdd scatter_S100x1_S100000x1_S100000x1_1_0_0_1
      (broadcastInDim S100x1 ![] bcast_S_S100x1 (constant S_ .f32 0x00000000#32))
      (broadcastInDim S100000x1 ![0] bcast_S100000_S100000x1_0 a4) y)
    (maximumf
      (Host.scatterAdd scatter_S100x1_S100000x1_S100000x1_1_0_0_1
        (broadcastInDim S100x1 ![] bcast_S_S100x1 (constant S_ .f32 0x00000000#32))
        (broadcastInDim S100000x1 ![0] bcast_S100000_S100000x1_0 a4)
        (broadcastInDim S100000x1 ![] bcast_S_S100000x1 (constant S_ .f32 0x3F800000#32)))
      (broadcastInDim S100x1 ![] bcast_S_S100x1 (constant S_ .f32 0x3F800000#32)))

/-- The leaky rectifier as the host spells it. -/
def leaky (u : C (F := F) S100000x32 .f32) : C (F := F) S100000x32 .f32 :=
  select (cmpf .oge u (broadcastInDim S100000x32 ![] bcast_S_S100000x32 (constant S_ .f32 0x00000000#32))) u
    (mulf (broadcastInDim S100000x32 ![] bcast_S_S100000x32 (constant S_ .f32 0x3C23D70A#32)) u)

/-- A bias row laid under every node. -/
def biasRows (b : C (F := F) S32 .f32) : C (F := F) S100000x32 .f32 :=
  broadcastInDim S100000x32 ![0, 1] bcast_S1x32_S100000x32_0_1 (broadcastInDim S1x32 ![1] bcast_S32_S1x32_1 b)

/-- The read-in layer on the host. -/
def dense0 (x : C (F := F) S100000x10 .f32) (w : C (F := F) S10x32 .f32) (b : C (F := F) S32 .f32) : C (F := F) S100000x32 .f32 :=
  leaky (addf (Host.dotGeneral dot_S100000x10_S10x32_S100000x32_1_0_0_1_n_n none x w) (biasRows b))

/-- One 32-by-32 slice of the weight tensor, cut at the offsets off. -/
def wSlice (off : Fin 4 → Nat) (h : S2x5x32x32.Slices off S1x1x32x32) (wt : C (F := F) S2x5x32x32 .f32) : C (F := F) S32x32 .f32 :=
  shapeCast S32x32 (extractStridedSlice S1x1x32x32 off wt h) shapeCasts_S1x1x32x32_S32x32

/-- One row of the bias table, cut at the offsets off. -/
def bSlice (off : Fin 2 → Nat) (h : S2x32.Slices off S1x32) (bg : C (F := F) S2x32 .f32) : C (F := F) S32 .f32 :=
  shapeCast S32 (extractStridedSlice S1x32 off bg h) shapeCasts_S1x32_S32

/-- A feature matrix against one weight slice. -/
def mm (z : C (F := F) S100000x32 .f32) (w : C (F := F) S32x32 .f32) : C (F := F) S100000x32 .f32 :=
  Host.dotGeneral dot_S100000x32_S32x32_S100000x32_1_0_0_1_n_n none z w

/-- The tap layer on the host: five products added left to right, the bias, the rectifier. -/
def tap (z0 z1 z2 z3 z4 : C (F := F) S100000x32 .f32) (w0 w1 w2 w3 w4 : C (F := F) S32x32 .f32) (b : C (F := F) S32 .f32) :
    C (F := F) S100000x32 .f32 :=
  leaky (addf (addf (addf (addf (addf (mm z0 w0) (mm z1 w1)) (mm z2 w2)) (mm z3 w3)) (mm z4 w4)) (biasRows b))

/-- The read-out layer on the host. -/
def outLin (h : C (F := F) S100000x32 .f32) (w : C (F := F) S32x1 .f32) (b : C (F := F) S1 .f32) : C (F := F) S100000x1 .f32 :=
  addf (Host.dotGeneral dot_S100000x32_S32x1_S100000x1_1_0_0_1_n_n none h w)
    (broadcastInDim S100000x1 ![0, 1] bcast_S1x1_S100000x1_0_1 (broadcastInDim S1x1 ![1] bcast_S1_S1x1_1 b))

end Cert.ReferenceIdeal.HV

namespace Cert.KernelIdeal.HV

open Cert.KernelIdeal Cert.KernelIdeal.Facts₀ Idealize.ShloMosaic Idealize.ShloMosaic.TcCoe

variable {F : FTy → Type} [FloatOps F]

/-- Contents of a buffer of shape s and element type e. -/
abbrev C (s : Shape) (e : EltTy) : Type := (⟨s, e⟩ : BufTy).Contents (Elt F)

/-- Source node of every edge: row 0 of the edge table. -/
def rowOf (a2 : C (F := F) S2x3200000 .i32) : C (F := F) S3200000 .i32 :=
  shapeCast S3200000 (extractStridedSlice S1x3200000 ![0, 0] a2 slices_S2x3200000_S1x3200000_0_0) shapeCasts_S1x3200000_S3200000

/-- Destination node of every edge: row 1 of the edge table. -/
def colOf (a2 : C (F := F) S2x3200000 .i32) : C (F := F) S3200000 .i32 :=
  shapeCast S3200000 (extractStridedSlice S1x3200000 ![1, 0] a2 slices_S2x3200000_S1x3200000_1_0) shapeCasts_S1x3200000_S3200000

/-- A node index as a gather reads it: a negative index is shifted up by the node count, then the vector is a column. -/
def wrapIdx (r : C (F := F) S3200000 .i32) : C (F := F) S3200000x1 .i32 :=
  broadcastInDim S3200000x1 ![0] bcast_S3200000_S3200000x1_0
    (select (cmpi .slt r (broadcastInDim S3200000 ![] bcast_S_S3200000 (constantI S_ 32 0#32)))
      (addi r (broadcastInDim S3200000 ![] bcast_S_S3200000 (constantI S_ 32 100000#32))) r)

/-- Weighted in-degree of every node: the edge weights summed at their destinations. -/
def degOf (col : C (F := F) S3200000 .i32) (ea : C (F := F) S3200000 .f32) : C (F := F) S100000 .f32 :=
  Host.scatterAdd scatter_S100000_S3200000x1_S3200000_n_0_0_1
    (broadcastInDim S100000 ![] bcast_S_S100000 (constant S_ .f32 0x00000000#32))
    (broadcastInDim S3200000x1 ![0] bcast_S3200000_S3200000x1_0 col) ea

/-- Inverse square root of the degree where it is positive (the degree clamped below), zero elsewhere. -/
def dinvOf (deg : C (F := F) S100000 .f32) : C (F := F) S100000 .f32 :=
  select (cmpf .ogt deg (broadcastInDim S100000 ![] bcast_S_S100000 (constant S_ .f32 0x00000000#32)))
    (Host.rsqrt (maximumf deg (broadcastInDim S100000 ![] bcast_S_S100000 (constant S_ .f32 0x2B8CBCCC#32))))
    (broadcastInDim S100000 ![] bcast_S_S100000 (id (constant S_ .f32 0x00000000#32)))

/-- Symmetric edge normalisation: dinv at the source times the weight times dinv at the destination. -/
def normOf (row col : C (F := F) S3200000 .i32) (ea : C (F := F) S3200000 .f32) (dinv : C (F := F) S100000 .f32) :
    C (F := F) S3200000 .f32 :=
  mulf (mulf (Host.gather gather_S100000_S3200000x1_S3200000_n_0_n_n_0_1_1 dinv (wrapIdx row)) ea)
    (Host.gather gather_S100000_S3200000x1_S3200000_n_0_n_n_0_1_1 dinv (wrapIdx col))

/-- One propagation step: each edge carries its source's feature row scaled by the edge's normalisation, and
    every node sums what arrives. -/
def prop (row col : C (F := F) S3200000 .i32) (norm : C (F := F) S3200000 .f32) (z : C (F := F) S100000x32 .f32) :
    C (F := F) S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 col)
    (mulf (Host.gather gather_S100000x32_S3200000x1_S3200000x32_1_0_n_n_0_1_132 z (wrapIdx row))
      (broadcastInDim S3200000x32 ![0, 1] bcast_S3200000x1_S3200000x32_0_1
        (broadcastInDim S3200000x1 ![0] bcast_S3200000_S3200000x1_0 norm)))

/-- Node features: state and action side by side. -/
def xOf (a0 : C (F := F) S100000x8 .f32) (a1 : C (F := F) S100000x2 .f32) : C (F := F) S100000x10 .f32 :=
  concatenate S100000x10 1 [⟨S100000x8, a0⟩, ⟨S100000x2, a1⟩] concatenates_S100000x8_S100000x2_S100000x10_d1

/-- Mean read-out per graph: the node values summed per graph, over the node count per graph clamped below by one. -/
def tailOf (a4 : C (F := F) S100000 .i32) (y : C (F := F) S100000x1 .f32) : C (F := F) S100x1 .f32 :=
  Host.divf
    (Host.scatterAdd scatter_S100x1_S100000x1_S100000x1_1_0_0_1
      (broadcastInDim S100x1 ![] bcast_S_S100x1 (constant S_ .f32 0x00000000#32))
      (broadcastInDim S100000x1 ![0] bcast_S100000_S100000x1_0 a4) y)
    (maximumf
      (Host.scatterAdd scatter_S100x1_S100000x1_S100000x1_1_0_0_1
        (broadcastInDim S100x1 ![] bcast_S_S100x1 (constant S_ .f32 0x00000000#32))
        (broadcastInDim S100000x1 ![0] bcast_S100000_S100000x1_0 a4)
        (broadcastInDim S100000x1 ![] bcast_S_S100000x1 (constant S_ .f32 0x3F800000#32)))
      (broadcastInDim S100x1 ![] bcast_S_S100x1 (constant S_ .f32 0x3F800000#32)))

/-- Five feature matrices side by side. -/
def side5 (u0 u1 u2 u3 u4 : C (F := F) S100000x32 .f32) : C (F := F) S100000x160 .f32 :=
  concatenate S100000x160 1 [⟨S100000x32, u0⟩, ⟨S100000x32, u1⟩, ⟨S100000x32, u2⟩, ⟨S100000x32, u3⟩, ⟨S100000x32, u4⟩]
    concatenates_S100000x32_S100000x32_S100000x32_S100000x32_S100000x32_S100000x160_d1

/-- One layer of the weight tensor with its five slices stacked into a 160-by-32 matrix. -/
def wCat (off : Fin 4 → Nat) (h : S2x5x32x32.Slices off S1x5x32x32) (wt : C (F := F) S2x5x32x32 .f32) : C (F := F) S160x32 .f32 :=
  shapeCast S160x32 (shapeCast S5x32x32 (extractStridedSlice S1x5x32x32 off wt h) shapeCasts_S1x5x32x32_S5x32x32) shapeCasts_S5x32x32_S160x32

/-- One row of the bias table, cut at the offsets off. -/
def bSlice (off : Fin 2 → Nat) (h : S2x32.Slices off S1x32) (bg : C (F := F) S2x32 .f32) : C (F := F) S32 .f32 :=
  shapeCast S32 (extractStridedSlice S1x32 off bg h) shapeCasts_S1x32_S32

end Cert.KernelIdeal.HV

end
-- ==== Proof.LibLineResults.lean ====
/-
  Reading a straight line of host operations: three general facts used by every stage lemma of this certificate.

  * The contents after two lines run one after the other are the second line's contents after the first's.
  * An operation over a literal family of FIVE operand references (a concatenation of five arrays) writes its
    function applied to each operand's contents taken at that operand's own reference, so that a reader can go on
    rewriting those contents one operation further back.
  * A tactic that unrolls a literal line at a reference in one simplification pass, the five-operand fact included.
-/
import Idealize.ShloMosaic.Lib.StableHlo.Run

noncomputable section

namespace Idealize.ShloMosaic.StableHlo

open Idealize.ShloMosaic

variable {τ : Topo} {sig : RefSig} {Val : EltTy → Type}

/-- The contents after a concatenated line: the second part's fold over the first part's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {x a b c e y : Ref sig .tc}

/-- A five-operand operation's result, each operand's contents at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same, with the result reference kept out of the simplifier's index. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- Unrolls a literal line of host operations at one reference in a single pass: every operation's result at its
    own result reference becomes its function's value, at any other reference what was there before. -/
macro "line_results" : tactic =>
  `(tactic| (simp (disch := decide) only [after_cons, after_nil,
      nullary_result', unary_result', binary_result', ternary_result', quaternary_result', reshape_result', nary5_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KI.StageA.lean ====
/-
  The kernel program's host operations before its first dense layer, read as functions of the argument arrays:
  the edge endpoints, the edge normalisation (through the weighted degree and its inverse square root) and the
  node features. No operation of this stretch writes an argument or a value it has finished computing.
-/
import proofs.«179590_j19610820673795_1_alg».proof.Proof.Gen.KernelIdeal.Launch
import proofs.«179590_j19610820673795_1_alg».proof.Proof.HostDefs
import proofs.«179590_j19610820673795_1_alg».proof.Proof.LibLineResults

set_option maxRecDepth 16384

noncomputable section

namespace Cert.KernelIdeal.Stage

open Cert.KernelIdeal Cert.KernelIdeal.Gen Cert.KernelIdeal.Facts₀ Idealize.ShloMosaic Idealize.ShloMosaic.TcCoe Idealize.ShloMosaic.StableHlo

variable {F : FTy → Type} [FloatOps F]

/-- The three lines before the first dense layer as one line. -/
abbrev opsA : List (HloOp τ sig (Elt F)) := hostOps0 ++ (hostOps0_1 ++ hostOps0_2)

theorem afterA (V : Valuation τ sig (Elt F)) :
    after hostOps0_2 (after hostOps0_1 (after hostOps0 V)) = after opsA V := by
  unfold opsA; rw [after_append, after_append]

theorem a_v1 (V : Valuation τ sig (Elt F)) :
    after opsA V (main_v1 : DevRef τ sig) = HV.rowOf (V (main_arg2 : DevRef τ sig)) := by
  simp only [opsA, hostOps0, hostOps0_1, hostOps0_2, List.cons_append, List.nil_append]
  line_results
  rfl

theorem a_v3 (V : Valuation τ sig (Elt F)) :
    after opsA V (main_v3 : DevRef τ sig) = HV.colOf (V (main_arg2 : DevRef τ sig)) := by
  simp only [opsA, hostOps0, hostOps0_1, hostOps0_2, List.cons_append, List.nil_append]
  line_results
  rfl

theorem a_v28 (V : Valuation τ sig (Elt F)) :
    after opsA V (main_v28 : DevRef τ sig)
      = HV.normOf (HV.rowOf (V (main_arg2 : DevRef τ sig))) (HV.colOf (V (main_arg2 : DevRef τ sig))) (V (main_arg3 : DevRef τ sig))
          (HV.dinvOf (HV.degOf (HV.colOf (V (main_arg2 : DevRef τ sig))) (V (main_arg3 : DevRef τ sig)))) := by
  simp only [opsA, hostOps0, hostOps0_1, hostOps0_2, List.cons_append, List.nil_append]
  line_results
  rfl

theorem a_v29 (V : Valuation τ sig (Elt F)) :
    after opsA V (main_v29 : DevRef τ sig) = HV.xOf (V (main_arg0 : DevRef τ sig)) (V (main_arg1 : DevRef τ sig)) := by
  simp only [opsA, hostOps0, hostOps0_1, hostOps0_2, List.cons_append, List.nil_append]
  line_results
  rfl

end Cert.KernelIdeal.Stage

end
-- ==== Proof.KI.Stage1.lean ====
/-
  The kernel program's host operations between its first and second dense layers: four propagation steps from the
  first layer's output, the five feature matrices laid side by side, and layer 0 of the weight tensor and of the
  bias table cut out and reshaped.
-/
import proofs.«179590_j19610820673795_1_alg».proof.Proof.Gen.KernelIdeal.Launch
import proofs.«179590_j19610820673795_1_alg».proof.Proof.HostDefs
import proofs.«179590_j19610820673795_1_alg».proof.Proof.LibLineResults

set_option maxRecDepth 16384

noncomputable section

namespace Cert.KernelIdeal.Stage

open Cert.KernelIdeal Cert.KernelIdeal.Gen Cert.KernelIdeal.Facts₀ Idealize.ShloMosaic Idealize.ShloMosaic.TcCoe Idealize.ShloMosaic.StableHlo

variable {F : FTy → Type} [FloatOps F]

theorem s1_taps (V : Valuation τ sig (Elt F)) :
    after hostOps1 V (main_v83 : DevRef τ sig)
      = HV.side5 (V (main_v30 : DevRef τ sig))
          (HV.prop (V (main_v1 : DevRef τ sig)) (V (main_v3 : DevRef τ sig)) (V (main_v28 : DevRef τ sig)) (V (main_v30 : DevRef τ sig)))
          (HV.prop (V (main_v1 : DevRef τ sig)) (V (main_v3 : DevRef τ sig)) (V (main_v28 : DevRef τ sig))
            (HV.prop (V (main_v1 : DevRef τ sig)) (V (main_v3 : DevRef τ sig)) (V (main_v28 : DevRef τ sig)) (V (main_v30 : DevRef τ sig))))
          (HV.prop (V (main_v1 : DevRef τ sig)) (V (main_v3 : DevRef τ sig)) (V (main_v28 : DevRef τ sig))
            (HV.prop (V (main_v1 : DevRef τ sig)) (V (main_v3 : DevRef τ sig)) (V (main_v28 : DevRef τ sig))
              (HV.prop (V (main_v1 : DevRef τ sig)) (V (main_v3 : DevRef τ sig)) (V (main_v28 : DevRef τ sig)) (V (main_v30 : DevRef τ sig)))))
          (HV.prop (V (main_v1 : DevRef τ sig)) (V (main_v3 : DevRef τ sig)) (V (main_v28 : DevRef τ sig))
            (HV.prop (V (main_v1 : DevRef τ sig)) (V (main_v3 : DevRef τ sig)) (V (main_v28 : DevRef τ sig))
              (HV.prop (V (main_v1 : DevRef τ sig)) (V (main_v3 : DevRef τ sig)) (V (main_v28 : DevRef τ sig))
                (HV.prop (V (main_v1 : DevRef τ sig)) (V (main_v3 : DevRef τ sig)) (V (main_v28 : DevRef τ sig)) (V (main_v30 : DevRef τ sig)))))) := by
  simp only [hostOps1]
  line_results
  rfl

theorem s1_w (V : Valuation τ sig (Elt F)) :
    after hostOps1 V (main_v86 : DevRef τ sig)
      = HV.wCat ![0, 0, 0, 0] Facts₀.slices_S2x5x32x32_S1x5x32x32_0_0_0_0 (V (main_arg7 : DevRef τ sig)) := by
  simp only [hostOps1]
  line_results
  rfl

theorem s1_b (V : Valuation τ sig (Elt F)) :
    after hostOps1 V (main_v88 : DevRef τ sig)
      = HV.bSlice ![0, 0] Facts₀.slices_S2x32_S1x32_0_0 (V (main_arg8 : DevRef τ sig)) := by
  simp only [hostOps1]
  line_results
  rfl

end Cert.KernelIdeal.Stage

end
-- ==== Proof.KI.Stage2.lean ====
/-
  The kernel program's host operations between its second and third dense layers: four propagation steps from the
  second layer's output, the five feature matrices laid side by side, and layer 1 of the weight tensor and of the
  bias table cut out and reshaped.
-/
import proofs.«179590_j19610820673795_1_alg».proof.Proof.Gen.KernelIdeal.Launch
import proofs.«179590_j19610820673795_1_alg».proof.Proof.HostDefs
import proofs.«179590_j19610820673795_1_alg».proof.Proof.LibLineResults

set_option maxRecDepth 16384

noncomputable section

namespace Cert.KernelIdeal.Stage

open Cert.KernelIdeal Cert.KernelIdeal.Gen Cert.KernelIdeal.Facts₀ Idealize.ShloMosaic Idealize.ShloMosaic.TcCoe Idealize.ShloMosaic.StableHlo

variable {F : FTy → Type} [FloatOps F]

theorem s2_taps (V : Valuation τ sig (Elt F)) :
    after hostOps2 V (main_v142 : DevRef τ sig)
      = HV.side5 (V (main_v89 : DevRef τ sig))
          (HV.prop (V (main_v1 : DevRef τ sig)) (V (main_v3 : DevRef τ sig)) (V (main_v28 : DevRef τ sig)) (V (main_v89 : DevRef τ sig)))
          (HV.prop (V (main_v1 : DevRef τ sig)) (V (main_v3 : DevRef τ sig)) (V (main_v28 : DevRef τ sig))
            (HV.prop (V (main_v1 : DevRef τ sig)) (V (main_v3 : DevRef τ sig)) (V (main_v28 : DevRef τ sig)) (V (main_v89 : DevRef τ sig))))
          (HV.prop (V (main_v1 : DevRef τ sig)) (V (main_v3 : DevRef τ sig)) (V (main_v28 : DevRef τ sig))
            (HV.prop (V (main_v1 : DevRef τ sig)) (V (main_v3 : DevRef τ sig)) (V (main_v28 : DevRef τ sig))
              (HV.prop (V (main_v1 : DevRef τ sig)) (V (main_v3 : DevRef τ sig)) (V (main_v28 : DevRef τ sig)) (V (main_v89 : DevRef τ sig)))))
          (HV.prop (V (main_v1 : DevRef τ sig)) (V (main_v3 : DevRef τ sig)) (V (main_v28 : DevRef τ sig))
            (HV.prop (V (main_v1 : DevRef τ sig)) (V (main_v3 : DevRef τ sig)) (V (main_v28 : DevRef τ sig))
              (HV.prop (V (main_v1 : DevRef τ sig)) (V (main_v3 : DevRef τ sig)) (V (main_v28 : DevRef τ sig))
                (HV.prop (V (main_v1 : DevRef τ sig)) (V (main_v3 : DevRef τ sig)) (V (main_v28 : DevRef τ sig)) (V (main_v89 : DevRef τ sig)))))) := by
  simp only [hostOps2]
  line_results
  rfl

theorem s2_w (V : Valuation τ sig (Elt F)) :
    after hostOps2 V (main_v145 : DevRef τ sig)
      = HV.wCat ![1, 0, 0, 0] Facts₀.slices_S2x5x32x32_S1x5x32x32_1_0_0_0 (V (main_arg7 : DevRef τ sig)) := by
  simp only [hostOps2]
  line_results
  rfl

theorem s2_b (V : Valuation τ sig (Elt F)) :
    after hostOps2 V (main_v147 : DevRef τ sig)
      = HV.bSlice ![1, 0] Facts₀.slices_S2x32_S1x32_1_0 (V (main_arg8 : DevRef τ sig)) := by
  simp only [hostOps2]
  line_results
  rfl

end Cert.KernelIdeal.Stage

end
-- ==== Proof.KI.Stage4.lean ====
/-
  The kernel program's last host operations: the per-graph mean of the read-out layer's output.
-/
import proofs.«179590_j19610820673795_1_alg».proof.Proof.Gen.KernelIdeal.Launch
import proofs.«179590_j19610820673795_1_alg».proof.Proof.HostDefs
import proofs.«179590_j19610820673795_1_alg».proof.Proof.LibLineResults

set_option maxRecDepth 16384

noncomputable section

namespace Cert.KernelIdeal.Stage

open Cert.KernelIdeal Cert.KernelIdeal.Gen Cert.KernelIdeal.Facts₀ Idealize.ShloMosaic Idealize.ShloMosaic.TcCoe Idealize.ShloMosaic.StableHlo

variable {F : FTy → Type} [FloatOps F]

theorem s4_out (V : Valuation τ sig (Elt F)) :
    after hostOps4 V (main_v159 : DevRef τ sig) = HV.tailOf (V (main_arg4 : DevRef τ sig)) (V (main_v149 : DevRef τ sig)) := by
  simp only [hostOps4]
  line_results
  rfl

end Cert.KernelIdeal.Stage

end
-- ==== Proof.Spec.lean ====
/-
  The mathematics both programs compute, stated once over the extended reals with no program in sight.

  A dense layer takes a node-feature matrix x (N rows, K columns), a weight matrix w (K by C) and a bias row b,
  and returns at row n, column c the sum over k of x(n,k) * w(k,c), plus b(c), optionally passed through the
  leaky rectifier. The tap-concatenated layer of the graph network is the same dense layer applied to five
  feature matrices laid side by side against five weight matrices stacked on top of each other; summing the five
  separate products gives the same number because a finite sum of extended reals may be regrouped freely.
-/
import Idealize.ShloMosaic.PureOps.Ideal
import Idealize.ShloMosaic.Lib.ValueIdx

noncomputable section

namespace Cert.Spec

open Idealize.ShloMosaic Idealize.ShloMosaic.ValueIdx

/-- The leaky rectifier as both programs spell it: s where s ≥ 0, otherwise the single-precision constant nearest
    one hundredth times s. -/
def lrelu (s : EReal) : EReal :=
  Scalar.select (FloatOps.cmpf (F := Ideal) (φ := .f32) .oge s (Ideal.ofBits .f32 0x00000000#32)) s
    (Ideal.ofBits .f32 0x3C23D70A#32 * s)

/-- One entry of a dense layer before the activation: the row of x against the column of w, plus the bias entry. -/
def affineAt {N K C : Nat} (x : (⟨2, ![N, K]⟩ : Shape).Idx → EReal) (w : (⟨2, ![K, C]⟩ : Shape).Idx → EReal)
    (b : (⟨1, ![C]⟩ : Shape).Idx → EReal) (n : Fin N) (c : Fin C) : EReal :=
  (∑ k : Fin K, x (ix2 n k) * w (ix2 k c)) + b (ix1 c)

/-- A dense layer with the leaky rectifier, as one function of the whole arrays. -/
def denseAct {N K C : Nat} (x : (⟨2, ![N, K]⟩ : Shape).Idx → EReal) (w : (⟨2, ![K, C]⟩ : Shape).Idx → EReal)
    (b : (⟨1, ![C]⟩ : Shape).Idx → EReal) : (⟨2, ![N, C]⟩ : Shape).Idx → EReal :=
  fun i => lrelu (affineAt x w b (i 0) (i 1))

/-- A dense layer with no activation. -/
def denseLin {N K C : Nat} (x : (⟨2, ![N, K]⟩ : Shape).Idx → EReal) (w : (⟨2, ![K, C]⟩ : Shape).Idx → EReal)
    (b : (⟨1, ![C]⟩ : Shape).Idx → EReal) : (⟨2, ![N, C]⟩ : Shape).Idx → EReal :=
  fun i => affineAt x w b (i 0) (i 1)

/-- One entry of the tap layer before the activation, in the reference's arrangement: five separate products of
    the five feature matrices with the five 32-by-32 slices of layer l of the weight tensor, added left to right,
    then the bias entry of layer l. -/
def tapAffineAt {N : Nat} (z : Fin 5 → (⟨2, ![N, 32]⟩ : Shape).Idx → EReal)
    (wt : (⟨4, ![2, 5, 32, 32]⟩ : Shape).Idx → EReal) (bg : (⟨2, ![2, 32]⟩ : Shape).Idx → EReal)
    (l : Fin 2) (n : Fin N) (c : Fin 32) : EReal :=
  (((((∑ i : Fin 32, z 0 (ix2 n i) * wt (ix4 l 0 i c)) + (∑ i : Fin 32, z 1 (ix2 n i) * wt (ix4 l 1 i c)))
      + (∑ i : Fin 32, z 2 (ix2 n i) * wt (ix4 l 2 i c))) + (∑ i : Fin 32, z 3 (ix2 n i) * wt (ix4 l 3 i c)))
      + (∑ i : Fin 32, z 4 (ix2 n i) * wt (ix4 l 4 i c))) + bg (ix2 l c)

/-- The tap layer with the leaky rectifier, as one function of the whole arrays. -/
def tapLayer {N : Nat} (z : Fin 5 → (⟨2, ![N, 32]⟩ : Shape).Idx → EReal)
    (wt : (⟨4, ![2, 5, 32, 32]⟩ : Shape).Idx → EReal) (bg : (⟨2, ![2, 32]⟩ : Shape).Idx → EReal) (l : Fin 2) :
    (⟨2, ![N, 32]⟩ : Shape).Idx → EReal :=
  fun i => lrelu (tapAffineAt z wt bg l (i 0) (i 1))

/-- The five feature matrices laid side by side: column j of the wide matrix is column j % 32 of matrix j / 32. -/
def sideBySide {N : Nat} (z : Fin 5 → (⟨2, ![N, 32]⟩ : Shape).Idx → EReal) : (⟨2, ![N, 160]⟩ : Shape).Idx → EReal :=
  fun i => z ⟨(i 1).val / 32, by have := (i 1).isLt; simp only [Matrix.cons_val_one, Matrix.cons_val_zero] at this; omega⟩
    (ix2 (i 0) ⟨(i 1).val % 32, Nat.mod_lt _ (by norm_num)⟩)

/-- Layer l of the weight tensor with its five slices stacked: row j of the tall matrix is row j % 32 of slice j / 32. -/
def stacked (wt : (⟨4, ![2, 5, 32, 32]⟩ : Shape).Idx → EReal) (l : Fin 2) : (⟨2, ![160, 32]⟩ : Shape).Idx → EReal :=
  fun i => wt (ix4 l ⟨(i 0).val / 32, by have := (i 0).isLt; simp only [Matrix.cons_val_zero] at this; omega⟩
    ⟨(i 0).val % 32, Nat.mod_lt _ (by norm_num)⟩ (i 1))

/-- Row l of the bias table. -/
def biasRow (bg : (⟨2, ![2, 32]⟩ : Shape).Idx → EReal) (l : Fin 2) : (⟨1, ![32]⟩ : Shape).Idx → EReal :=
  fun i => bg (ix2 l (i 0))

end Cert.Spec

end
-- ==== Proof.KI.Pay.lean ====
/-
  Each of the four dense-layer bodies, read at one entry of the block it stores.

  A body takes a block of 5000 rows of the feature matrix, the whole weight matrix and the bias row; it multiplies
  the block by the weights into a zero accumulator, adds the bias row along every row, and (first three layers)
  passes the result through the leaky rectifier. Over the extended reals the narrowing of the two factors to the
  half-width format is the identity, so entry (r, c) of what is stored is exactly
  the sum over k of x(r,k) * w(k,c), plus b(c), rectified or not: the dense-layer specification's entry.
-/
import proofs.«179590_j19610820673795_1_alg».proof.Proof.Gen.KernelIdeal.Skeleton
import proofs.«179590_j19610820673795_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegVal

open Idealize.ShloMosaic Idealize.ShloMosaic.ValueIdx Cert.KernelIdeal

/-! ## A matrix product into a zero accumulator, at an entry

The contraction runs over one axis, so its index set is in bijection with the column range of the left factor;
re-indexing the sum through that bijection, the left factor is read at (r, k) and the right one at (k, c). -/

/-- A 5000-by-10 block times a 10-by-32 matrix, at (r, c): the sum over the ten shared coordinates. -/
theorem mm0_apply (x : FVec Ideal S5000x10 .bf16) (w : FVec Ideal S10x32 .bf16) (r : Fin 5000) (c : Fin 32) :
    matmul dot_S5000x10_S10x32_S5000x32_1_0_0_1_n_n none x w (constant (F := Ideal) S5000x32 .f32 0x00000000#32) (ix2 r c)
      = ∑ k : Fin 10, x (ix2 r k) * w (ix2 k c) := by
  refine (Ideal.matmul_constant_zero_apply dot_S5000x10_S10x32_S5000x32_1_0_0_1_n_n none x w (ix2 r c)).trans ?_
  refine (Equiv.sum_comp (contrEquiv1 dot_S5000x10_S10x32_S5000x32_1_0_0_1_n_n 10 rfl rfl).symm _).symm.trans ?_
  refine Finset.sum_congr rfl fun k _ => ?_
  have hl : dot_S5000x10_S10x32_S5000x32_1_0_0_1_n_n.lhsIdx (ix2 r c) ((contrEquiv1 dot_S5000x10_S10x32_S5000x32_1_0_0_1_n_n 10 rfl rfl).symm k) = ix2 r k := by
    funext a
    apply Fin.ext
    match a with
    | ⟨0, _⟩ => rfl
    | ⟨1, _⟩ =>
      exact (DotDims.lhsIdx_val_of_single _ (cl := (1 : Fin 2)) rfl _ _).trans
        (contrEquiv1_symm_val dot_S5000x10_S10x32_S5000x32_1_0_0_1_n_n 10 rfl rfl k)
  have hr : dot_S5000x10_S10x32_S5000x32_1_0_0_1_n_n.rhsIdx (ix2 r c) ((contrEquiv1 dot_S5000x10_S10x32_S5000x32_1_0_0_1_n_n 10 rfl rfl).symm k) = ix2 k c := by
    funext a
    apply Fin.ext
    match a with
    | ⟨0, _⟩ =>
      exact (DotDims.rhsIdx_val_of_single _ (cr := (0 : Fin 2)) rfl _ _).trans
        (contrEquiv1_symm_val dot_S5000x10_S10x32_S5000x32_1_0_0_1_n_n 10 rfl rfl k)
    | ⟨1, _⟩ => rfl
  rw [hl, hr]

/-- A 5000-by-160 block times a 160-by-32 matrix, at (r, c): the sum over the 160 shared coordinates. -/
theorem mm1_apply (x : FVec Ideal S5000x160 .bf16) (w : FVec Ideal S160x32 .bf16) (r : Fin 5000) (c : Fin 32) :
    matmul dot_S5000x160_S160x32_S5000x32_1_0_0_1_n_n none x w (constant (F := Ideal) S5000x32 .f32 0x00000000#32) (ix2 r c)
      = ∑ k : Fin 160, x (ix2 r k) * w (ix2 k c) := by
  refine (Ideal.matmul_constant_zero_apply dot_S5000x160_S160x32_S5000x32_1_0_0_1_n_n none x w (ix2 r c)).trans ?_
  refine (Equiv.sum_comp (contrEquiv1 dot_S5000x160_S160x32_S5000x32_1_0_0_1_n_n 160 rfl rfl).symm _).symm.trans ?_
  refine Finset.sum_congr rfl fun k _ => ?_
  have hl : dot_S5000x160_S160x32_S5000x32_1_0_0_1_n_n.lhsIdx (ix2 r c) ((contrEquiv1 dot_S5000x160_S160x32_S5000x32_1_0_0_1_n_n 160 rfl rfl).symm k) = ix2 r k := by
    funext a
    apply Fin.ext
    match a with
    | ⟨0, _⟩ => rfl
    | ⟨1, _⟩ =>
      exact (DotDims.lhsIdx_val_of_single _ (cl := (1 : Fin 2)) rfl _ _).trans
        (contrEquiv1_symm_val dot_S5000x160_S160x32_S5000x32_1_0_0_1_n_n 160 rfl rfl k)
  have hr : dot_S5000x160_S160x32_S5000x32_1_0_0_1_n_n.rhsIdx (ix2 r c) ((contrEquiv1 dot_S5000x160_S160x32_S5000x32_1_0_0_1_n_n 160 rfl rfl).symm k) = ix2 k c := by
    funext a
    apply Fin.ext
    match a with
    | ⟨0, _⟩ =>
      exact (DotDims.rhsIdx_val_of_single _ (cr := (0 : Fin 2)) rfl _ _).trans
        (contrEquiv1_symm_val dot_S5000x160_S160x32_S5000x32_1_0_0_1_n_n 160 rfl rfl k)
    | ⟨1, _⟩ => rfl
  rw [hl, hr]

/-- A 5000-by-32 block times a 32-by-1 column, at (r, c): the sum over the 32 shared coordinates. -/
theorem mm3_apply (x : FVec Ideal S5000x32 .bf16) (w : FVec Ideal S32x1 .bf16) (r : Fin 5000) (c : Fin 1) :
    matmul dot_S5000x32_S32x1_S5000x1_1_0_0_1_n_n none x w (constant (F := Ideal) S5000x1 .f32 0x00000000#32) (ix2 r c)
      = ∑ k : Fin 32, x (ix2 r k) * w (ix2 k c) := by
  refine (Ideal.matmul_constant_zero_apply dot_S5000x32_S32x1_S5000x1_1_0_0_1_n_n none x w (ix2 r c)).trans ?_
  refine (Equiv.sum_comp (contrEquiv1 dot_S5000x32_S32x1_S5000x1_1_0_0_1_n_n 32 rfl rfl).symm _).symm.trans ?_
  refine Finset.sum_congr rfl fun k _ => ?_
  have hl : dot_S5000x32_S32x1_S5000x1_1_0_0_1_n_n.lhsIdx (ix2 r c) ((contrEquiv1 dot_S5000x32_S32x1_S5000x1_1_0_0_1_n_n 32 rfl rfl).symm k) = ix2 r k := by
    funext a
    apply Fin.ext
    match a with
    | ⟨0, _⟩ => rfl
    | ⟨1, _⟩ =>
      exact (DotDims.lhsIdx_val_of_single _ (cl := (1 : Fin 2)) rfl _ _).trans
        (contrEquiv1_symm_val dot_S5000x32_S32x1_S5000x1_1_0_0_1_n_n 32 rfl rfl k)
  have hr : dot_S5000x32_S32x1_S5000x1_1_0_0_1_n_n.rhsIdx (ix2 r c) ((contrEquiv1 dot_S5000x32_S32x1_S5000x1_1_0_0_1_n_n 32 rfl rfl).symm k) = ix2 k c := by
    funext a
    apply Fin.ext
    match a with
    | ⟨0, _⟩ =>
      exact (DotDims.rhsIdx_val_of_single _ (cr := (0 : Fin 2)) rfl _ _).trans
        (contrEquiv1_symm_val dot_S5000x32_S32x1_S5000x1_1_0_0_1_n_n 32 rfl rfl k)
    | ⟨1, _⟩ => rfl
  rw [hl, hr]

/-! ## The bias row laid along every row -/

/-- A 32-entry row viewed as a 1-by-32 matrix and repeated down 5000 rows reads, at (r, c), its entry c. -/
theorem bias32_apply (b : Vec Ideal S32 .f32) (r : Fin 5000) (c : Fin 32) :
    broadcastTo S5000x32 (shapeCast S1x32 b Gen.shapeCasts_S32_S1x32) Gen.broadcasts_S1x32_S5000x32 (ix2 r c) = b (ix1 c) :=
  (broadcastTo_1b_ab_apply _ Gen.broadcasts_S1x32_S5000x32 r c).trans
    (shapeCast_a_1a_apply b Gen.shapeCasts_S32_S1x32 (0 : Fin 1) c)

/-- A one-entry row viewed as a 1-by-1 matrix and repeated down 5000 rows reads, at (r, c), that entry. -/
theorem bias1_apply (b : Vec Ideal S1 .f32) (r : Fin 5000) (c : Fin 1) :
    broadcastTo S5000x1 (shapeCast S1x1 b Gen.shapeCasts_S1_S1x1) Gen.broadcasts_S1x1_S5000x1 (ix2 r c) = b (ix1 c) :=
  (broadcastTo_1b_ab_apply _ Gen.broadcasts_S1x1_S5000x1 r c).trans
    (shapeCast_a_1a_apply b Gen.shapeCasts_S1_S1x1 (0 : Fin 1) c)

/-! ## The four bodies at an entry -/

/-- Entry (r, c) of the first layer's block: the rectified row-by-column sum plus bias. The casts to the
    same shape and the changes of float format are the identity on extended reals, the comparison against the
    zero splat and the product with the splat of the slope constant read entry by entry. -/
theorem pay0_apply (x : Vec Ideal S5000x10 .f32) (w : Vec Ideal S10x32 .f32) (b : Vec Ideal S32 .f32)
    (r : Fin 5000) (c : Fin 32) :
    Gen.k0_pay1 (F := Ideal) x w b (ix2 r c) = Cert.Spec.lrelu (Cert.Spec.affineAt x w b r c) := by
  have hpre : addf (matmul dot_S5000x10_S10x32_S5000x32_1_0_0_1_n_n none
        (truncf .bf16 (shapeCast S5000x10 x Gen.shapeCasts_S5000x10_S5000x10) Gen.bitsLt_bf16_f32)
        (truncf .bf16 w Gen.bitsLt_bf16_f32) (constant (F := Ideal) S5000x32 .f32 0x00000000#32))
      (broadcastTo S5000x32 (shapeCast S1x32 b Gen.shapeCasts_S32_S1x32) Gen.broadcasts_S1x32_S5000x32) (ix2 r c)
      = Cert.Spec.affineAt x w b r c := by
    rw [shapeCast_self]
    refine (addf_apply _ _ _).trans ?_
    rw [mm0_apply, bias32_apply]
    rfl
  unfold Gen.k0_pay1
  refine (select_apply _ _ _ _).trans ?_
  rw [cmpf_apply, mulf_apply, broadcast_apply, broadcast_apply, hpre]
  rfl

/-- Entry (r, c) of the wide layer's block: the rectified row-by-column sum plus bias. The casts to the
    same shape and the changes of float format are the identity on extended reals, the comparison against the
    zero splat and the product with the splat of the slope constant read entry by entry. -/
theorem pay1_apply (x : Vec Ideal S5000x160 .f32) (w : Vec Ideal S160x32 .f32) (b : Vec Ideal S32 .f32)
    (r : Fin 5000) (c : Fin 32) :
    Gen.k1_pay1 (F := Ideal) x w b (ix2 r c) = Cert.Spec.lrelu (Cert.Spec.affineAt x w b r c) := by
  have hpre : addf (matmul dot_S5000x160_S160x32_S5000x32_1_0_0_1_n_n none
        (truncf .bf16 (shapeCast S5000x160 x Gen.shapeCasts_S5000x160_S5000x160) Gen.bitsLt_bf16_f32)
        (truncf .bf16 (shapeCast S160x32 w Gen.shapeCasts_S160x32_S160x32) Gen.bitsLt_bf16_f32) (constant (F := Ideal) S5000x32 .f32 0x00000000#32))
      (broadcastTo S5000x32 (shapeCast S1x32 (shapeCast S32 b Gen.shapeCasts_S32_S32) Gen.shapeCasts_S32_S1x32) Gen.broadcasts_S1x32_S5000x32) (ix2 r c)
      = Cert.Spec.affineAt x w b r c := by
    rw [shapeCast_self, shapeCast_self, shapeCast_self]
    refine (addf_apply _ _ _).trans ?_
    rw [mm1_apply, bias32_apply]
    rfl
  unfold Gen.k1_pay1
  refine (select_apply _ _ _ _).trans ?_
  rw [cmpf_apply, mulf_apply, broadcast_apply, broadcast_apply, hpre]
  rfl

/-- Entry (r, c) of the wide layer's block: the rectified row-by-column sum plus bias. The casts to the
    same shape and the changes of float format are the identity on extended reals, the comparison against the
    zero splat and the product with the splat of the slope constant read entry by entry. -/
theorem pay2_apply (x : Vec Ideal S5000x160 .f32) (w : Vec Ideal S160x32 .f32) (b : Vec Ideal S32 .f32)
    (r : Fin 5000) (c : Fin 32) :
    Gen.k2_pay1 (F := Ideal) x w b (ix2 r c) = Cert.Spec.lrelu (Cert.Spec.affineAt x w b r c) := by
  have hpre : addf (matmul dot_S5000x160_S160x32_S5000x32_1_0_0_1_n_n none
        (truncf .bf16 (shapeCast S5000x160 x Gen.shapeCasts_S5000x160_S5000x160) Gen.bitsLt_bf16_f32)
        (truncf .bf16 (shapeCast S160x32 w Gen.shapeCasts_S160x32_S160x32) Gen.bitsLt_bf16_f32) (constant (F := Ideal) S5000x32 .f32 0x00000000#32))
      (broadcastTo S5000x32 (shapeCast S1x32 (shapeCast S32 b Gen.shapeCasts_S32_S32) Gen.shapeCasts_S32_S1x32) Gen.broadcasts_S1x32_S5000x32) (ix2 r c)
      = Cert.Spec.affineAt x w b r c := by
    rw [shapeCast_self, shapeCast_self, shapeCast_self]
    refine (addf_apply _ _ _).trans ?_
    rw [mm1_apply, bias32_apply]
    rfl
  unfold Gen.k2_pay1
  refine (select_apply _ _ _ _).trans ?_
  rw [cmpf_apply, mulf_apply, broadcast_apply, broadcast_apply, hpre]
  rfl

/-- Entry (r, c) of the last layer's block: the row-by-column sum plus the one bias entry, with no activation. -/
theorem pay3_apply (x : Vec Ideal S5000x32 .f32) (w : Vec Ideal S32x1 .f32) (b : Vec Ideal S1 .f32)
    (r : Fin 5000) (c : Fin 1) :
    Gen.k3_pay1 (F := Ideal) x w b (ix2 r c) = Cert.Spec.affineAt x w b r c := by
  unfold Gen.k3_pay1
  rw [shapeCast_self]
  refine (addf_apply _ _ _).trans ?_
  rw [mm3_apply, bias1_apply]
  rfl

end Cert.KernelIdeal.RegVal

end
-- ==== Proof.KI.Val0.lean ====
/-
  What the first dense layer's region leaves in its result array.

  The region walks a grid of 20 points. Point t brings in rows 5000 t .. 5000 t + 4999 of the feature matrix
  (every point), the whole weight matrix and the whole bias row (first point only; they stay resident), applies
  the layer to the block and writes the 5000 result rows back to the same row range of the result array. So row n
  of the result is written by point n / 5000, from row n of the feature matrix: the array ends holding the dense
  layer with the leaky rectifier, as one function of the three arrays the region found.
-/
import proofs.«179590_j19610820673795_1_alg».proof.Proof.KI.Reg0
import proofs.«179590_j19610820673795_1_alg».proof.Proof.KI.Pay
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2_0 : (![0, 0] : Fin 2 → Nat) = fun _ => 0 := funext fun a => by fin_cases a <;> rfl
theorem zeros1_0 : (![0] : Fin 1 → Nat) = fun _ => 0 := funext fun a => by fin_cases a <;> rfl

/-- The block indices of the four windows at a grid point: the feature and result windows are at row block t,
    column block 0; the weight and bias windows stay at block 0. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry y of the feature block at point t is the feature matrix at row 5000 t + y₀, column y₁. -/
theorem featBlk0 (c : Dev nD) (t : Fin cfg0.N) (y : S5000x10.Idx) (i : S100000x10.Idx)
    (h0 : (i 0).val = t.val * 5000 + (y 0).val) (h1 : (i 1).val = (y 1).val) :
    Hand.iblk0 V c 0 t y = (V c main_v29 : S100000x10.Idx → EReal) i := by
  obtain ⟨e0, e1, -⟩ := blockIdx0 t
  unfold Hand.iblk0
  rw [View.read_apply]
  show V c main_v29 _ = V c main_v29 _
  refine congrArg (V c main_v29) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 10 + 1 * (y 1).val = (i 1).val; rw [e1, h1]; omega

/-- The weight block at any point is the whole weight matrix. -/
theorem wgtBlk0 (c : Dev nD) (t : Fin cfg0.N) (y : S10x32.Idx) :
    Hand.iblk0 V c 1 t y = (V c main_arg5 : S10x32.Idx → EReal) y := by
  obtain ⟨-, -, e0, e1, -⟩ := blockIdx0 t
  unfold Hand.iblk0
  rw [View.read_apply]
  show V c main_arg5 _ = V c main_arg5 _
  refine congrArg (V c main_arg5) (funext fun a => Fin.ext ?_)
  match a with
  | ⟨0, _⟩ => show win0_1.index t (0 : Fin 2) * 10 + 1 * (y 0).val = (y 0).val; rw [e0]; omega
  | ⟨1, _⟩ => show win0_1.index t (1 : Fin 2) * 32 + 1 * (y 1).val = (y 1).val; rw [e1]; omega

/-- The bias block at any point is the whole bias row. -/
theorem biasBlk0 (c : Dev nD) (t : Fin cfg0.N) (y : S32.Idx) :
    Hand.iblk0 V c 2 t y = (V c main_arg6 : S32.Idx → EReal) y := by
  obtain ⟨-, -, -, -, e0, -⟩ := blockIdx0 t
  unfold Hand.iblk0
  rw [View.read_apply]
  show V c main_arg6 _ = V c main_arg6 _
  refine congrArg (V c main_arg6) (funext fun a => Fin.ext ?_)
  match a with
  | ⟨0, _⟩ => show win0_2.index t (0 : Fin 1) * 32 + 1 * (y 0).val = (y 0).val; rw [e0]; omega

/-- The layer applied to the blocks at point t, at entry (r, q), is the layer applied to the whole arrays at
    row 5000 t + r: the sum runs over the same 10 products, the bias entry is the same. -/
theorem layerBlk0 (c : Dev nD) (t : Fin cfg0.N) (r : Fin 5000) (q : Fin 32) (n : Fin 100000)
    (hn : n.val = t.val * 5000 + r.val) :
    Cert.Spec.affineAt (Hand.iblk0 V c 0 t) (Hand.iblk0 V c 1 t) (Hand.iblk0 V c 2 t) r q
      = Cert.Spec.affineAt (V c main_v29 : S100000x10.Idx → EReal) (V c main_arg5 : S10x32.Idx → EReal)
          (V c main_arg6 : S32.Idx → EReal) n q := by
  unfold Cert.Spec.affineAt
  refine congrArg₂ (· + ·) (Finset.sum_congr rfl fun k _ => ?_) (biasBlk0 V c t (ix1 q))
  exact congrArg₂ (· * ·) (featBlk0 V c t (ix2 r k) (ix2 n k) hn rfl) (wgtBlk0 V c t (ix2 k q))

/-- What point t writes back is block t of the dense layer of the whole arrays. -/
theorem flushed_eq0 (c : Dev nD) (t : Fin cfg0.N) :
    (Hand.dat0 V c).flushed 3 t = ((cfg0.win 3).blk t).view.read (Elt Ideal)
      (Cert.Spec.denseAct (V c main_v29 : S100000x10.Idx → EReal) (V c main_arg5 : S10x32.Idx → EReal)
        (V c main_arg6 : S32.Idx → EReal)) := by
  show (cfg0.win 3).cut (grid0.coords t) ((Hand.dat0 V c).after 3 t) = _
  rw [Hand.after0_3]
  unfold Hand.out0_3
  rw [View.canon_unit_zero zeros2_0]
  simp only [View.ld_unit_zero (S := S5000x10) zeros2_0, View.ld_unit_zero (S := S10x32) zeros2_0,
    View.ld_unit_zero (S := S32) zeros1_0]
  obtain ⟨-, -, -, -, -, e0, e1⟩ := blockIdx0 t
  funext j
  obtain ⟨r, q, rfl⟩ : ∃ (r : Fin 5000) (q : Fin 32), j = ix2 r q := ⟨j 0, j 1, eq_ix2 j⟩
  show k0_pay1 (Hand.iblk0 V c 0 t) (Hand.iblk0 V c 1 t) (Hand.iblk0 V c 2 t) (ix2 r q)
    = Cert.Spec.denseAct (V c main_v29 : S100000x10.Idx → EReal) (V c main_arg5 : S10x32.Idx → EReal)
        (V c main_arg6 : S32.Idx → EReal) (((cfg0.win 3).blk t).view.emb (ix2 r q))
  refine (pay0_apply (Hand.iblk0 V c 0 t) (Hand.iblk0 V c 1 t) (Hand.iblk0 V c 2 t) r q).trans ?_
  unfold Cert.Spec.denseAct
  have hrow : ((((cfg0.win 3).blk t).view.emb (ix2 r q)) 0).val = t.val * 5000 + r.val := by
    show win0_3.index t (0 : Fin 2) * 5000 + 1 * r.val = _; rw [e0]; omega
  have hcol : (((cfg0.win 3).blk t).view.emb (ix2 r q)) 1 = q := Fin.ext (by
    show win0_3.index t (1 : Fin 2) * 32 + 1 * q.val = q.val; rw [e1]; omega)
  rw [hcol]
  exact congrArg Cert.Spec.lrelu (layerBlk0 V c t r q _ hrow)

/-- An index of the result array is in point t's block iff each coordinate is in the block's range. -/
theorem mem_blk0 (t : Fin cfg0.N) (i : S100000x32.Idx) :
    i ∈ ((cfg0.win 3).blk t).view.set ↔ ∀ a : Fin 2, win0_3.index t a * S5000x32.size a ≤ (i a).val
      ∧ (i a).val < win0_3.index t a * S5000x32.size a + S5000x32.size a := by
  show i ∈ ((View.whole main_v30).slice (win0_3.rect t)).set ↔ _
  rw [View.set_slice_whole, Rect.mem_set_unit]
  exact Iff.rfl

/-- Row n of the result array lies in the block of point n / 5000. -/
theorem cover0 (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 20 := N_0
  let t : Fin cfg0.N := ⟨(i 0).val / 5000, by rw [hN]; omega⟩
  obtain ⟨-, -, -, -, -, e0, e1⟩ := blockIdx0 t
  have ht : t.val = (i 0).val / 5000 := rfl
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 32 ≤ (i 1).val ∧ (i 1).val < win0_3.index t (1 : Fin 2) * 32 + 32
    rw [e1]; omega

/-- The result array after the region: the dense layer with the leaky rectifier of the feature matrix, the weight
    matrix and the bias row as the region found them. -/
theorem final0 (c : Dev nD) :
    (Hand.dat0 (F := Ideal) V c).arrAt 3 cfg0.N
      = Cert.Spec.denseAct (V c main_v29 : S100000x10.Idx → EReal) (V c main_arg5 : S10x32.Idx → EReal)
          (V c main_arg6 : S32.Idx → EReal) :=
  (Hand.dat0 V c).arrAt_eq_of_cover 3 _ (fun t _ => flushed_eq0 V c t) cover0

end Cert.KernelIdeal.RegVal

end
-- ==== Proof.KI.Val1.lean ====
/-
  What the first tap layer's region leaves in its result array.

  The region walks a grid of 20 points. Point t brings in rows 5000 t .. 5000 t + 4999 of the wide feature matrix (five 32-column matrices side by side)
  (every point), the whole weight matrix and the whole bias row (first point only; they stay resident), applies
  the layer to the block and writes the 5000 result rows back to the same row range of the result array. So row n
  of the result is written by point n / 5000, from row n of the wide feature matrix (five 32-column matrices side by side): the array ends holding the dense
  layer with the leaky rectifier, as one function of the three arrays the region found.
-/
import proofs.«179590_j19610820673795_1_alg».proof.Proof.KI.Reg1
import proofs.«179590_j19610820673795_1_alg».proof.Proof.KI.Pay
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2_1 : (![0, 0] : Fin 2 → Nat) = fun _ => 0 := funext fun a => by fin_cases a <;> rfl
theorem zeros1_1 : (![0] : Fin 1 → Nat) = fun _ => 0 := funext fun a => by fin_cases a <;> rfl

/-- The block indices of the four windows at a grid point: the feature and result windows are at row block t,
    column block 0; the weight and bias windows stay at block 0. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Entry y of the feature block at point t is the feature matrix at row 5000 t + y₀, column y₁. -/
theorem featBlk1 (c : Dev nD) (t : Fin cfg1.N) (y : S5000x160.Idx) (i : S100000x160.Idx)
    (h0 : (i 0).val = t.val * 5000 + (y 0).val) (h1 : (i 1).val = (y 1).val) :
    Hand.iblk1 V c 0 t y = (V c main_v83 : S100000x160.Idx → EReal) i := by
  obtain ⟨e0, e1, -⟩ := blockIdx1 t
  unfold Hand.iblk1
  rw [View.read_apply]
  show V c main_v83 _ = V c main_v83 _
  refine congrArg (V c main_v83) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 160 + 1 * (y 1).val = (i 1).val; rw [e1, h1]; omega

/-- The weight block at any point is the whole weight matrix. -/
theorem wgtBlk1 (c : Dev nD) (t : Fin cfg1.N) (y : S160x32.Idx) :
    Hand.iblk1 V c 1 t y = (V c main_v86 : S160x32.Idx → EReal) y := by
  obtain ⟨-, -, e0, e1, -⟩ := blockIdx1 t
  unfold Hand.iblk1
  rw [View.read_apply]
  show V c main_v86 _ = V c main_v86 _
  refine congrArg (V c main_v86) (funext fun a => Fin.ext ?_)
  match a with
  | ⟨0, _⟩ => show win1_1.index t (0 : Fin 2) * 160 + 1 * (y 0).val = (y 0).val; rw [e0]; omega
  | ⟨1, _⟩ => show win1_1.index t (1 : Fin 2) * 32 + 1 * (y 1).val = (y 1).val; rw [e1]; omega

/-- The bias block at any point is the whole bias row. -/
theorem biasBlk1 (c : Dev nD) (t : Fin cfg1.N) (y : S32.Idx) :
    Hand.iblk1 V c 2 t y = (V c main_v88 : S32.Idx → EReal) y := by
  obtain ⟨-, -, -, -, e0, -⟩ := blockIdx1 t
  unfold Hand.iblk1
  rw [View.read_apply]
  show V c main_v88 _ = V c main_v88 _
  refine congrArg (V c main_v88) (funext fun a => Fin.ext ?_)
  match a with
  | ⟨0, _⟩ => show win1_2.index t (0 : Fin 1) * 32 + 1 * (y 0).val = (y 0).val; rw [e0]; omega

/-- The layer applied to the blocks at point t, at entry (r, q), is the layer applied to the whole arrays at
    row 5000 t + r: the sum runs over the same 160 products, the bias entry is the same. -/
theorem layerBlk1 (c : Dev nD) (t : Fin cfg1.N) (r : Fin 5000) (q : Fin 32) (n : Fin 100000)
    (hn : n.val = t.val * 5000 + r.val) :
    Cert.Spec.affineAt (Hand.iblk1 V c 0 t) (Hand.iblk1 V c 1 t) (Hand.iblk1 V c 2 t) r q
      = Cert.Spec.affineAt (V c main_v83 : S100000x160.Idx → EReal) (V c main_v86 : S160x32.Idx → EReal)
          (V c main_v88 : S32.Idx → EReal) n q := by
  unfold Cert.Spec.affineAt
  refine congrArg₂ (· + ·) (Finset.sum_congr rfl fun k _ => ?_) (biasBlk1 V c t (ix1 q))
  exact congrArg₂ (· * ·) (featBlk1 V c t (ix2 r k) (ix2 n k) hn rfl) (wgtBlk1 V c t (ix2 k q))

/-- What point t writes back is block t of the dense layer of the whole arrays. -/
theorem flushed_eq1 (c : Dev nD) (t : Fin cfg1.N) :
    (Hand.dat1 V c).flushed 3 t = ((cfg1.win 3).blk t).view.read (Elt Ideal)
      (Cert.Spec.denseAct (V c main_v83 : S100000x160.Idx → EReal) (V c main_v86 : S160x32.Idx → EReal)
        (V c main_v88 : S32.Idx → EReal)) := by
  show (cfg1.win 3).cut (grid1.coords t) ((Hand.dat1 V c).after 3 t) = _
  rw [Hand.after1_3]
  unfold Hand.out1_3
  rw [View.canon_unit_zero zeros2_1]
  simp only [View.ld_unit_zero (S := S5000x160) zeros2_1, View.ld_unit_zero (S := S160x32) zeros2_1,
    View.ld_unit_zero (S := S32) zeros1_1]
  obtain ⟨-, -, -, -, -, e0, e1⟩ := blockIdx1 t
  funext j
  obtain ⟨r, q, rfl⟩ : ∃ (r : Fin 5000) (q : Fin 32), j = ix2 r q := ⟨j 0, j 1, eq_ix2 j⟩
  show k1_pay1 (Hand.iblk1 V c 0 t) (Hand.iblk1 V c 1 t) (Hand.iblk1 V c 2 t) (ix2 r q)
    = Cert.Spec.denseAct (V c main_v83 : S100000x160.Idx → EReal) (V c main_v86 : S160x32.Idx → EReal)
        (V c main_v88 : S32.Idx → EReal) (((cfg1.win 3).blk t).view.emb (ix2 r q))
  refine (pay1_apply (Hand.iblk1 V c 0 t) (Hand.iblk1 V c 1 t) (Hand.iblk1 V c 2 t) r q).trans ?_
  unfold Cert.Spec.denseAct
  have hrow : ((((cfg1.win 3).blk t).view.emb (ix2 r q)) 0).val = t.val * 5000 + r.val := by
    show win1_3.index t (0 : Fin 2) * 5000 + 1 * r.val = _; rw [e0]; omega
  have hcol : (((cfg1.win 3).blk t).view.emb (ix2 r q)) 1 = q := Fin.ext (by
    show win1_3.index t (1 : Fin 2) * 32 + 1 * q.val = q.val; rw [e1]; omega)
  rw [hcol]
  exact congrArg Cert.Spec.lrelu (layerBlk1 V c t r q _ hrow)

/-- An index of the result array is in point t's block iff each coordinate is in the block's range. -/
theorem mem_blk1 (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v89).slice (win1_3.rect t)).set ↔ _
  rw [View.set_slice_whole, Rect.mem_set_unit]
  exact Iff.rfl

/-- Row n of the result array lies in the block of point n / 5000. -/
theorem cover1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨-, -, -, -, -, e0, e1⟩ := blockIdx1 t
  have ht : t.val = (i 0).val / 5000 := rfl
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 32 ≤ (i 1).val ∧ (i 1).val < win1_3.index t (1 : Fin 2) * 32 + 32
    rw [e1]; omega

/-- The result array after the region: the dense layer with the leaky rectifier of the wide feature matrix, the weight
    matrix and the bias row as the region found them. -/
theorem final1 (c : Dev nD) :
    (Hand.dat1 (F := Ideal) V c).arrAt 3 cfg1.N
      = Cert.Spec.denseAct (V c main_v83 : S100000x160.Idx → EReal) (V c main_v86 : S160x32.Idx → EReal)
          (V c main_v88 : S32.Idx → EReal) :=
  (Hand.dat1 V c).arrAt_eq_of_cover 3 _ (fun t _ => flushed_eq1 V c t) cover1

end Cert.KernelIdeal.RegVal

end
-- ==== Proof.KI.Val2.lean ====
/-
  What the second tap layer's region leaves in its result array.

  The region walks a grid of 20 points. Point t brings in rows 5000 t .. 5000 t + 4999 of the wide feature matrix (five 32-column matrices side by side)
  (every point), the whole weight matrix and the whole bias row (first point only; they stay resident), applies
  the layer to the block and writes the 5000 result rows back to the same row range of the result array. So row n
  of the result is written by point n / 5000, from row n of the wide feature matrix (five 32-column matrices side by side): the array ends holding the dense
  layer with the leaky rectifier, as one function of the three arrays the region found.
-/
import proofs.«179590_j19610820673795_1_alg».proof.Proof.KI.Reg2
import proofs.«179590_j19610820673795_1_alg».proof.Proof.KI.Pay
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2_2 : (![0, 0] : Fin 2 → Nat) = fun _ => 0 := funext fun a => by fin_cases a <;> rfl
theorem zeros1_2 : (![0] : Fin 1 → Nat) = fun _ => 0 := funext fun a => by fin_cases a <;> rfl

/-- The block indices of the four windows at a grid point: the feature and result windows are at row block t,
    column block 0; the weight and bias windows stay at block 0. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Entry y of the feature block at point t is the feature matrix at row 5000 t + y₀, column y₁. -/
theorem featBlk2 (c : Dev nD) (t : Fin cfg2.N) (y : S5000x160.Idx) (i : S100000x160.Idx)
    (h0 : (i 0).val = t.val * 5000 + (y 0).val) (h1 : (i 1).val = (y 1).val) :
    Hand.iblk2 V c 0 t y = (V c main_v142 : S100000x160.Idx → EReal) i := by
  obtain ⟨e0, e1, -⟩ := blockIdx2 t
  unfold Hand.iblk2
  rw [View.read_apply]
  show V c main_v142 _ = V c main_v142 _
  refine congrArg (V c main_v142) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 160 + 1 * (y 1).val = (i 1).val; rw [e1, h1]; omega

/-- The weight block at any point is the whole weight matrix. -/
theorem wgtBlk2 (c : Dev nD) (t : Fin cfg2.N) (y : S160x32.Idx) :
    Hand.iblk2 V c 1 t y = (V c main_v145 : S160x32.Idx → EReal) y := by
  obtain ⟨-, -, e0, e1, -⟩ := blockIdx2 t
  unfold Hand.iblk2
  rw [View.read_apply]
  show V c main_v145 _ = V c main_v145 _
  refine congrArg (V c main_v145) (funext fun a => Fin.ext ?_)
  match a with
  | ⟨0, _⟩ => show win2_1.index t (0 : Fin 2) * 160 + 1 * (y 0).val = (y 0).val; rw [e0]; omega
  | ⟨1, _⟩ => show win2_1.index t (1 : Fin 2) * 32 + 1 * (y 1).val = (y 1).val; rw [e1]; omega

/-- The bias block at any point is the whole bias row. -/
theorem biasBlk2 (c : Dev nD) (t : Fin cfg2.N) (y : S32.Idx) :
    Hand.iblk2 V c 2 t y = (V c main_v147 : S32.Idx → EReal) y := by
  obtain ⟨-, -, -, -, e0, -⟩ := blockIdx2 t
  unfold Hand.iblk2
  rw [View.read_apply]
  show V c main_v147 _ = V c main_v147 _
  refine congrArg (V c main_v147) (funext fun a => Fin.ext ?_)
  match a with
  | ⟨0, _⟩ => show win2_2.index t (0 : Fin 1) * 32 + 1 * (y 0).val = (y 0).val; rw [e0]; omega

/-- The layer applied to the blocks at point t, at entry (r, q), is the layer applied to the whole arrays at
    row 5000 t + r: the sum runs over the same 160 products, the bias entry is the same. -/
theorem layerBlk2 (c : Dev nD) (t : Fin cfg2.N) (r : Fin 5000) (q : Fin 32) (n : Fin 100000)
    (hn : n.val = t.val * 5000 + r.val) :
    Cert.Spec.affineAt (Hand.iblk2 V c 0 t) (Hand.iblk2 V c 1 t) (Hand.iblk2 V c 2 t) r q
      = Cert.Spec.affineAt (V c main_v142 : S100000x160.Idx → EReal) (V c main_v145 : S160x32.Idx → EReal)
          (V c main_v147 : S32.Idx → EReal) n q := by
  unfold Cert.Spec.affineAt
  refine congrArg₂ (· + ·) (Finset.sum_congr rfl fun k _ => ?_) (biasBlk2 V c t (ix1 q))
  exact congrArg₂ (· * ·) (featBlk2 V c t (ix2 r k) (ix2 n k) hn rfl) (wgtBlk2 V c t (ix2 k q))

/-- What point t writes back is block t of the dense layer of the whole arrays. -/
theorem flushed_eq2 (c : Dev nD) (t : Fin cfg2.N) :
    (Hand.dat2 V c).flushed 3 t = ((cfg2.win 3).blk t).view.read (Elt Ideal)
      (Cert.Spec.denseAct (V c main_v142 : S100000x160.Idx → EReal) (V c main_v145 : S160x32.Idx → EReal)
        (V c main_v147 : S32.Idx → EReal)) := by
  show (cfg2.win 3).cut (grid2.coords t) ((Hand.dat2 V c).after 3 t) = _
  rw [Hand.after2_3]
  unfold Hand.out2_3
  rw [View.canon_unit_zero zeros2_2]
  simp only [View.ld_unit_zero (S := S5000x160) zeros2_2, View.ld_unit_zero (S := S160x32) zeros2_2,
    View.ld_unit_zero (S := S32) zeros1_2]
  obtain ⟨-, -, -, -, -, e0, e1⟩ := blockIdx2 t
  funext j
  obtain ⟨r, q, rfl⟩ : ∃ (r : Fin 5000) (q : Fin 32), j = ix2 r q := ⟨j 0, j 1, eq_ix2 j⟩
  show k2_pay1 (Hand.iblk2 V c 0 t) (Hand.iblk2 V c 1 t) (Hand.iblk2 V c 2 t) (ix2 r q)
    = Cert.Spec.denseAct (V c main_v142 : S100000x160.Idx → EReal) (V c main_v145 : S160x32.Idx → EReal)
        (V c main_v147 : S32.Idx → EReal) (((cfg2.win 3).blk t).view.emb (ix2 r q))
  refine (pay2_apply (Hand.iblk2 V c 0 t) (Hand.iblk2 V c 1 t) (Hand.iblk2 V c 2 t) r q).trans ?_
  unfold Cert.Spec.denseAct
  have hrow : ((((cfg2.win 3).blk t).view.emb (ix2 r q)) 0).val = t.val * 5000 + r.val := by
    show win2_3.index t (0 : Fin 2) * 5000 + 1 * r.val = _; rw [e0]; omega
  have hcol : (((cfg2.win 3).blk t).view.emb (ix2 r q)) 1 = q := Fin.ext (by
    show win2_3.index t (1 : Fin 2) * 32 + 1 * q.val = q.val; rw [e1]; omega)
  rw [hcol]
  exact congrArg Cert.Spec.lrelu (layerBlk2 V c t r q _ hrow)

/-- An index of the result array is in point t's block iff each coordinate is in the block's range. -/
theorem mem_blk2 (t : Fin cfg2.N) (i : S100000x32.Idx) :
    i ∈ ((cfg2.win 3).blk t).view.set ↔ ∀ a : Fin 2, win2_3.index t a * S5000x32.size a ≤ (i a).val
      ∧ (i a).val < win2_3.index t a * S5000x32.size a + S5000x32.size a := by
  show i ∈ ((View.whole main_v148).slice (win2_3.rect t)).set ↔ _
  rw [View.set_slice_whole, Rect.mem_set_unit]
  exact Iff.rfl

/-- Row n of the result array lies in the block of point n / 5000. -/
theorem cover2 (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have hN : cfg2.N = 20 := N_2
  let t : Fin cfg2.N := ⟨(i 0).val / 5000, by rw [hN]; omega⟩
  obtain ⟨-, -, -, -, -, e0, e1⟩ := blockIdx2 t
  have ht : t.val = (i 0).val / 5000 := rfl
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 32 ≤ (i 1).val ∧ (i 1).val < win2_3.index t (1 : Fin 2) * 32 + 32
    rw [e1]; omega

/-- The result array after the region: the dense layer with the leaky rectifier of the wide feature matrix, the weight
    matrix and the bias row as the region found them. -/
theorem final2 (c : Dev nD) :
    (Hand.dat2 (F := Ideal) V c).arrAt 3 cfg2.N
      = Cert.Spec.denseAct (V c main_v142 : S100000x160.Idx → EReal) (V c main_v145 : S160x32.Idx → EReal)
          (V c main_v147 : S32.Idx → EReal) :=
  (Hand.dat2 V c).arrAt_eq_of_cover 3 _ (fun t _ => flushed_eq2 V c t) cover2

end Cert.KernelIdeal.RegVal

end
-- ==== Proof.KI.Val3.lean ====
/-
  What the output layer's region leaves in its result array.

  The region walks a grid of 20 points. Point t brings in rows 5000 t .. 5000 t + 4999 of the 32-column feature matrix
  (every point), the whole weight matrix and the whole bias row (first point only; they stay resident), applies
  the layer to the block and writes the 5000 result rows back to the same row range of the result array. So row n
  of the result is written by point n / 5000, from row n of the 32-column feature matrix: the array ends holding the dense
  layer without activation, as one function of the three arrays the region found.
-/
import proofs.«179590_j19610820673795_1_alg».proof.Proof.KI.Reg3
import proofs.«179590_j19610820673795_1_alg».proof.Proof.KI.Pay
import Idealize.ShloMosaic.Lib.Pipeline.Value

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2_3 : (![0, 0] : Fin 2 → Nat) = fun _ => 0 := funext fun a => by fin_cases a <;> rfl
theorem zeros1_3 : (![0] : Fin 1 → Nat) = fun _ => 0 := funext fun a => by fin_cases a <;> rfl

/-- The block indices of the four windows at a grid point: the feature and result windows are at row block t,
    column block 0; the weight and bias windows stay at block 0. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Entry y of the feature block at point t is the feature matrix at row 5000 t + y₀, column y₁. -/
theorem featBlk3 (c : Dev nD) (t : Fin cfg3.N) (y : S5000x32.Idx) (i : S100000x32.Idx)
    (h0 : (i 0).val = t.val * 5000 + (y 0).val) (h1 : (i 1).val = (y 1).val) :
    Hand.iblk3 V c 0 t y = (V c main_v148 : S100000x32.Idx → EReal) i := by
  obtain ⟨e0, e1, -⟩ := blockIdx3 t
  unfold Hand.iblk3
  rw [View.read_apply]
  show V c main_v148 _ = V c main_v148 _
  refine congrArg (V c main_v148) (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 32 + 1 * (y 1).val = (i 1).val; rw [e1, h1]; omega

/-- The weight block at any point is the whole weight matrix. -/
theorem wgtBlk3 (c : Dev nD) (t : Fin cfg3.N) (y : S32x1.Idx) :
    Hand.iblk3 V c 1 t y = (V c main_arg9 : S32x1.Idx → EReal) y := by
  obtain ⟨-, -, e0, e1, -⟩ := blockIdx3 t
  unfold Hand.iblk3
  rw [View.read_apply]
  show V c main_arg9 _ = V c main_arg9 _
  refine congrArg (V c main_arg9) (funext fun a => Fin.ext ?_)
  match a with
  | ⟨0, _⟩ => show win3_1.index t (0 : Fin 2) * 32 + 1 * (y 0).val = (y 0).val; rw [e0]; omega
  | ⟨1, _⟩ => show win3_1.index t (1 : Fin 2) * 1 + 1 * (y 1).val = (y 1).val; rw [e1]; omega

/-- The bias block at any point is the whole bias row. -/
theorem biasBlk3 (c : Dev nD) (t : Fin cfg3.N) (y : S1.Idx) :
    Hand.iblk3 V c 2 t y = (V c main_arg10 : S1.Idx → EReal) y := by
  obtain ⟨-, -, -, -, e0, -⟩ := blockIdx3 t
  unfold Hand.iblk3
  rw [View.read_apply]
  show V c main_arg10 _ = V c main_arg10 _
  refine congrArg (V c main_arg10) (funext fun a => Fin.ext ?_)
  match a with
  | ⟨0, _⟩ => show win3_2.index t (0 : Fin 1) * 1 + 1 * (y 0).val = (y 0).val; rw [e0]; omega

/-- The layer applied to the blocks at point t, at entry (r, q), is the layer applied to the whole arrays at
    row 5000 t + r: the sum runs over the same 32 products, the bias entry is the same. -/
theorem layerBlk3 (c : Dev nD) (t : Fin cfg3.N) (r : Fin 5000) (q : Fin 1) (n : Fin 100000)
    (hn : n.val = t.val * 5000 + r.val) :
    Cert.Spec.affineAt (Hand.iblk3 V c 0 t) (Hand.iblk3 V c 1 t) (Hand.iblk3 V c 2 t) r q
      = Cert.Spec.affineAt (V c main_v148 : S100000x32.Idx → EReal) (V c main_arg9 : S32x1.Idx → EReal)
          (V c main_arg10 : S1.Idx → EReal) n q := by
  unfold Cert.Spec.affineAt
  refine congrArg₂ (· + ·) (Finset.sum_congr rfl fun k _ => ?_) (biasBlk3 V c t (ix1 q))
  exact congrArg₂ (· * ·) (featBlk3 V c t (ix2 r k) (ix2 n k) hn rfl) (wgtBlk3 V c t (ix2 k q))

/-- What point t writes back is block t of the dense layer of the whole arrays. -/
theorem flushed_eq3 (c : Dev nD) (t : Fin cfg3.N) :
    (Hand.dat3 V c).flushed 3 t = ((cfg3.win 3).blk t).view.read (Elt Ideal)
      (Cert.Spec.denseLin (V c main_v148 : S100000x32.Idx → EReal) (V c main_arg9 : S32x1.Idx → EReal)
        (V c main_arg10 : S1.Idx → EReal)) := by
  show (cfg3.win 3).cut (grid3.coords t) ((Hand.dat3 V c).after 3 t) = _
  rw [Hand.after3_3]
  unfold Hand.out3_3
  rw [View.canon_unit_zero zeros2_3]
  simp only [View.ld_unit_zero (S := S5000x32) zeros2_3, View.ld_unit_zero (S := S32x1) zeros2_3,
    View.ld_unit_zero (S := S1) zeros1_3]
  obtain ⟨-, -, -, -, -, e0, e1⟩ := blockIdx3 t
  funext j
  obtain ⟨r, q, rfl⟩ : ∃ (r : Fin 5000) (q : Fin 1), j = ix2 r q := ⟨j 0, j 1, eq_ix2 j⟩
  show k3_pay1 (Hand.iblk3 V c 0 t) (Hand.iblk3 V c 1 t) (Hand.iblk3 V c 2 t) (ix2 r q)
    = Cert.Spec.denseLin (V c main_v148 : S100000x32.Idx → EReal) (V c main_arg9 : S32x1.Idx → EReal)
        (V c main_arg10 : S1.Idx → EReal) (((cfg3.win 3).blk t).view.emb (ix2 r q))
  refine (pay3_apply (Hand.iblk3 V c 0 t) (Hand.iblk3 V c 1 t) (Hand.iblk3 V c 2 t) r q).trans ?_
  unfold Cert.Spec.denseLin
  have hrow : ((((cfg3.win 3).blk t).view.emb (ix2 r q)) 0).val = t.val * 5000 + r.val := by
    show win3_3.index t (0 : Fin 2) * 5000 + 1 * r.val = _; rw [e0]; omega
  have hcol : (((cfg3.win 3).blk t).view.emb (ix2 r q)) 1 = q := Fin.ext (by
    show win3_3.index t (1 : Fin 2) * 1 + 1 * q.val = q.val; rw [e1]; omega)
  rw [hcol]
  exact layerBlk3 V c t r q _ hrow

/-- An index of the result array is in point t's block iff each coordinate is in the block's range. -/
theorem mem_blk3 (t : Fin cfg3.N) (i : S100000x1.Idx) :
    i ∈ ((cfg3.win 3).blk t).view.set ↔ ∀ a : Fin 2, win3_3.index t a * S5000x1.size a ≤ (i a).val
      ∧ (i a).val < win3_3.index t a * S5000x1.size a + S5000x1.size a := by
  show i ∈ ((View.whole main_v149).slice (win3_3.rect t)).set ↔ _
  rw [View.set_slice_whole, Rect.mem_set_unit]
  exact Iff.rfl

/-- Row n of the result array lies in the block of point n / 5000. -/
theorem cover3 (i : S100000x1.Idx) :
    ∃ t : Fin cfg3.N, (cfg3.win 3).flush t = true ∧ i ∈ ((cfg3.win 3).blk t).view.set := by
  have hi0 : (i 0).val < 100000 := (i 0).isLt
  have hi1 : (i 1).val < 1 := (i 1).isLt
  have hN : cfg3.N = 20 := N_3
  let t : Fin cfg3.N := ⟨(i 0).val / 5000, by rw [hN]; omega⟩
  obtain ⟨-, -, -, -, -, e0, e1⟩ := blockIdx3 t
  have ht : t.val = (i 0).val / 5000 := rfl
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    rw [e0, ht]; omega
  | ⟨1, _⟩ =>
    show win3_3.index t (1 : Fin 2) * 1 ≤ (i 1).val ∧ (i 1).val < win3_3.index t (1 : Fin 2) * 1 + 1
    rw [e1]; omega

/-- The result array after the region: the dense layer without activation of the feature matrix, the weight
    matrix and the bias row as the region found them. -/
theorem final3 (c : Dev nD) :
    (Hand.dat3 (F := Ideal) V c).arrAt 3 cfg3.N
      = Cert.Spec.denseLin (V c main_v148 : S100000x32.Idx → EReal) (V c main_arg9 : S32x1.Idx → EReal)
          (V c main_arg10 : S1.Idx → EReal) :=
  (Hand.dat3 V c).arrAt_eq_of_cover 3 _ (fun t _ => flushed_eq3 V c t) cover3

end Cert.KernelIdeal.RegVal

end
-- ==== Proof.KI.ValDef.lean ====
/-
  What the kernel program computes at the ideal instance, as one function of its eleven argument arrays: the graph
  part as the host spells it, each dense region as the dense-layer specification.
-/
import proofs.«179590_j19610820673795_1_alg».proof.Proof.HostDefs
import proofs.«179590_j19610820673795_1_alg».proof.Proof.Spec

noncomputable section

namespace Cert.KernelIdeal.KVal

open Cert.KernelIdeal Cert.KernelIdeal.Facts₀ Idealize.ShloMosaic

local notation "CI" => HV.C (F := Ideal)

/-- One tap layer of the kernel program from its incoming feature matrix: the matrix and its four propagated
    successors side by side, through the dense layer with the stacked weights and the bias row. -/
def layerK (row col : CI S3200000 .i32) (nrm : CI S3200000 .f32) (h : CI S100000x32 .f32)
    (wc : CI S160x32 .f32) (b : CI S32 .f32) : CI S100000x32 .f32 :=
  Cert.Spec.denseAct
    (HV.side5 (F := Ideal) h (HV.prop row col nrm h) (HV.prop row col nrm (HV.prop row col nrm h))
      (HV.prop row col nrm (HV.prop row col nrm (HV.prop row col nrm h)))
      (HV.prop row col nrm (HV.prop row col nrm (HV.prop row col nrm (HV.prop row col nrm h))))) wc b

/-- The edge normalisation from the edge table and the edge weights. -/
def nrmK (a2 : CI S2x3200000 .i32) (a3 : CI S3200000 .f32) : CI S3200000 .f32 :=
  HV.normOf (HV.rowOf a2) (HV.colOf a2) a3 (HV.dinvOf (HV.degOf (HV.colOf a2) a3))

/-- The kernel program's result as a function of its arguments. -/
def kval (a0 : CI S100000x8 .f32) (a1 : CI S100000x2 .f32) (a2 : CI S2x3200000 .i32) (a3 : CI S3200000 .f32)
    (a4 : CI S100000 .i32) (a5 : CI S10x32 .f32) (a6 : CI S32 .f32) (a7 : CI S2x5x32x32 .f32) (a8 : CI S2x32 .f32)
    (a9 : CI S32x1 .f32) (a10 : CI S1 .f32) : CI S100x1 .f32 :=
  HV.tailOf a4
    (Cert.Spec.denseLin
      (layerK (HV.rowOf a2) (HV.colOf a2) (nrmK a2 a3)
        (layerK (HV.rowOf a2) (HV.colOf a2) (nrmK a2 a3) (Cert.Spec.denseAct (HV.xOf a0 a1) a5 a6)
          (HV.wCat ![0, 0, 0, 0] Facts₀.slices_S2x5x32x32_S1x5x32x32_0_0_0_0 a7) (HV.bSlice ![0, 0] Facts₀.slices_S2x32_S1x32_0_0 a8))
        (HV.wCat ![1, 0, 0, 0] Facts₀.slices_S2x5x32x32_S1x5x32x32_1_0_0_0 a7) (HV.bSlice ![1, 0] Facts₀.slices_S2x32_S1x32_1_0 a8))
      a9 a10)

end Cert.KernelIdeal.KVal

end
-- ==== Proof.KI.Value.lean ====
/-
  What the kernel program computes at the ideal instance, as one function of its eleven argument arrays, and the
  proof that its result buffer ends holding exactly that: the host stretches read as named functions (the stage
  lemmas), each dense region's output array as the dense-layer specification of the arrays it found, and the values
  that are computed once and read much later carried unchanged across the stretches and regions between.
-/
import proofs.«179590_j19610820673795_1_alg».proof.Proof.KI.Run
import proofs.«179590_j19610820673795_1_alg».proof.Proof.KI.StageA
import proofs.«179590_j19610820673795_1_alg».proof.Proof.KI.Stage1
import proofs.«179590_j19610820673795_1_alg».proof.Proof.KI.Stage2
import proofs.«179590_j19610820673795_1_alg».proof.Proof.KI.Stage4
import proofs.«179590_j19610820673795_1_alg».proof.Proof.KI.Val0
import proofs.«179590_j19610820673795_1_alg».proof.Proof.KI.Val1
import proofs.«179590_j19610820673795_1_alg».proof.Proof.KI.Val2
import proofs.«179590_j19610820673795_1_alg».proof.Proof.KI.Val3
import proofs.«179590_j19610820673795_1_alg».proof.Proof.KI.ValDef

set_option maxRecDepth 16384

noncomputable section

namespace Cert.KernelIdeal.KVal

open Cert.KernelIdeal Cert.KernelIdeal.Gen Cert.KernelIdeal.Hand Cert.KernelIdeal.Stage Cert.KernelIdeal.RegVal Cert.KernelIdeal.Facts₀
open Idealize.ShloMosaic Idealize.ShloMosaic.TcCoe Idealize.ShloMosaic.StableHlo

local notation "CI" => HV.C (F := Ideal)

variable (m : (ℓ : Loc nD τ sig) → Buf (Elt Ideal) ℓ) (ρ : Dev nD → PrngReg) (c : Dev nD)

/-! ## A buffer nobody writes in between keeps its contents, one boundary at a time -/

theorem st3 (r : Ref sig .tc) (h0 : r ∉ hostOps0_W) (h1 : r ∉ hostOps0_1_W) (h2 : r ∉ hostOps0_2_W) :
    W3 m ρ c (Proc.devRef .tc r) = W0 m ρ c (Proc.devRef .tc r) :=
  (after_of_writes_sub hostOps0_2 _ hostOps0_2_writes h2).trans
    ((after_of_writes_sub hostOps0_1 _ hostOps0_1_writes h1).trans (after_of_writes_sub hostOps0 _ hostOps0_writes h0))
theorem st4 (r : Ref sig .tc) (hb : ∀ w, Pipeline.arrRef spec0 w ≠ r) :
    W4 m ρ c (Proc.devRef .tc r) = W3 m ρ c (Proc.devRef .tc r) := W4_of_ne m ρ c r hb
theorem st5 (r : Ref sig .tc) (h : r ∉ hostOps1_W) :
    W5 m ρ c (Proc.devRef .tc r) = W4 m ρ c (Proc.devRef .tc r) := after_of_writes_sub hostOps1 _ hostOps1_writes h
theorem st6 (r : Ref sig .tc) (hb : ∀ w, Pipeline.arrRef spec1 w ≠ r) :
    W6 m ρ c (Proc.devRef .tc r) = W5 m ρ c (Proc.devRef .tc r) := W6_of_ne m ρ c r hb
theorem st7 (r : Ref sig .tc) (h : r ∉ hostOps2_W) :
    W7 m ρ c (Proc.devRef .tc r) = W6 m ρ c (Proc.devRef .tc r) := after_of_writes_sub hostOps2 _ hostOps2_writes h
theorem st8 (r : Ref sig .tc) (hb : ∀ w, Pipeline.arrRef spec2 w ≠ r) :
    W8 m ρ c (Proc.devRef .tc r) = W7 m ρ c (Proc.devRef .tc r) := W8_of_ne m ρ c r hb
theorem st9 (r : Ref sig .tc) (hb : ∀ w, Pipeline.arrRef spec3 w ≠ r) :
    W9 m ρ c (Proc.devRef .tc r) = W8 m ρ c (Proc.devRef .tc r) := W9_of_ne m ρ c r hb

/-- An argument array, or any buffer no stretch and no region writes, holds its launch contents at every boundary. -/
theorem keep6 (r : Ref sig .tc) (h0 : r ∉ hostOps0_W) (h1 : r ∉ hostOps0_1_W) (h2 : r ∉ hostOps0_2_W)
    (hb0 : ∀ w, Pipeline.arrRef spec0 w ≠ r) (h3 : r ∉ hostOps1_W) (hb1 : ∀ w, Pipeline.arrRef spec1 w ≠ r) :
    W6 m ρ c (Proc.devRef .tc r) = W0 m ρ c (Proc.devRef .tc r) :=
  (st6 m ρ c r hb1).trans ((st5 m ρ c r h3).trans ((st4 m ρ c r hb0).trans (st3 m ρ c r h0 h1 h2)))
theorem keep4 (r : Ref sig .tc) (h0 : r ∉ hostOps0_W) (h1 : r ∉ hostOps0_1_W) (h2 : r ∉ hostOps0_2_W)
    (hb0 : ∀ w, Pipeline.arrRef spec0 w ≠ r) :
    W4 m ρ c (Proc.devRef .tc r) = W0 m ρ c (Proc.devRef .tc r) :=
  (st4 m ρ c r hb0).trans (st3 m ρ c r h0 h1 h2)
theorem keep8 (r : Ref sig .tc) (h0 : r ∉ hostOps0_W) (h1 : r ∉ hostOps0_1_W) (h2 : r ∉ hostOps0_2_W)
    (hb0 : ∀ w, Pipeline.arrRef spec0 w ≠ r) (h3 : r ∉ hostOps1_W) (hb1 : ∀ w, Pipeline.arrRef spec1 w ≠ r)
    (h4 : r ∉ hostOps2_W) (hb2 : ∀ w, Pipeline.arrRef spec2 w ≠ r) :
    W8 m ρ c (Proc.devRef .tc r) = W0 m ρ c (Proc.devRef .tc r) :=
  (st8 m ρ c r hb2).trans ((st7 m ρ c r h4).trans (keep6 m ρ c r h0 h1 h2 hb0 h3 hb1))
/-- A value of the first stretch that later stretches read (an edge endpoint vector, the edge normalisation)
    is still there when the second and third stretches start. -/
theorem mid4 (r : Ref sig .tc) (hb0 : ∀ w, Pipeline.arrRef spec0 w ≠ r) :
    W4 m ρ c (Proc.devRef .tc r) = W3 m ρ c (Proc.devRef .tc r) := st4 m ρ c r hb0
theorem mid6 (r : Ref sig .tc) (hb0 : ∀ w, Pipeline.arrRef spec0 w ≠ r) (h3 : r ∉ hostOps1_W)
    (hb1 : ∀ w, Pipeline.arrRef spec1 w ≠ r) :
    W6 m ρ c (Proc.devRef .tc r) = W3 m ρ c (Proc.devRef .tc r) :=
  (st6 m ρ c r hb1).trans ((st5 m ρ c r h3).trans (st4 m ρ c r hb0))

/-! ## The first stretch's values -/

theorem W3_eq : W3 m ρ c = after opsA (W0 m ρ c) := afterA (W0 m ρ c)

theorem W3_v1 : W3 m ρ c (Proc.devRef .tc main_v1) = HV.rowOf (m ((c : Thread nD τ).loc main_arg2)) := by
  rw [W3_eq]; exact a_v1 (W0 m ρ c)
theorem W3_v3 : W3 m ρ c (Proc.devRef .tc main_v3) = HV.colOf (m ((c : Thread nD τ).loc main_arg2)) := by
  rw [W3_eq]; exact a_v3 (W0 m ρ c)
theorem W3_v28 : W3 m ρ c (Proc.devRef .tc main_v28) = nrmK (m ((c : Thread nD τ).loc main_arg2)) (m ((c : Thread nD τ).loc main_arg3)) := by
  rw [W3_eq]; exact a_v28 (W0 m ρ c)
theorem W3_v29 : W3 m ρ c (Proc.devRef .tc main_v29) = HV.xOf (m ((c : Thread nD τ).loc main_arg0)) (m ((c : Thread nD τ).loc main_arg1)) := by
  rw [W3_eq]; exact a_v29 (W0 m ρ c)

/-! ## The regions' outputs -/

/-- The read-in layer's output array. -/
theorem W4_v30 : W4 m ρ c (Proc.devRef .tc main_v30)
    = Cert.Spec.denseAct (HV.xOf (m ((c : Thread nD τ).loc main_arg0)) (m ((c : Thread nD τ).loc main_arg1))) (m ((c : Thread nD τ).loc main_arg5)) (m ((c : Thread nD τ).loc main_arg6)) := by
  refine (W4_arr m ρ c 3).trans ((final0 (V3 m ρ) c).trans ?_)
  show Cert.Spec.denseAct (W3 m ρ c (Proc.devRef .tc main_v29)) (W3 m ρ c (Proc.devRef .tc main_arg5)) (W3 m ρ c (Proc.devRef .tc main_arg6)) = _
  rw [W3_v29, st3 m ρ c main_arg5 (by decide) (by decide) (by decide), st3 m ρ c main_arg6 (by decide) (by decide) (by decide)]

/-- The first tap layer's output array. -/
theorem W6_v89 : W6 m ρ c (Proc.devRef .tc main_v89)
    = layerK (HV.rowOf (m ((c : Thread nD τ).loc main_arg2))) (HV.colOf (m ((c : Thread nD τ).loc main_arg2))) (nrmK (m ((c : Thread nD τ).loc main_arg2)) (m ((c : Thread nD τ).loc main_arg3)))
        (Cert.Spec.denseAct (HV.xOf (m ((c : Thread nD τ).loc main_arg0)) (m ((c : Thread nD τ).loc main_arg1))) (m ((c : Thread nD τ).loc main_arg5)) (m ((c : Thread nD τ).loc main_arg6)))
        (HV.wCat ![0, 0, 0, 0] Facts₀.slices_S2x5x32x32_S1x5x32x32_0_0_0_0 (m ((c : Thread nD τ).loc main_arg7)))
        (HV.bSlice ![0, 0] Facts₀.slices_S2x32_S1x32_0_0 (m ((c : Thread nD τ).loc main_arg8))) := by
  refine (W6_arr m ρ c 3).trans ((final1 (V5 m ρ) c).trans ?_)
  show Cert.Spec.denseAct (after hostOps1 (W4 m ρ c) (Proc.devRef .tc main_v83)) (after hostOps1 (W4 m ρ c) (Proc.devRef .tc main_v86))
    (after hostOps1 (W4 m ρ c) (Proc.devRef .tc main_v88)) = _
  rw [s1_taps, s1_w, s1_b, W4_v30, mid4 m ρ c main_v1 (by decide), mid4 m ρ c main_v3 (by decide), mid4 m ρ c main_v28 (by decide),
    W3_v1, W3_v3, W3_v28, keep4 m ρ c main_arg7 (by decide) (by decide) (by decide) (by decide),
    keep4 m ρ c main_arg8 (by decide) (by decide) (by decide) (by decide)]
  rfl

/-- The second tap layer's output array. -/
theorem W8_v148 : W8 m ρ c (Proc.devRef .tc main_v148)
    = layerK (HV.rowOf (m ((c : Thread nD τ).loc main_arg2))) (HV.colOf (m ((c : Thread nD τ).loc main_arg2))) (nrmK (m ((c : Thread nD τ).loc main_arg2)) (m ((c : Thread nD τ).loc main_arg3)))
        (layerK (HV.rowOf (m ((c : Thread nD τ).loc main_arg2))) (HV.colOf (m ((c : Thread nD τ).loc main_arg2))) (nrmK (m ((c : Thread nD τ).loc main_arg2)) (m ((c : Thread nD τ).loc main_arg3)))
          (Cert.Spec.denseAct (HV.xOf (m ((c : Thread nD τ).loc main_arg0)) (m ((c : Thread nD τ).loc main_arg1))) (m ((c : Thread nD τ).loc main_arg5)) (m ((c : Thread nD τ).loc main_arg6)))
          (HV.wCat ![0, 0, 0, 0] Facts₀.slices_S2x5x32x32_S1x5x32x32_0_0_0_0 (m ((c : Thread nD τ).loc main_arg7)))
          (HV.bSlice ![0, 0] Facts₀.slices_S2x32_S1x32_0_0 (m ((c : Thread nD τ).loc main_arg8))))
        (HV.wCat ![1, 0, 0, 0] Facts₀.slices_S2x5x32x32_S1x5x32x32_1_0_0_0 (m ((c : Thread nD τ).loc main_arg7)))
        (HV.bSlice ![1, 0] Facts₀.slices_S2x32_S1x32_1_0 (m ((c : Thread nD τ).loc main_arg8))) := by
  refine (W8_arr m ρ c 3).trans ((final2 (V7 m ρ) c).trans ?_)
  show Cert.Spec.denseAct (after hostOps2 (W6 m ρ c) (Proc.devRef .tc main_v142)) (after hostOps2 (W6 m ρ c) (Proc.devRef .tc main_v145))
    (after hostOps2 (W6 m ρ c) (Proc.devRef .tc main_v147)) = _
  rw [s2_taps, s2_w, s2_b, W6_v89, mid6 m ρ c main_v1 (by decide) (by decide) (by decide), mid6 m ρ c main_v3 (by decide) (by decide) (by decide),
    mid6 m ρ c main_v28 (by decide) (by decide) (by decide), W3_v1, W3_v3, W3_v28,
    keep6 m ρ c main_arg7 (by decide) (by decide) (by decide) (by decide) (by decide) (by decide),
    keep6 m ρ c main_arg8 (by decide) (by decide) (by decide) (by decide) (by decide) (by decide)]
  rfl

/-- The read-out layer's output array. -/
theorem W9_v149 : W9 m ρ c (Proc.devRef .tc main_v149)
    = Cert.Spec.denseLin
        (layerK (HV.rowOf (m ((c : Thread nD τ).loc main_arg2))) (HV.colOf (m ((c : Thread nD τ).loc main_arg2))) (nrmK (m ((c : Thread nD τ).loc main_arg2)) (m ((c : Thread nD τ).loc main_arg3)))
          (layerK (HV.rowOf (m ((c : Thread nD τ).loc main_arg2))) (HV.colOf (m ((c : Thread nD τ).loc main_arg2))) (nrmK (m ((c : Thread nD τ).loc main_arg2)) (m ((c : Thread nD τ).loc main_arg3)))
            (Cert.Spec.denseAct (HV.xOf (m ((c : Thread nD τ).loc main_arg0)) (m ((c : Thread nD τ).loc main_arg1))) (m ((c : Thread nD τ).loc main_arg5)) (m ((c : Thread nD τ).loc main_arg6)))
            (HV.wCat ![0, 0, 0, 0] Facts₀.slices_S2x5x32x32_S1x5x32x32_0_0_0_0 (m ((c : Thread nD τ).loc main_arg7)))
            (HV.bSlice ![0, 0] Facts₀.slices_S2x32_S1x32_0_0 (m ((c : Thread nD τ).loc main_arg8))))
          (HV.wCat ![1, 0, 0, 0] Facts₀.slices_S2x5x32x32_S1x5x32x32_1_0_0_0 (m ((c : Thread nD τ).loc main_arg7)))
          (HV.bSlice ![1, 0] Facts₀.slices_S2x32_S1x32_1_0 (m ((c : Thread nD τ).loc main_arg8))))
        (m ((c : Thread nD τ).loc main_arg9)) (m ((c : Thread nD τ).loc main_arg10)) := by
  refine (W9_arr m ρ c 3).trans ((final3 (V8 m ρ) c).trans ?_)
  show Cert.Spec.denseLin (W8 m ρ c (Proc.devRef .tc main_v148)) (W8 m ρ c (Proc.devRef .tc main_arg9)) (W8 m ρ c (Proc.devRef .tc main_arg10)) = _
  rw [W8_v148, keep8 m ρ c main_arg9 (by decide) (by decide) (by decide) (by decide) (by decide) (by decide) (by decide) (by decide),
    keep8 m ρ c main_arg10 (by decide) (by decide) (by decide) (by decide) (by decide) (by decide) (by decide) (by decide)]

/-- The kernel program's result buffer after the run. -/
theorem kernel_value : W10 m ρ c (Proc.devRef .tc main_v159)
    = kval (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) := by
  show after hostOps4 (W9 m ρ c) (Proc.devRef .tc main_v159) = _
  rw [s4_out, W9_v149, st9 m ρ c main_arg4 (by decide),
    keep8 m ρ c main_arg4 (by decide) (by decide) (by decide) (by decide) (by decide) (by decide) (by decide) (by decide)]
  rfl

end Cert.KernelIdeal.KVal

end
-- ==== Proof.Ref.Ops0.lean ====
import proofs.«179590_j19610820673795_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The host operations of @main's statements 1 … 60, in program order: each statement's operation as it is printed. The call of `_where` (statement 17) stands as its three operations over the record `main_call0`, and the call of
    `leaky_relu` (statement 43) as its six operations followed by the one select of the `_where_0` it calls, over `main_call1`. -/
abbrev opsP0 : List (HloOp τ sig (Elt F)) :=
  [ StableHlo.unary main_arg2 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg2 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.unary main_v3 main_v5 (broadcastInDim S3200000x1 ![0] bcast_S3200000_S3200000x1_0 : (⟨S3200000, .i32⟩ : BufTy).Contents (Elt F) → (⟨S3200000x1, .i32⟩ : BufTy).Contents (Elt F)),
    StableHlo.ternary main_v4 main_v5 main_arg3 main_v6 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_0 (constant S_ .f32 0x00000000#32),
    StableHlo.unary main_cst_0 main_v7 (broadcastInDim S100000 ![] bcast_S_S100000 : (⟨S_, .f32⟩ : BufTy).Contents (Elt F) → (⟨S100000, .f32⟩ : BufTy).Contents (Elt F)),
    StableHlo.binary main_v6 main_v7 main_v8 (cmpf .ogt : (⟨S100000, .f32⟩ : BufTy).Contents (Elt F) → (⟨S100000, .f32⟩ : BufTy).Contents (Elt F) → (⟨S100000, .i1⟩ : BufTy).Contents (Elt F)),
    StableHlo.nullary main_cst_1 (constant S_ .f32 0x2B8CBCCC#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v6 main_v9 main_v10 (maximumf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v8 : StableHlo.TRef sig ⟨S100000, .i1⟩) (.of main_v11 : StableHlo.TRef sig ⟨S100000, .f32⟩) main_call0.v1 main_call0.v2 select,
    StableHlo.nullary main_c (constantI S_ 32 0#32),
    StableHlo.unary main_c main_v13 (broadcastInDim S3200000 ![] bcast_S_S3200000 : (⟨S_, .i32⟩ : BufTy).Contents (Elt F) → (⟨S3200000, .i32⟩ : BufTy).Contents (Elt F)),
    StableHlo.binary main_v1 main_v13 main_v14 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v15 (broadcastInDim S3200000 ![] bcast_S_S3200000 : (⟨S_, .i32⟩ : BufTy).Contents (Elt F) → (⟨S3200000, .i32⟩ : BufTy).Contents (Elt F)),
    StableHlo.binary main_v1 main_v15 main_v16 (addi : (⟨S3200000, .i32⟩ : BufTy).Contents (Elt F) → (⟨S3200000, .i32⟩ : BufTy).Contents (Elt F) → (⟨S3200000, .i32⟩ : BufTy).Contents (Elt F)),
    StableHlo.ternary main_v14 main_v16 main_v1 main_v17 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v17 main_v18 (broadcastInDim S3200000x1 ![0] bcast_S3200000_S3200000x1_0 : (⟨S3200000, .i32⟩ : BufTy).Contents (Elt F) → (⟨S3200000x1, .i32⟩ : BufTy).Contents (Elt F)),
    StableHlo.binary main_v12 main_v18 main_v19 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v19 main_arg3 main_v20 (mulf : (⟨S3200000, .f32⟩ : BufTy).Contents (Elt F) → (⟨S3200000, .f32⟩ : BufTy).Contents (Elt F) → (⟨S3200000, .f32⟩ : BufTy).Contents (Elt F)),
    StableHlo.nullary main_c_4 (constantI S_ 32 0#32),
    StableHlo.unary main_c_4 main_v21 (broadcastInDim S3200000 ![] bcast_S_S3200000 : (⟨S_, .i32⟩ : BufTy).Contents (Elt F) → (⟨S3200000, .i32⟩ : BufTy).Contents (Elt F)),
    StableHlo.binary main_v3 main_v21 main_v22 (cmpi .slt : (⟨S3200000, .i32⟩ : BufTy).Contents (Elt F) → (⟨S3200000, .i32⟩ : BufTy).Contents (Elt F) → (⟨S3200000, .i1⟩ : BufTy).Contents (Elt F)),
    StableHlo.nullary main_c_5 (constantI S_ 32 100000#32),
    StableHlo.unary main_c_5 main_v23 (broadcastInDim S3200000 ![] bcast_S_S3200000 : (⟨S_, .i32⟩ : BufTy).Contents (Elt F) → (⟨S3200000, .i32⟩ : BufTy).Contents (Elt F)),
    StableHlo.binary main_v3 main_v23 main_v24 (addi : (⟨S3200000, .i32⟩ : BufTy).Contents (Elt F) → (⟨S3200000, .i32⟩ : BufTy).Contents (Elt F) → (⟨S3200000, .i32⟩ : BufTy).Contents (Elt F)),
    StableHlo.ternary main_v22 main_v24 main_v3 main_v25 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v25 main_v26 (broadcastInDim S3200000x1 ![0] bcast_S3200000_S3200000x1_0 : (⟨S3200000, .i32⟩ : BufTy).Contents (Elt F) → (⟨S3200000x1, .i32⟩ : BufTy).Contents (Elt F)),
    StableHlo.binary main_v12 main_v26 main_v27 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v20 main_v27 main_v28 (mulf : (⟨S3200000, .f32⟩ : BufTy).Contents (Elt F) → (⟨S3200000, .f32⟩ : BufTy).Contents (Elt F) → (⟨S3200000, .f32⟩ : BufTy).Contents (Elt F)),
    StableHlo.binary main_arg0 main_arg1 main_v29 ((fun a b => concatenate S100000x10 1 [⟨S100000x8, a⟩, ⟨S100000x2, b⟩] concatenates_S100000x8_S100000x2_S100000x10_d1) : (⟨S100000x8, .f32⟩ : BufTy).Contents (Elt F) → (⟨S100000x2, .f32⟩ : BufTy).Contents (Elt F) → (⟨S100000x10, .f32⟩ : BufTy).Contents (Elt F)),
    StableHlo.binary main_v29 main_arg5 main_v30 ((fun l r => Host.dotGeneral dot_S100000x10_S10x32_S100000x32_1_0_0_1_n_n none l r) : (⟨S100000x10, .f32⟩ : BufTy).Contents (Elt F) → (⟨S10x32, .f32⟩ : BufTy).Contents (Elt F) → (⟨S100000x32, .f32⟩ : BufTy).Contents (Elt F)),
    StableHlo.unary main_arg6 main_v31 (broadcastInDim S1x32 ![1] bcast_S32_S1x32_1 : (⟨S32, .f32⟩ : BufTy).Contents (Elt F) → (⟨S1x32, .f32⟩ : BufTy).Contents (Elt F)),
    StableHlo.unary main_v31 main_v32 (broadcastInDim S100000x32 ![0, 1] bcast_S1x32_S100000x32_0_1 : (⟨S1x32, .f32⟩ : BufTy).Contents (Elt F) → (⟨S100000x32, .f32⟩ : BufTy).Contents (Elt F)),
    StableHlo.binary main_v30 main_v32 main_v33 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (.of main_v33 : StableHlo.TRef sig ⟨S100000x32, .f32⟩) main_call1.v0 main_call1.v1 (cmpf .oge),
    StableHlo.TRef.nullary main_call1.cst_0 (constant S_ .f32 0x3C23D70A#32),
    StableHlo.TRef.unary main_call1.cst_0 main_call1.v2 (broadcastInDim S100000x32 ![] bcast_S_S100000x32),
    StableHlo.TRef.binary main_call1.v2 (.of main_v33 : StableHlo.TRef sig ⟨S100000x32, .f32⟩) main_call1.v3 mulf,
    StableHlo.TRef.ternary main_call1.v1 (.of main_v33 : StableHlo.TRef sig ⟨S100000x32, .f32⟩) main_call1.v3 main_call1.call0.v0 select,
    StableHlo.unary main_arg7 main_v35 ((extractStridedSlice S1x1x32x32 ![0, 0, 0, 0] · slices_S2x5x32x32_S1x1x32x32_0_0_0_0) : (⟨S2x5x32x32, .f32⟩ : BufTy).Contents (Elt F) → (⟨S1x1x32x32, .f32⟩ : BufTy).Contents (Elt F)),
    StableHlo.reshape main_v35 main_v36 rfl shapeCasts_S1x1x32x32_S32x32,
    StableHlo.binary main_v34 main_v36 main_v37 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.nullary main_c_6 (constantI S_ 32 0#32),
    StableHlo.unary main_c_6 main_v38 (broadcastInDim S3200000 ![] bcast_S_S3200000 : (⟨S_, .i32⟩ : BufTy).Contents (Elt F) → (⟨S3200000, .i32⟩ : BufTy).Contents (Elt F)),
    StableHlo.binary main_v1 main_v38 main_v39 (cmpi .slt : (⟨S3200000, .i32⟩ : BufTy).Contents (Elt F) → (⟨S3200000, .i32⟩ : BufTy).Contents (Elt F) → (⟨S3200000, .i1⟩ : BufTy).Contents (Elt F)),
    StableHlo.nullary main_c_7 (constantI S_ 32 100000#32),
    StableHlo.unary main_c_7 main_v40 (broadcastInDim S3200000 ![] bcast_S_S3200000 : (⟨S_, .i32⟩ : BufTy).Contents (Elt F) → (⟨S3200000, .i32⟩ : BufTy).Contents (Elt F)),
    StableHlo.binary main_v1 main_v40 main_v41 (addi : (⟨S3200000, .i32⟩ : BufTy).Contents (Elt F) → (⟨S3200000, .i32⟩ : BufTy).Contents (Elt F) → (⟨S3200000, .i32⟩ : BufTy).Contents (Elt F)),
    StableHlo.ternary main_v39 main_v41 main_v1 main_v42 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v42 main_v43 (broadcastInDim S3200000x1 ![0] bcast_S3200000_S3200000x1_0 : (⟨S3200000, .i32⟩ : BufTy).Contents (Elt F) → (⟨S3200000x1, .i32⟩ : BufTy).Contents (Elt F)),
    StableHlo.binary main_v34 main_v43 main_v44 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v28 main_v45 (broadcastInDim S3200000x1 ![0] bcast_S3200000_S3200000x1_0 : (⟨S3200000, .f32⟩ : BufTy).Contents (Elt F) → (⟨S3200000x1, .f32⟩ : BufTy).Contents (Elt F)),
    StableHlo.unary main_v45 main_v46 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v44 main_v46 main_v47 (mulf : (⟨S3200000x32, .f32⟩ : BufTy).Contents (Elt F) → (⟨S3200000x32, .f32⟩ : BufTy).Contents (Elt F) → (⟨S3200000x32, .f32⟩ : BufTy).Contents (Elt F)),
    StableHlo.nullary main_cst_8 (constant S_ .f32 0x00000000#32),
    StableHlo.unary main_cst_8 main_v48 (broadcastInDim S100000x32 ![] bcast_S_S100000x32 : (⟨S_, .f32⟩ : BufTy).Contents (Elt F) → (⟨S100000x32, .f32⟩ : BufTy).Contents (Elt F)) ]

set_option maxRecDepth 16384 in
set_option maxHeartbeats 4000000 in
/-- The window is the straight line of its operations: with the called functions' bodies opened at their calls and the
    sequencing reassociated, both sides are the same chain of steps. -/
theorem main_part0_eq (c : Dev nD) : main_part0 (F := F) c = seq opsP0 := by
  simp only [main_part0, fn_where.body, fn_leaky_relu.body, fn_where_0.body, seq, bind_assoc, pure_bind]
  rfl

set_option maxRecDepth 16384 in
/-- Every buffer an operation of the window touches is a TensorCore buffer. -/
theorem opsP0_sub : (opsP0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., reshape_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub ..⟩

set_option maxRecDepth 16384 in
/-- Every operation of the window determines the contents it writes. -/
theorem opsP0_fresh : (opsP0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

/-- The buffers the window's operations write, one per operation, in order. -/
abbrev opsP0_W : List (Ref sig .tc) :=
  [main_v0, main_v1, main_v2, main_v3, main_cst, main_v4, main_v5, main_v6,
    main_cst_0, main_v7, main_v8, main_cst_1, main_v9, main_v10, main_v11, main_cst_2,
    main_call0.v0.ref, main_call0.v1.ref, main_call0.v2.ref, main_c, main_v13, main_v14, main_c_3, main_v15,
    main_v16, main_v17, main_v18, main_v19, main_v20, main_c_4, main_v21, main_v22,
    main_c_5, main_v23, main_v24, main_v25, main_v26, main_v27, main_v28, main_v29,
    main_v30, main_v31, main_v32, main_v33, main_call1.cst.ref, main_call1.v0.ref, main_call1.v1.ref, main_call1.cst_0.ref,
    main_call1.v2.ref, main_call1.v3.ref, main_call1.call0.v0.ref, main_v35, main_v36, main_v37, main_c_6, main_v38,
    main_v39, main_c_7, main_v40, main_v41, main_v42, main_v43, main_v44, main_v45,
    main_v46, main_v47, main_cst_8, main_v48]

set_option maxRecDepth 16384 in
set_option maxHeartbeats 4000000 in
/-- Each operation writes only its own result buffer, which is in the list. -/
theorem opsP0_writes : (opsP0 : List (HloOp τ sig (Elt F))).Forall fun op =>
    op.writes ⊆ (opsP0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write holds after it what it held before. -/
theorem opsP0_keep (V : Valuation τ sig (Elt F)) (r : Ref sig .tc) (h : r ∉ opsP0_W) :
    after opsP0 V (Proc.devRef .tc r) = V (Proc.devRef .tc r) :=
  after_of_writes_sub opsP0 V opsP0_writes h

end Cert.ReferenceIdeal.Hand

end
-- ==== Proof.Ref.Ops1.lean ====
import proofs.«179590_j19610820673795_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The host operations of @main's statements 61 … 120, in program order: each statement's operation as it is printed. -/
abbrev opsP1 : List (HloOp τ sig (Elt F)) :=
  [ StableHlo.unary main_v3 main_v49 (broadcastInDim S3200000x1 ![0] bcast_S3200000_S3200000x1_0 : (⟨S3200000, .i32⟩ : BufTy).Contents (Elt F) → (⟨S3200000x1, .i32⟩ : BufTy).Contents (Elt F)),
    StableHlo.ternary main_v48 main_v49 main_v47 main_v50 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.unary main_arg7 main_v51 ((extractStridedSlice S1x1x32x32 ![0, 1, 0, 0] · slices_S2x5x32x32_S1x1x32x32_0_1_0_0) : (⟨S2x5x32x32, .f32⟩ : BufTy).Contents (Elt F) → (⟨S1x1x32x32, .f32⟩ : BufTy).Contents (Elt F)),
    StableHlo.reshape main_v51 main_v52 rfl shapeCasts_S1x1x32x32_S32x32,
    StableHlo.binary main_v50 main_v52 main_v53 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v37 main_v53 main_v54 (addf : (⟨S100000x32, .f32⟩ : BufTy).Contents (Elt F) → (⟨S100000x32, .f32⟩ : BufTy).Contents (Elt F) → (⟨S100000x32, .f32⟩ : BufTy).Contents (Elt F)),
    StableHlo.nullary main_c_9 (constantI S_ 32 0#32),
    StableHlo.unary main_c_9 main_v55 (broadcastInDim S3200000 ![] bcast_S_S3200000 : (⟨S_, .i32⟩ : BufTy).Contents (Elt F) → (⟨S3200000, .i32⟩ : BufTy).Contents (Elt F)),
    StableHlo.binary main_v1 main_v55 main_v56 (cmpi .slt : (⟨S3200000, .i32⟩ : BufTy).Contents (Elt F) → (⟨S3200000, .i32⟩ : BufTy).Contents (Elt F) → (⟨S3200000, .i1⟩ : BufTy).Contents (Elt F)),
    StableHlo.nullary main_c_10 (constantI S_ 32 100000#32),
    StableHlo.unary main_c_10 main_v57 (broadcastInDim S3200000 ![] bcast_S_S3200000 : (⟨S_, .i32⟩ : BufTy).Contents (Elt F) → (⟨S3200000, .i32⟩ : BufTy).Contents (Elt F)),
    StableHlo.binary main_v1 main_v57 main_v58 (addi : (⟨S3200000, .i32⟩ : BufTy).Contents (Elt F) → (⟨S3200000, .i32⟩ : BufTy).Contents (Elt F) → (⟨S3200000, .i32⟩ : BufTy).Contents (Elt F)),
    StableHlo.ternary main_v56 main_v58 main_v1 main_v59 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v59 main_v60 (broadcastInDim S3200000x1 ![0] bcast_S3200000_S3200000x1_0 : (⟨S3200000, .i32⟩ : BufTy).Contents (Elt F) → (⟨S3200000x1, .i32⟩ : BufTy).Contents (Elt F)),
    StableHlo.binary main_v50 main_v60 main_v61 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v28 main_v62 (broadcastInDim S3200000x1 ![0] bcast_S3200000_S3200000x1_0 : (⟨S3200000, .f32⟩ : BufTy).Contents (Elt F) → (⟨S3200000x1, .f32⟩ : BufTy).Contents (Elt F)),
    StableHlo.unary main_v62 main_v63 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v61 main_v63 main_v64 (mulf : (⟨S3200000x32, .f32⟩ : BufTy).Contents (Elt F) → (⟨S3200000x32, .f32⟩ : BufTy).Contents (Elt F) → (⟨S3200000x32, .f32⟩ : BufTy).Contents (Elt F)),
    StableHlo.nullary main_cst_11 (constant S_ .f32 0x00000000#32),
    StableHlo.unary main_cst_11 main_v65 (broadcastInDim S100000x32 ![] bcast_S_S100000x32 : (⟨S_, .f32⟩ : BufTy).Contents (Elt F) → (⟨S100000x32, .f32⟩ : BufTy).Contents (Elt F)),
    StableHlo.unary main_v3 main_v66 (broadcastInDim S3200000x1 ![0] bcast_S3200000_S3200000x1_0 : (⟨S3200000, .i32⟩ : BufTy).Contents (Elt F) → (⟨S3200000x1, .i32⟩ : BufTy).Contents (Elt F)),
    StableHlo.ternary main_v65 main_v66 main_v64 main_v67 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.unary main_arg7 main_v68 ((extractStridedSlice S1x1x32x32 ![0, 2, 0, 0] · slices_S2x5x32x32_S1x1x32x32_0_2_0_0) : (⟨S2x5x32x32, .f32⟩ : BufTy).Contents (Elt F) → (⟨S1x1x32x32, .f32⟩ : BufTy).Contents (Elt F)),
    StableHlo.reshape main_v68 main_v69 rfl shapeCasts_S1x1x32x32_S32x32,
    StableHlo.binary main_v67 main_v69 main_v70 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v54 main_v70 main_v71 (addf : (⟨S100000x32, .f32⟩ : BufTy).Contents (Elt F) → (⟨S100000x32, .f32⟩ : BufTy).Contents (Elt F) → (⟨S100000x32, .f32⟩ : BufTy).Contents (Elt F)),
    StableHlo.nullary main_c_12 (constantI S_ 32 0#32),
    StableHlo.unary main_c_12 main_v72 (broadcastInDim S3200000 ![] bcast_S_S3200000 : (⟨S_, .i32⟩ : BufTy).Contents (Elt F) → (⟨S3200000, .i32⟩ : BufTy).Contents (Elt F)),
    StableHlo.binary main_v1 main_v72 main_v73 (cmpi .slt : (⟨S3200000, .i32⟩ : BufTy).Contents (Elt F) → (⟨S3200000, .i32⟩ : BufTy).Contents (Elt F) → (⟨S3200000, .i1⟩ : BufTy).Contents (Elt F)),
    StableHlo.nullary main_c_13 (constantI S_ 32 100000#32),
    StableHlo.unary main_c_13 main_v74 (broadcastInDim S3200000 ![] bcast_S_S3200000 : (⟨S_, .i32⟩ : BufTy).Contents (Elt F) → (⟨S3200000, .i32⟩ : BufTy).Contents (Elt F)),
    StableHlo.binary main_v1 main_v74 main_v75 (addi : (⟨S3200000, .i32⟩ : BufTy).Contents (Elt F) → (⟨S3200000, .i32⟩ : BufTy).Contents (Elt F) → (⟨S3200000, .i32⟩ : BufTy).Contents (Elt F)),
    StableHlo.ternary main_v73 main_v75 main_v1 main_v76 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v76 main_v77 (broadcastInDim S3200000x1 ![0] bcast_S3200000_S3200000x1_0 : (⟨S3200000, .i32⟩ : BufTy).Contents (Elt F) → (⟨S3200000x1, .i32⟩ : BufTy).Contents (Elt F)),
    StableHlo.binary main_v67 main_v77 main_v78 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v28 main_v79 (broadcastInDim S3200000x1 ![0] bcast_S3200000_S3200000x1_0 : (⟨S3200000, .f32⟩ : BufTy).Contents (Elt F) → (⟨S3200000x1, .f32⟩ : BufTy).Contents (Elt F)),
    StableHlo.unary main_v79 main_v80 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v78 main_v80 main_v81 (mulf : (⟨S3200000x32, .f32⟩ : BufTy).Contents (Elt F) → (⟨S3200000x32, .f32⟩ : BufTy).Contents (Elt F) → (⟨S3200000x32, .f32⟩ : BufTy).Contents (Elt F)),
    StableHlo.nullary main_cst_14 (constant S_ .f32 0x00000000#32),
    StableHlo.unary main_cst_14 main_v82 (broadcastInDim S100000x32 ![] bcast_S_S100000x32 : (⟨S_, .f32⟩ : BufTy).Contents (Elt F) → (⟨S100000x32, .f32⟩ : BufTy).Contents (Elt F)),
    StableHlo.unary main_v3 main_v83 (broadcastInDim S3200000x1 ![0] bcast_S3200000_S3200000x1_0 : (⟨S3200000, .i32⟩ : BufTy).Contents (Elt F) → (⟨S3200000x1, .i32⟩ : BufTy).Contents (Elt F)),
    StableHlo.ternary main_v82 main_v83 main_v81 main_v84 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.unary main_arg7 main_v85 ((extractStridedSlice S1x1x32x32 ![0, 3, 0, 0] · slices_S2x5x32x32_S1x1x32x32_0_3_0_0) : (⟨S2x5x32x32, .f32⟩ : BufTy).Contents (Elt F) → (⟨S1x1x32x32, .f32⟩ : BufTy).Contents (Elt F)),
    StableHlo.reshape main_v85 main_v86 rfl shapeCasts_S1x1x32x32_S32x32,
    StableHlo.binary main_v84 main_v86 main_v87 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v71 main_v87 main_v88 (addf : (⟨S100000x32, .f32⟩ : BufTy).Contents (Elt F) → (⟨S100000x32, .f32⟩ : BufTy).Contents (Elt F) → (⟨S100000x32, .f32⟩ : BufTy).Contents (Elt F)),
    StableHlo.nullary main_c_15 (constantI S_ 32 0#32),
    StableHlo.unary main_c_15 main_v89 (broadcastInDim S3200000 ![] bcast_S_S3200000 : (⟨S_, .i32⟩ : BufTy).Contents (Elt F) → (⟨S3200000, .i32⟩ : BufTy).Contents (Elt F)),
    StableHlo.binary main_v1 main_v89 main_v90 (cmpi .slt : (⟨S3200000, .i32⟩ : BufTy).Contents (Elt F) → (⟨S3200000, .i32⟩ : BufTy).Contents (Elt F) → (⟨S3200000, .i1⟩ : BufTy).Contents (Elt F)),
    StableHlo.nullary main_c_16 (constantI S_ 32 100000#32),
    StableHlo.unary main_c_16 main_v91 (broadcastInDim S3200000 ![] bcast_S_S3200000 : (⟨S_, .i32⟩ : BufTy).Contents (Elt F) → (⟨S3200000, .i32⟩ : BufTy).Contents (Elt F)),
    StableHlo.binary main_v1 main_v91 main_v92 (addi : (⟨S3200000, .i32⟩ : BufTy).Contents (Elt F) → (⟨S3200000, .i32⟩ : BufTy).Contents (Elt F) → (⟨S3200000, .i32⟩ : BufTy).Contents (Elt F)),
    StableHlo.ternary main_v90 main_v92 main_v1 main_v93 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v93 main_v94 (broadcastInDim S3200000x1 ![0] bcast_S3200000_S3200000x1_0 : (⟨S3200000, .i32⟩ : BufTy).Contents (Elt F) → (⟨S3200000x1, .i32⟩ : BufTy).Contents (Elt F)),
    StableHlo.binary main_v84 main_v94 main_v95 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v28 main_v96 (broadcastInDim S3200000x1 ![0] bcast_S3200000_S3200000x1_0 : (⟨S3200000, .f32⟩ : BufTy).Contents (Elt F) → (⟨S3200000x1, .f32⟩ : BufTy).Contents (Elt F)),
    StableHlo.unary main_v96 main_v97 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v95 main_v97 main_v98 (mulf : (⟨S3200000x32, .f32⟩ : BufTy).Contents (Elt F) → (⟨S3200000x32, .f32⟩ : BufTy).Contents (Elt F) → (⟨S3200000x32, .f32⟩ : BufTy).Contents (Elt F)),
    StableHlo.nullary main_cst_17 (constant S_ .f32 0x00000000#32),
    StableHlo.unary main_cst_17 main_v99 (broadcastInDim S100000x32 ![] bcast_S_S100000x32 : (⟨S_, .f32⟩ : BufTy).Contents (Elt F) → (⟨S100000x32, .f32⟩ : BufTy).Contents (Elt F)) ]

set_option maxRecDepth 16384 in
set_option maxHeartbeats 4000000 in
/-- The window is the straight line of its operations: with the called functions' bodies opened at their calls and the
    sequencing reassociated, both sides are the same chain of steps. -/
theorem main_part1_eq (c : Dev nD) : main_part1 (F := F) c = seq opsP1 := rfl

set_option maxRecDepth 16384 in
/-- Every buffer an operation of the window touches is a TensorCore buffer. -/
theorem opsP1_sub : (opsP1 : List (HloOp τ sig (Elt F))).Forall fun op => op.bufs ⊆ tcRefs τ sig :=
  ⟨unary_bufs_sub .., ternary_bufs_sub .., unary_bufs_sub .., reshape_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., reshape_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..⟩

set_option maxRecDepth 16384 in
/-- Every operation of the window determines the contents it writes. -/
theorem opsP1_fresh : (opsP1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- The buffers the window's operations write, one per operation, in order. -/
abbrev opsP1_W : List (Ref sig .tc) :=
  [main_v49, main_v50, main_v51, main_v52, main_v53, main_v54, main_c_9, main_v55,
    main_v56, main_c_10, main_v57, main_v58, main_v59, main_v60, main_v61, main_v62,
    main_v63, main_v64, main_cst_11, main_v65, main_v66, main_v67, main_v68, main_v69,
    main_v70, main_v71, main_c_12, main_v72, main_v73, main_c_13, main_v74, main_v75,
    main_v76, main_v77, main_v78, main_v79, main_v80, main_v81, main_cst_14, main_v82,
    main_v83, main_v84, main_v85, main_v86, main_v87, main_v88, main_c_15, main_v89,
    main_v90, main_c_16, main_v91, main_v92, main_v93, main_v94, main_v95, main_v96,
    main_v97, main_v98, main_cst_17, main_v99]

set_option maxRecDepth 16384 in
set_option maxHeartbeats 4000000 in
/-- Each operation writes only its own result buffer, which is in the list. -/
theorem opsP1_writes : (opsP1 : List (HloOp τ sig (Elt F))).Forall fun op =>
    op.writes ⊆ (opsP1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write holds after it what it held before. -/
theorem opsP1_keep (V : Valuation τ sig (Elt F)) (r : Ref sig .tc) (h : r ∉ opsP1_W) :
    after opsP1 V (Proc.devRef .tc r) = V (Proc.devRef .tc r) :=
  after_of_writes_sub opsP1 V opsP1_writes h

end Cert.ReferenceIdeal.Hand

end
-- ==== Proof.Ref.Ops2.lean ====
import proofs.«179590_j19610820673795_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The host operations of @main's statements 121 … 180, in program order: each statement's operation as it is printed. The call of `leaky_relu` (statement 132) stands as its six operations followed by the one select of the `_where_0`
    it calls, over the record `main_call2`. -/
abbrev opsP2 : List (HloOp τ sig (Elt F)) :=
  [ StableHlo.unary main_v3 main_v100 (broadcastInDim S3200000x1 ![0] bcast_S3200000_S3200000x1_0 : (⟨S3200000, .i32⟩ : BufTy).Contents (Elt F) → (⟨S3200000x1, .i32⟩ : BufTy).Contents (Elt F)),
    StableHlo.ternary main_v99 main_v100 main_v98 main_v101 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.unary main_arg7 main_v102 ((extractStridedSlice S1x1x32x32 ![0, 4, 0, 0] · slices_S2x5x32x32_S1x1x32x32_0_4_0_0) : (⟨S2x5x32x32, .f32⟩ : BufTy).Contents (Elt F) → (⟨S1x1x32x32, .f32⟩ : BufTy).Contents (Elt F)),
    StableHlo.reshape main_v102 main_v103 rfl shapeCasts_S1x1x32x32_S32x32,
    StableHlo.binary main_v101 main_v103 main_v104 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v88 main_v104 main_v105 (addf : (⟨S100000x32, .f32⟩ : BufTy).Contents (Elt F) → (⟨S100000x32, .f32⟩ : BufTy).Contents (Elt F) → (⟨S100000x32, .f32⟩ : BufTy).Contents (Elt F)),
    StableHlo.unary main_arg8 main_v106 ((extractStridedSlice S1x32 ![0, 0] · slices_S2x32_S1x32_0_0) : (⟨S2x32, .f32⟩ : BufTy).Contents (Elt F) → (⟨S1x32, .f32⟩ : BufTy).Contents (Elt F)),
    StableHlo.reshape main_v106 main_v107 rfl shapeCasts_S1x32_S32,
    StableHlo.unary main_v107 main_v108 (broadcastInDim S1x32 ![1] bcast_S32_S1x32_1 : (⟨S32, .f32⟩ : BufTy).Contents (Elt F) → (⟨S1x32, .f32⟩ : BufTy).Contents (Elt F)),
    StableHlo.unary main_v108 main_v109 (broadcastInDim S100000x32 ![0, 1] bcast_S1x32_S100000x32_0_1 : (⟨S1x32, .f32⟩ : BufTy).Contents (Elt F) → (⟨S100000x32, .f32⟩ : BufTy).Contents (Elt F)),
    StableHlo.binary main_v105 main_v109 main_v110 (addf : (⟨S100000x32, .f32⟩ : BufTy).Contents (Elt F) → (⟨S100000x32, .f32⟩ : BufTy).Contents (Elt F) → (⟨S100000x32, .f32⟩ : BufTy).Contents (Elt F)),
    StableHlo.TRef.nullary main_call2.cst (constant S_ .f32 0x00000000#32),
    StableHlo.TRef.unary main_call2.cst main_call2.v0 (broadcastInDim S100000x32 ![] bcast_S_S100000x32),
    StableHlo.TRef.binary (.of main_v110 : StableHlo.TRef sig ⟨S100000x32, .f32⟩) main_call2.v0 main_call2.v1 (cmpf .oge),
    StableHlo.TRef.nullary main_call2.cst_0 (constant S_ .f32 0x3C23D70A#32),
    StableHlo.TRef.unary main_call2.cst_0 main_call2.v2 (broadcastInDim S100000x32 ![] bcast_S_S100000x32),
    StableHlo.TRef.binary main_call2.v2 (.of main_v110 : StableHlo.TRef sig ⟨S100000x32, .f32⟩) main_call2.v3 mulf,
    StableHlo.TRef.ternary main_call2.v1 (.of main_v110 : StableHlo.TRef sig ⟨S100000x32, .f32⟩) main_call2.v3 main_call2.call0.v0 select,
    StableHlo.unary main_arg7 main_v112 ((extractStridedSlice S1x1x32x32 ![1, 0, 0, 0] · slices_S2x5x32x32_S1x1x32x32_1_0_0_0) : (⟨S2x5x32x32, .f32⟩ : BufTy).Contents (Elt F) → (⟨S1x1x32x32, .f32⟩ : BufTy).Contents (Elt F)),
    StableHlo.reshape main_v112 main_v113 rfl shapeCasts_S1x1x32x32_S32x32,
    StableHlo.binary main_v111 main_v113 main_v114 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.nullary main_c_18 (constantI S_ 32 0#32),
    StableHlo.unary main_c_18 main_v115 (broadcastInDim S3200000 ![] bcast_S_S3200000 : (⟨S_, .i32⟩ : BufTy).Contents (Elt F) → (⟨S3200000, .i32⟩ : BufTy).Contents (Elt F)),
    StableHlo.binary main_v1 main_v115 main_v116 (cmpi .slt : (⟨S3200000, .i32⟩ : BufTy).Contents (Elt F) → (⟨S3200000, .i32⟩ : BufTy).Contents (Elt F) → (⟨S3200000, .i1⟩ : BufTy).Contents (Elt F)),
    StableHlo.nullary main_c_19 (constantI S_ 32 100000#32),
    StableHlo.unary main_c_19 main_v117 (broadcastInDim S3200000 ![] bcast_S_S3200000 : (⟨S_, .i32⟩ : BufTy).Contents (Elt F) → (⟨S3200000, .i32⟩ : BufTy).Contents (Elt F)),
    StableHlo.binary main_v1 main_v117 main_v118 (addi : (⟨S3200000, .i32⟩ : BufTy).Contents (Elt F) → (⟨S3200000, .i32⟩ : BufTy).Contents (Elt F) → (⟨S3200000, .i32⟩ : BufTy).Contents (Elt F)),
    StableHlo.ternary main_v116 main_v118 main_v1 main_v119 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v119 main_v120 (broadcastInDim S3200000x1 ![0] bcast_S3200000_S3200000x1_0 : (⟨S3200000, .i32⟩ : BufTy).Contents (Elt F) → (⟨S3200000x1, .i32⟩ : BufTy).Contents (Elt F)),
    StableHlo.binary main_v111 main_v120 main_v121 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v28 main_v122 (broadcastInDim S3200000x1 ![0] bcast_S3200000_S3200000x1_0 : (⟨S3200000, .f32⟩ : BufTy).Contents (Elt F) → (⟨S3200000x1, .f32⟩ : BufTy).Contents (Elt F)),
    StableHlo.unary main_v122 main_v123 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v121 main_v123 main_v124 (mulf : (⟨S3200000x32, .f32⟩ : BufTy).Contents (Elt F) → (⟨S3200000x32, .f32⟩ : BufTy).Contents (Elt F) → (⟨S3200000x32, .f32⟩ : BufTy).Contents (Elt F)),
    StableHlo.nullary main_cst_20 (constant S_ .f32 0x00000000#32),
    StableHlo.unary main_cst_20 main_v125 (broadcastInDim S100000x32 ![] bcast_S_S100000x32 : (⟨S_, .f32⟩ : BufTy).Contents (Elt F) → (⟨S100000x32, .f32⟩ : BufTy).Contents (Elt F)),
    StableHlo.unary main_v3 main_v126 (broadcastInDim S3200000x1 ![0] bcast_S3200000_S3200000x1_0 : (⟨S3200000, .i32⟩ : BufTy).Contents (Elt F) → (⟨S3200000x1, .i32⟩ : BufTy).Contents (Elt F)),
    StableHlo.ternary main_v125 main_v126 main_v124 main_v127 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.unary main_arg7 main_v128 ((extractStridedSlice S1x1x32x32 ![1, 1, 0, 0] · slices_S2x5x32x32_S1x1x32x32_1_1_0_0) : (⟨S2x5x32x32, .f32⟩ : BufTy).Contents (Elt F) → (⟨S1x1x32x32, .f32⟩ : BufTy).Contents (Elt F)),
    StableHlo.reshape main_v128 main_v129 rfl shapeCasts_S1x1x32x32_S32x32,
    StableHlo.binary main_v127 main_v129 main_v130 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v114 main_v130 main_v131 (addf : (⟨S100000x32, .f32⟩ : BufTy).Contents (Elt F) → (⟨S100000x32, .f32⟩ : BufTy).Contents (Elt F) → (⟨S100000x32, .f32⟩ : BufTy).Contents (Elt F)),
    StableHlo.nullary main_c_21 (constantI S_ 32 0#32),
    StableHlo.unary main_c_21 main_v132 (broadcastInDim S3200000 ![] bcast_S_S3200000 : (⟨S_, .i32⟩ : BufTy).Contents (Elt F) → (⟨S3200000, .i32⟩ : BufTy).Contents (Elt F)),
    StableHlo.binary main_v1 main_v132 main_v133 (cmpi .slt : (⟨S3200000, .i32⟩ : BufTy).Contents (Elt F) → (⟨S3200000, .i32⟩ : BufTy).Contents (Elt F) → (⟨S3200000, .i1⟩ : BufTy).Contents (Elt F)),
    StableHlo.nullary main_c_22 (constantI S_ 32 100000#32),
    StableHlo.unary main_c_22 main_v134 (broadcastInDim S3200000 ![] bcast_S_S3200000 : (⟨S_, .i32⟩ : BufTy).Contents (Elt F) → (⟨S3200000, .i32⟩ : BufTy).Contents (Elt F)),
    StableHlo.binary main_v1 main_v134 main_v135 (addi : (⟨S3200000, .i32⟩ : BufTy).Contents (Elt F) → (⟨S3200000, .i32⟩ : BufTy).Contents (Elt F) → (⟨S3200000, .i32⟩ : BufTy).Contents (Elt F)),
    StableHlo.ternary main_v133 main_v135 main_v1 main_v136 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v136 main_v137 (broadcastInDim S3200000x1 ![0] bcast_S3200000_S3200000x1_0 : (⟨S3200000, .i32⟩ : BufTy).Contents (Elt F) → (⟨S3200000x1, .i32⟩ : BufTy).Contents (Elt F)),
    StableHlo.binary main_v127 main_v137 main_v138 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v28 main_v139 (broadcastInDim S3200000x1 ![0] bcast_S3200000_S3200000x1_0 : (⟨S3200000, .f32⟩ : BufTy).Contents (Elt F) → (⟨S3200000x1, .f32⟩ : BufTy).Contents (Elt F)),
    StableHlo.unary main_v139 main_v140 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v138 main_v140 main_v141 (mulf : (⟨S3200000x32, .f32⟩ : BufTy).Contents (Elt F) → (⟨S3200000x32, .f32⟩ : BufTy).Contents (Elt F) → (⟨S3200000x32, .f32⟩ : BufTy).Contents (Elt F)),
    StableHlo.nullary main_cst_23 (constant S_ .f32 0x00000000#32),
    StableHlo.unary main_cst_23 main_v142 (broadcastInDim S100000x32 ![] bcast_S_S100000x32 : (⟨S_, .f32⟩ : BufTy).Contents (Elt F) → (⟨S100000x32, .f32⟩ : BufTy).Contents (Elt F)),
    StableHlo.unary main_v3 main_v143 (broadcastInDim S3200000x1 ![0] bcast_S3200000_S3200000x1_0 : (⟨S3200000, .i32⟩ : BufTy).Contents (Elt F) → (⟨S3200000x1, .i32⟩ : BufTy).Contents (Elt F)),
    StableHlo.ternary main_v142 main_v143 main_v141 main_v144 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.unary main_arg7 main_v145 ((extractStridedSlice S1x1x32x32 ![1, 2, 0, 0] · slices_S2x5x32x32_S1x1x32x32_1_2_0_0) : (⟨S2x5x32x32, .f32⟩ : BufTy).Contents (Elt F) → (⟨S1x1x32x32, .f32⟩ : BufTy).Contents (Elt F)),
    StableHlo.reshape main_v145 main_v146 rfl shapeCasts_S1x1x32x32_S32x32,
    StableHlo.binary main_v144 main_v146 main_v147 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v131 main_v147 main_v148 (addf : (⟨S100000x32, .f32⟩ : BufTy).Contents (Elt F) → (⟨S100000x32, .f32⟩ : BufTy).Contents (Elt F) → (⟨S100000x32, .f32⟩ : BufTy).Contents (Elt F)),
    StableHlo.nullary main_c_24 (constantI S_ 32 0#32),
    StableHlo.unary main_c_24 main_v149 (broadcastInDim S3200000 ![] bcast_S_S3200000 : (⟨S_, .i32⟩ : BufTy).Contents (Elt F) → (⟨S3200000, .i32⟩ : BufTy).Contents (Elt F)),
    StableHlo.binary main_v1 main_v149 main_v150 (cmpi .slt : (⟨S3200000, .i32⟩ : BufTy).Contents (Elt F) → (⟨S3200000, .i32⟩ : BufTy).Contents (Elt F) → (⟨S3200000, .i1⟩ : BufTy).Contents (Elt F)),
    StableHlo.nullary main_c_25 (constantI S_ 32 100000#32),
    StableHlo.unary main_c_25 main_v151 (broadcastInDim S3200000 ![] bcast_S_S3200000 : (⟨S_, .i32⟩ : BufTy).Contents (Elt F) → (⟨S3200000, .i32⟩ : BufTy).Contents (Elt F)) ]

set_option maxRecDepth 16384 in
set_option maxHeartbeats 4000000 in
/-- The window is the straight line of its operations: with the called functions' bodies opened at their calls and the
    sequencing reassociated, both sides are the same chain of steps. -/
theorem main_part2_eq (c : Dev nD) : main_part2 (F := F) c = seq opsP2 := by
  simp only [main_part2, fn_where.body, fn_leaky_relu.body, fn_where_0.body, seq, bind_assoc, pure_bind]
  rfl

set_option maxRecDepth 16384 in
/-- Every buffer an operation of the window touches is a TensorCore buffer. -/
theorem opsP2_sub : (opsP2 : List (HloOp τ sig (Elt F))).Forall fun op => op.bufs ⊆ tcRefs τ sig :=
  ⟨unary_bufs_sub .., ternary_bufs_sub .., unary_bufs_sub .., reshape_bufs_sub .., binary_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., reshape_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., reshape_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., reshape_bufs_sub .., binary_bufs_sub ..,
    binary_bufs_sub .., nullary_bufs_sub .., unary_bufs_sub .., binary_bufs_sub .., nullary_bufs_sub .., unary_bufs_sub ..⟩

set_option maxRecDepth 16384 in
/-- Every operation of the window determines the contents it writes. -/
theorem opsP2_fresh : (opsP2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- The buffers the window's operations write, one per operation, in order. -/
abbrev opsP2_W : List (Ref sig .tc) :=
  [main_v100, main_v101, main_v102, main_v103, main_v104, main_v105, main_v106, main_v107,
    main_v108, main_v109, main_v110, main_call2.cst.ref, main_call2.v0.ref, main_call2.v1.ref, main_call2.cst_0.ref, main_call2.v2.ref,
    main_call2.v3.ref, main_call2.call0.v0.ref, main_v112, main_v113, main_v114, main_c_18, main_v115, main_v116,
    main_c_19, main_v117, main_v118, main_v119, main_v120, main_v121, main_v122, main_v123,
    main_v124, main_cst_20, main_v125, main_v126, main_v127, main_v128, main_v129, main_v130,
    main_v131, main_c_21, main_v132, main_v133, main_c_22, main_v134, main_v135, main_v136,
    main_v137, main_v138, main_v139, main_v140, main_v141, main_cst_23, main_v142, main_v143,
    main_v144, main_v145, main_v146, main_v147, main_v148, main_c_24, main_v149, main_v150,
    main_c_25, main_v151]

set_option maxRecDepth 16384 in
set_option maxHeartbeats 4000000 in
/-- Each operation writes only its own result buffer, which is in the list. -/
theorem opsP2_writes : (opsP2 : List (HloOp τ sig (Elt F))).Forall fun op =>
    op.writes ⊆ (opsP2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write holds after it what it held before. -/
theorem opsP2_keep (V : Valuation τ sig (Elt F)) (r : Ref sig .tc) (h : r ∉ opsP2_W) :
    after opsP2 V (Proc.devRef .tc r) = V (Proc.devRef .tc r) :=
  after_of_writes_sub opsP2 V opsP2_writes h

end Cert.ReferenceIdeal.Hand

end
-- ==== Proof.Ref.Ops3.lean ====
import proofs.«179590_j19610820673795_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The host operations of @main's statements 181 … 240, in program order: each statement's operation as it is printed. The call of `leaky_relu` (statement 221) stands as its six operations followed by the one select of the `_where_0`
    it calls, over the record `main_call3`. -/
abbrev opsP3 : List (HloOp τ sig (Elt F)) :=
  [ StableHlo.binary main_v1 main_v151 main_v152 (addi : (⟨S3200000, .i32⟩ : BufTy).Contents (Elt F) → (⟨S3200000, .i32⟩ : BufTy).Contents (Elt F) → (⟨S3200000, .i32⟩ : BufTy).Contents (Elt F)),
    StableHlo.ternary main_v150 main_v152 main_v1 main_v153 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v153 main_v154 (broadcastInDim S3200000x1 ![0] bcast_S3200000_S3200000x1_0 : (⟨S3200000, .i32⟩ : BufTy).Contents (Elt F) → (⟨S3200000x1, .i32⟩ : BufTy).Contents (Elt F)),
    StableHlo.binary main_v144 main_v154 main_v155 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v28 main_v156 (broadcastInDim S3200000x1 ![0] bcast_S3200000_S3200000x1_0 : (⟨S3200000, .f32⟩ : BufTy).Contents (Elt F) → (⟨S3200000x1, .f32⟩ : BufTy).Contents (Elt F)),
    StableHlo.unary main_v156 main_v157 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v155 main_v157 main_v158 (mulf : (⟨S3200000x32, .f32⟩ : BufTy).Contents (Elt F) → (⟨S3200000x32, .f32⟩ : BufTy).Contents (Elt F) → (⟨S3200000x32, .f32⟩ : BufTy).Contents (Elt F)),
    StableHlo.nullary main_cst_26 (constant S_ .f32 0x00000000#32),
    StableHlo.unary main_cst_26 main_v159 (broadcastInDim S100000x32 ![] bcast_S_S100000x32 : (⟨S_, .f32⟩ : BufTy).Contents (Elt F) → (⟨S100000x32, .f32⟩ : BufTy).Contents (Elt F)),
    StableHlo.unary main_v3 main_v160 (broadcastInDim S3200000x1 ![0] bcast_S3200000_S3200000x1_0 : (⟨S3200000, .i32⟩ : BufTy).Contents (Elt F) → (⟨S3200000x1, .i32⟩ : BufTy).Contents (Elt F)),
    StableHlo.ternary main_v159 main_v160 main_v158 main_v161 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.unary main_arg7 main_v162 ((extractStridedSlice S1x1x32x32 ![1, 3, 0, 0] · slices_S2x5x32x32_S1x1x32x32_1_3_0_0) : (⟨S2x5x32x32, .f32⟩ : BufTy).Contents (Elt F) → (⟨S1x1x32x32, .f32⟩ : BufTy).Contents (Elt F)),
    StableHlo.reshape main_v162 main_v163 rfl shapeCasts_S1x1x32x32_S32x32,
    StableHlo.binary main_v161 main_v163 main_v164 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v148 main_v164 main_v165 (addf : (⟨S100000x32, .f32⟩ : BufTy).Contents (Elt F) → (⟨S100000x32, .f32⟩ : BufTy).Contents (Elt F) → (⟨S100000x32, .f32⟩ : BufTy).Contents (Elt F)),
    StableHlo.nullary main_c_27 (constantI S_ 32 0#32),
    StableHlo.unary main_c_27 main_v166 (broadcastInDim S3200000 ![] bcast_S_S3200000 : (⟨S_, .i32⟩ : BufTy).Contents (Elt F) → (⟨S3200000, .i32⟩ : BufTy).Contents (Elt F)),
    StableHlo.binary main_v1 main_v166 main_v167 (cmpi .slt : (⟨S3200000, .i32⟩ : BufTy).Contents (Elt F) → (⟨S3200000, .i32⟩ : BufTy).Contents (Elt F) → (⟨S3200000, .i1⟩ : BufTy).Contents (Elt F)),
    StableHlo.nullary main_c_28 (constantI S_ 32 100000#32),
    StableHlo.unary main_c_28 main_v168 (broadcastInDim S3200000 ![] bcast_S_S3200000 : (⟨S_, .i32⟩ : BufTy).Contents (Elt F) → (⟨S3200000, .i32⟩ : BufTy).Contents (Elt F)),
    StableHlo.binary main_v1 main_v168 main_v169 (addi : (⟨S3200000, .i32⟩ : BufTy).Contents (Elt F) → (⟨S3200000, .i32⟩ : BufTy).Contents (Elt F) → (⟨S3200000, .i32⟩ : BufTy).Contents (Elt F)),
    StableHlo.ternary main_v167 main_v169 main_v1 main_v170 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v170 main_v171 (broadcastInDim S3200000x1 ![0] bcast_S3200000_S3200000x1_0 : (⟨S3200000, .i32⟩ : BufTy).Contents (Elt F) → (⟨S3200000x1, .i32⟩ : BufTy).Contents (Elt F)),
    StableHlo.binary main_v161 main_v171 main_v172 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.unary main_v28 main_v173 (broadcastInDim S3200000x1 ![0] bcast_S3200000_S3200000x1_0 : (⟨S3200000, .f32⟩ : BufTy).Contents (Elt F) → (⟨S3200000x1, .f32⟩ : BufTy).Contents (Elt F)),
    StableHlo.unary main_v173 main_v174 (broadcastInDim S3200000x32 ![0, 1] bcast_S3200000x1_S3200000x32_0_1 : (⟨S3200000x1, .f32⟩ : BufTy).Contents (Elt F) → (⟨S3200000x32, .f32⟩ : BufTy).Contents (Elt F)),
    StableHlo.binary main_v172 main_v174 main_v175 (mulf : (⟨S3200000x32, .f32⟩ : BufTy).Contents (Elt F) → (⟨S3200000x32, .f32⟩ : BufTy).Contents (Elt F) → (⟨S3200000x32, .f32⟩ : BufTy).Contents (Elt F)),
    StableHlo.nullary main_cst_29 (constant S_ .f32 0x00000000#32),
    StableHlo.unary main_cst_29 main_v176 (broadcastInDim S100000x32 ![] bcast_S_S100000x32 : (⟨S_, .f32⟩ : BufTy).Contents (Elt F) → (⟨S100000x32, .f32⟩ : BufTy).Contents (Elt F)),
    StableHlo.unary main_v3 main_v177 (broadcastInDim S3200000x1 ![0] bcast_S3200000_S3200000x1_0 : (⟨S3200000, .i32⟩ : BufTy).Contents (Elt F) → (⟨S3200000x1, .i32⟩ : BufTy).Contents (Elt F)),
    StableHlo.ternary main_v176 main_v177 main_v175 main_v178 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.unary main_arg7 main_v179 ((extractStridedSlice S1x1x32x32 ![1, 4, 0, 0] · slices_S2x5x32x32_S1x1x32x32_1_4_0_0) : (⟨S2x5x32x32, .f32⟩ : BufTy).Contents (Elt F) → (⟨S1x1x32x32, .f32⟩ : BufTy).Contents (Elt F)),
    StableHlo.reshape main_v179 main_v180 rfl shapeCasts_S1x1x32x32_S32x32,
    StableHlo.binary main_v178 main_v180 main_v181 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.binary main_v165 main_v181 main_v182 (addf : (⟨S100000x32, .f32⟩ : BufTy).Contents (Elt F) → (⟨S100000x32, .f32⟩ : BufTy).Contents (Elt F) → (⟨S100000x32, .f32⟩ : BufTy).Contents (Elt F)),
    StableHlo.unary main_arg8 main_v183 ((extractStridedSlice S1x32 ![1, 0] · slices_S2x32_S1x32_1_0) : (⟨S2x32, .f32⟩ : BufTy).Contents (Elt F) → (⟨S1x32, .f32⟩ : BufTy).Contents (Elt F)),
    StableHlo.reshape main_v183 main_v184 rfl shapeCasts_S1x32_S32,
    StableHlo.unary main_v184 main_v185 (broadcastInDim S1x32 ![1] bcast_S32_S1x32_1 : (⟨S32, .f32⟩ : BufTy).Contents (Elt F) → (⟨S1x32, .f32⟩ : BufTy).Contents (Elt F)),
    StableHlo.unary main_v185 main_v186 (broadcastInDim S100000x32 ![0, 1] bcast_S1x32_S100000x32_0_1 : (⟨S1x32, .f32⟩ : BufTy).Contents (Elt F) → (⟨S100000x32, .f32⟩ : BufTy).Contents (Elt F)),
    StableHlo.binary main_v182 main_v186 main_v187 (addf : (⟨S100000x32, .f32⟩ : BufTy).Contents (Elt F) → (⟨S100000x32, .f32⟩ : BufTy).Contents (Elt F) → (⟨S100000x32, .f32⟩ : BufTy).Contents (Elt F)),
    StableHlo.TRef.nullary main_call3.cst (constant S_ .f32 0x00000000#32),
    StableHlo.TRef.unary main_call3.cst main_call3.v0 (broadcastInDim S100000x32 ![] bcast_S_S100000x32),
    StableHlo.TRef.binary (.of main_v187 : StableHlo.TRef sig ⟨S100000x32, .f32⟩) main_call3.v0 main_call3.v1 (cmpf .oge),
    StableHlo.TRef.nullary main_call3.cst_0 (constant S_ .f32 0x3C23D70A#32),
    StableHlo.TRef.unary main_call3.cst_0 main_call3.v2 (broadcastInDim S100000x32 ![] bcast_S_S100000x32),
    StableHlo.TRef.binary main_call3.v2 (.of main_v187 : StableHlo.TRef sig ⟨S100000x32, .f32⟩) main_call3.v3 mulf,
    StableHlo.TRef.ternary main_call3.v1 (.of main_v187 : StableHlo.TRef sig ⟨S100000x32, .f32⟩) main_call3.v3 main_call3.call0.v0 select,
    StableHlo.binary main_v188 main_arg9 main_v189 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    StableHlo.unary main_arg10 main_v190 (broadcastInDim S1x1 ![1] bcast_S1_S1x1_1 : (⟨S1, .f32⟩ : BufTy).Contents (Elt F) → (⟨S1x1, .f32⟩ : BufTy).Contents (Elt F)),
    StableHlo.unary main_v190 main_v191 (broadcastInDim S100000x1 ![0, 1] bcast_S1x1_S100000x1_0_1 : (⟨S1x1, .f32⟩ : BufTy).Contents (Elt F) → (⟨S100000x1, .f32⟩ : BufTy).Contents (Elt F)),
    StableHlo.binary main_v189 main_v191 main_v192 (addf : (⟨S100000x1, .f32⟩ : BufTy).Contents (Elt F) → (⟨S100000x1, .f32⟩ : BufTy).Contents (Elt F) → (⟨S100000x1, .f32⟩ : BufTy).Contents (Elt F)),
    StableHlo.nullary main_cst_30 (constant S_ .f32 0x00000000#32),
    StableHlo.unary main_cst_30 main_v193 (broadcastInDim S100x1 ![] bcast_S_S100x1 : (⟨S_, .f32⟩ : BufTy).Contents (Elt F) → (⟨S100x1, .f32⟩ : BufTy).Contents (Elt F)),
    StableHlo.unary main_arg4 main_v194 (broadcastInDim S100000x1 ![0] bcast_S100000_S100000x1_0 : (⟨S100000, .i32⟩ : BufTy).Contents (Elt F) → (⟨S100000x1, .i32⟩ : BufTy).Contents (Elt F)),
    StableHlo.ternary main_v193 main_v194 main_v192 main_v195 ((fun x i u => Host.scatterAdd scatter_S100x1_S100000x1_S100000x1_1_0_0_1 x i u) : (⟨S100x1, .f32⟩ : BufTy).Contents (Elt F) → (⟨S100000x1, .i32⟩ : BufTy).Contents (Elt F) → (⟨S100000x1, .f32⟩ : BufTy).Contents (Elt F) → (⟨S100x1, .f32⟩ : BufTy).Contents (Elt F)),
    StableHlo.nullary main_cst_31 (constant S_ .f32 0x3F800000#32),
    StableHlo.unary main_cst_31 main_v196 (broadcastInDim S100000x1 ![] bcast_S_S100000x1 : (⟨S_, .f32⟩ : BufTy).Contents (Elt F) → (⟨S100000x1, .f32⟩ : BufTy).Contents (Elt F)),
    StableHlo.nullary main_cst_32 (constant S_ .f32 0x00000000#32),
    StableHlo.unary main_cst_32 main_v197 (broadcastInDim S100x1 ![] bcast_S_S100x1 : (⟨S_, .f32⟩ : BufTy).Contents (Elt F) → (⟨S100x1, .f32⟩ : BufTy).Contents (Elt F)),
    StableHlo.unary main_arg4 main_v198 (broadcastInDim S100000x1 ![0] bcast_S100000_S100000x1_0 : (⟨S100000, .i32⟩ : BufTy).Contents (Elt F) → (⟨S100000x1, .i32⟩ : BufTy).Contents (Elt F)),
    StableHlo.ternary main_v197 main_v198 main_v196 main_v199 ((fun x i u => Host.scatterAdd scatter_S100x1_S100000x1_S100000x1_1_0_0_1 x i u) : (⟨S100x1, .f32⟩ : BufTy).Contents (Elt F) → (⟨S100000x1, .i32⟩ : BufTy).Contents (Elt F) → (⟨S100000x1, .f32⟩ : BufTy).Contents (Elt F) → (⟨S100x1, .f32⟩ : BufTy).Contents (Elt F)),
    StableHlo.nullary main_cst_33 (constant S_ .f32 0x3F800000#32),
    StableHlo.unary main_cst_33 main_v200 (broadcastInDim S100x1 ![] bcast_S_S100x1 : (⟨S_, .f32⟩ : BufTy).Contents (Elt F) → (⟨S100x1, .f32⟩ : BufTy).Contents (Elt F)),
    StableHlo.binary main_v199 main_v200 main_v201 (maximumf : (⟨S100x1, .f32⟩ : BufTy).Contents (Elt F) → (⟨S100x1, .f32⟩ : BufTy).Contents (Elt F) → (⟨S100x1, .f32⟩ : BufTy).Contents (Elt F)),
    StableHlo.binary main_v195 main_v201 main_v202 (Host.divf : (⟨S100x1, .f32⟩ : BufTy).Contents (Elt F) → (⟨S100x1, .f32⟩ : BufTy).Contents (Elt F) → (⟨S100x1, .f32⟩ : BufTy).Contents (Elt F)) ]

set_option maxRecDepth 16384 in
set_option maxHeartbeats 4000000 in
/-- The window is the straight line of its operations: with the called functions' bodies opened at their calls and the
    sequencing reassociated, both sides are the same chain of steps. -/
theorem main_part3_eq (c : Dev nD) : main_part3 (F := F) c = seq opsP3 := by
  simp only [main_part3, fn_where.body, fn_leaky_relu.body, fn_where_0.body, seq, bind_assoc, pure_bind]

set_option maxRecDepth 16384 in
/-- Every buffer an operation of the window touches is a TensorCore buffer. -/
theorem opsP3_sub : (opsP3 : List (HloOp τ sig (Elt F))).Forall fun op => op.bufs ⊆ tcRefs τ sig :=
  ⟨binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    reshape_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., reshape_bufs_sub .., binary_bufs_sub .., binary_bufs_sub .., unary_bufs_sub ..,
    reshape_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., binary_bufs_sub ..⟩

set_option maxRecDepth 16384 in
/-- Every operation of the window determines the contents it writes. -/
theorem opsP3_fresh : (opsP3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

/-- The buffers the window's operations write, one per operation, in order. -/
abbrev opsP3_W : List (Ref sig .tc) :=
  [main_v152, main_v153, main_v154, main_v155, main_v156, main_v157, main_v158, main_cst_26,
    main_v159, main_v160, main_v161, main_v162, main_v163, main_v164, main_v165, main_c_27,
    main_v166, main_v167, main_c_28, main_v168, main_v169, main_v170, main_v171, main_v172,
    main_v173, main_v174, main_v175, main_cst_29, main_v176, main_v177, main_v178, main_v179,
    main_v180, main_v181, main_v182, main_v183, main_v184, main_v185, main_v186, main_v187,
    main_call3.cst.ref, main_call3.v0.ref, main_call3.v1.ref, main_call3.cst_0.ref, main_call3.v2.ref, main_call3.v3.ref, main_call3.call0.v0.ref, main_v189,
    main_v190, main_v191, main_v192, main_cst_30, main_v193, main_v194, main_v195, main_cst_31,
    main_v196, main_cst_32, main_v197, main_v198, main_v199, main_cst_33, main_v200, main_v201,
    main_v202]

set_option maxRecDepth 16384 in
set_option maxHeartbeats 4000000 in
/-- Each operation writes only its own result buffer, which is in the list. -/
theorem opsP3_writes : (opsP3 : List (HloOp τ sig (Elt F))).Forall fun op =>
    op.writes ⊆ (opsP3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write holds after it what it held before. -/
theorem opsP3_keep (V : Valuation τ sig (Elt F)) (r : Ref sig .tc) (h : r ∉ opsP3_W) :
    after opsP3 V (Proc.devRef .tc r) = V (Proc.devRef .tc r) :=
  after_of_writes_sub opsP3 V opsP3_writes h

end Cert.ReferenceIdeal.Hand

end
-- ==== Proof.Ref.Run.lean ====
import proofs.«179590_j19610820673795_1_alg».proof.Proof.Ref.Ops0
import proofs.«179590_j19610820673795_1_alg».proof.Proof.Ref.Ops1
import proofs.«179590_j19610820673795_1_alg».proof.Proof.Ref.Ops2
import proofs.«179590_j19610820673795_1_alg».proof.Proof.Ref.Ops3
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's host operations, in program order: the four windows' lists one after the other. -/
abbrev ops : List (HloOp τ sig (Elt F)) := opsP0 ++ (opsP1 ++ (opsP2 ++ opsP3))

/-- @main runs its four windows in order, and each window is the straight line of its operations: so @main is the
    straight line of all of them. -/
theorem main_eq (c : Dev nD) : main (F := F) c = seq ops := by
  simp only [ops, seq_append, ← main_part0_eq c, ← main_part1_eq c, ← main_part2_eq c, ← main_part3_eq c]
  rfl

/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide

/-- Every buffer an operation touches is a TensorCore buffer: window by window. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsP0_sub op h, List.forall_iff_forall_mem.mp opsP1_sub op h,
      List.forall_iff_forall_mem.mp opsP2_sub op h, List.forall_iff_forall_mem.mp opsP3_sub op h]

/-- Every operation determines the contents it writes: window by window. -/
theorem ops_fresh : ∀ op ∈ (ops : List (HloOp τ sig (Elt F))), op.fresh = ∅ := fun op h => by
  simp only [ops, List.mem_append] at h
  rcases h with h | h | h | h
  exacts [List.forall_iff_forall_mem.mp opsP0_fresh op h, List.forall_iff_forall_mem.mp opsP1_fresh op h,
    List.forall_iff_forall_mem.mp opsP2_fresh op h, List.forall_iff_forall_mem.mp opsP3_fresh op h]

/-- The contents after the whole line are the windows' folds composed in program order. -/
theorem after_ops (V : Valuation τ sig (Elt F)) :
    after ops V = after opsP3 (after opsP2 (after opsP1 (after opsP0 V))) := by
  simp only [ops, after_append]

/-- At the compiled mesh, for any float values, from any memory with zero counters: every weakly fair execution of
    @main on the TensorCores terminates without a fault, and in every final state each TensorCore buffer holds the
    fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- A buffer none of the four windows writes holds after the whole line what it held before. -/
theorem ops_keep (V : Valuation τ sig (Elt F)) (r : Ref sig .tc)
    (h0 : r ∉ opsP0_W) (h1 : r ∉ opsP1_W) (h2 : r ∉ opsP2_W) (h3 : r ∉ opsP3_W) :
    after ops V (Proc.devRef .tc r) = V (Proc.devRef .tc r) := by
  rw [after_ops, opsP3_keep _ r h3, opsP2_keep _ r h2, opsP1_keep _ r h1, opsP0_keep _ r h0]

/-- No operation writes argument 0. -/
theorem arg0_eq (V : Valuation τ sig (Elt F)) : after ops V (main_arg0 : DevRef τ sig) = V (main_arg0 : DevRef τ sig) :=
  ops_keep V main_arg0 (by decide) (by decide) (by decide) (by decide)
/-- No operation writes argument 1. -/
theorem arg1_eq (V : Valuation τ sig (Elt F)) : after ops V (main_arg1 : DevRef τ sig) = V (main_arg1 : DevRef τ sig) :=
  ops_keep V main_arg1 (by decide) (by decide) (by decide) (by decide)
/-- No operation writes argument 2. -/
theorem arg2_eq (V : Valuation τ sig (Elt F)) : after ops V (main_arg2 : DevRef τ sig) = V (main_arg2 : DevRef τ sig) :=
  ops_keep V main_arg2 (by decide) (by decide) (by decide) (by decide)
/-- No operation writes argument 3. -/
theorem arg3_eq (V : Valuation τ sig (Elt F)) : after ops V (main_arg3 : DevRef τ sig) = V (main_arg3 : DevRef τ sig) :=
  ops_keep V main_arg3 (by decide) (by decide) (by decide) (by decide)
/-- No operation writes argument 4. -/
theorem arg4_eq (V : Valuation τ sig (Elt F)) : after ops V (main_arg4 : DevRef τ sig) = V (main_arg4 : DevRef τ sig) :=
  ops_keep V main_arg4 (by decide) (by decide) (by decide) (by decide)
/-- No operation writes argument 5. -/
theorem arg5_eq (V : Valuation τ sig (Elt F)) : after ops V (main_arg5 : DevRef τ sig) = V (main_arg5 : DevRef τ sig) :=
  ops_keep V main_arg5 (by decide) (by decide) (by decide) (by decide)
/-- No operation writes argument 6. -/
theorem arg6_eq (V : Valuation τ sig (Elt F)) : after ops V (main_arg6 : DevRef τ sig) = V (main_arg6 : DevRef τ sig) :=
  ops_keep V main_arg6 (by decide) (by decide) (by decide) (by decide)
/-- No operation writes argument 7. -/
theorem arg7_eq (V : Valuation τ sig (Elt F)) : after ops V (main_arg7 : DevRef τ sig) = V (main_arg7 : DevRef τ sig) :=
  ops_keep V main_arg7 (by decide) (by decide) (by decide) (by decide)
/-- No operation writes argument 8. -/
theorem arg8_eq (V : Valuation τ sig (Elt F)) : after ops V (main_arg8 : DevRef τ sig) = V (main_arg8 : DevRef τ sig) :=
  ops_keep V main_arg8 (by decide) (by decide) (by decide) (by decide)
/-- No operation writes argument 9. -/
theorem arg9_eq (V : Valuation τ sig (Elt F)) : after ops V (main_arg9 : DevRef τ sig) = V (main_arg9 : DevRef τ sig) :=
  ops_keep V main_arg9 (by decide) (by decide) (by decide) (by decide)
/-- No operation writes argument 10. -/
theorem arg10_eq (V : Valuation τ sig (Elt F)) : after ops V (main_arg10 : DevRef τ sig) = V (main_arg10 : DevRef τ sig) :=
  ops_keep V main_arg10 (by decide) (by decide) (by decide) (by decide)

/-- The reference terminates without a fault on every weakly fair execution and its eleven argument arrays end as
    they started. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
      ⟨(h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c)),
       (h c main_arg6).trans (arg6_eq (launchContents m c)),
       (h c main_arg7).trans (arg7_eq (launchContents m c)),
       (h c main_arg8).trans (arg8_eq (launchContents m c)),
       (h c main_arg9).trans (arg9_eq (launchContents m c)),
       (h c main_arg10).trans (arg10_eq (launchContents m c))⟩)
    (run_main m ρ)

end Cert.ReferenceIdeal.Hand

end
-- ==== Proof.Ref.StageDefs.lean ====
/-
  The reference's propagation step in two halves (a host window of the reference ends between them), and its tap
  layer as one function of the incoming feature matrix: four propagation steps, five products, the bias, the rectifier.
-/
import proofs.«179590_j19610820673795_1_alg».proof.Proof.HostDefs

noncomputable section

namespace Cert.ReferenceIdeal.HV

open Cert.ReferenceIdeal Cert.ReferenceIdeal.Facts₀ Idealize.ShloMosaic Idealize.ShloMosaic.TcCoe

variable {F : FTy → Type} [FloatOps F]

/-- The all-zero matrix a propagation step sums into. -/
def zeros32 : C (F := F) S100000x32 .f32 :=
  broadcastInDim S100000x32 ![] bcast_S_S100000x32 (constant S_ .f32 0x00000000#32)

/-- What every edge carries: its source's feature row scaled by the edge's normalisation. -/
def msg (row : C (F := F) S3200000 .i32) (norm : C (F := F) S3200000 .f32) (z : C (F := F) S100000x32 .f32) :
    C (F := F) S3200000x32 .f32 :=
  mulf (Host.gather gather_S100000x32_S3200000x1_S3200000x32_1_0_n_n_0_1_132 z (wrapIdx row))
    (broadcastInDim S3200000x32 ![0, 1] bcast_S3200000x1_S3200000x32_0_1
      (broadcastInDim S3200000x1 ![0] bcast_S3200000_S3200000x1_0 norm))

/-- A node index as a gather reads it, from the comparison with zero and the shift already computed. -/
def wrapWith (neg : C (F := F) S3200000 .i1) (shift : C (F := F) S3200000 .i32) (r : C (F := F) S3200000 .i32) :
    C (F := F) S3200000x1 .i32 :=
  broadcastInDim S3200000x1 ![0] bcast_S3200000_S3200000x1_0 (select neg (addi r shift) r)

/-- What every edge carries, from an index column already prepared. -/
def gmsg (widx : C (F := F) S3200000x1 .i32) (norm : C (F := F) S3200000 .f32) (z : C (F := F) S100000x32 .f32) :
    C (F := F) S3200000x32 .f32 :=
  mulf (Host.gather gather_S100000x32_S3200000x1_S3200000x32_1_0_n_n_0_1_132 z widx)
    (broadcastInDim S3200000x32 ![0, 1] bcast_S3200000x1_S3200000x32_0_1
      (broadcastInDim S3200000x1 ![0] bcast_S3200000_S3200000x1_0 norm))

/-- Every node sums what its incoming edges carry, onto a starting matrix. -/
def agg (col : C (F := F) S3200000 .i32) (z0 : C (F := F) S100000x32 .f32) (ms : C (F := F) S3200000x32 .f32) :
    C (F := F) S100000x32 .f32 :=
  Host.scatterAdd scatter_S100000x32_S3200000x1_S3200000x32_1_0_0_1 z0
    (broadcastInDim S3200000x1 ![0] bcast_S3200000_S3200000x1_0 col) ms

/-- A propagation step is the sum, onto zeros, of what the edges carry. -/
theorem prop_eq (row col : C (F := F) S3200000 .i32) (norm : C (F := F) S3200000 .f32) (z : C (F := F) S100000x32 .f32) :
    prop row col norm z = agg col zeros32 (msg row norm z) := rfl

/-- The tap layer from its incoming feature matrix h: the four propagated matrices, then the five products, the
    bias and the rectifier. -/
def layerR (row col : C (F := F) S3200000 .i32) (norm : C (F := F) S3200000 .f32) (h : C (F := F) S100000x32 .f32)
    (w0 w1 w2 w3 w4 : C (F := F) S32x32 .f32) (b : C (F := F) S32 .f32) : C (F := F) S100000x32 .f32 :=
  tap h (prop row col norm h) (prop row col norm (prop row col norm h))
    (prop row col norm (prop row col norm (prop row col norm h)))
    (prop row col norm (prop row col norm (prop row col norm (prop row col norm h)))) w0 w1 w2 w3 w4 b

end Cert.ReferenceIdeal.HV

end
-- ==== Proof.Ref.ValDef.lean ====
/-
  What the reference computes at the ideal instance, as one function of its eleven argument arrays, written with
  the host functions exactly as the reference composes them.
-/
import proofs.«179590_j19610820673795_1_alg».proof.Proof.Ref.StageDefs

noncomputable section

namespace Cert.ReferenceIdeal.RVal

open Cert.ReferenceIdeal Cert.ReferenceIdeal.Facts₀ Idealize.ShloMosaic

variable {F : FTy → Type} [FloatOps F]

local notation "CF" => HV.C (F := F)

/-- The edge normalisation from the edge table and the edge weights. -/
def nrmR (a2 : CF S2x3200000 .i32) (a3 : CF S3200000 .f32) : CF S3200000 .f32 :=
  HV.normOf (HV.rowOf a2) (HV.colOf a2) a3 (HV.dinvOf (HV.degOf (HV.colOf a2) a3))

/-- The reference's result as a function of its arguments. -/
def rval (a0 : CF S100000x8 .f32) (a1 : CF S100000x2 .f32) (a2 : CF S2x3200000 .i32) (a3 : CF S3200000 .f32)
    (a4 : CF S100000 .i32) (a5 : CF S10x32 .f32) (a6 : CF S32 .f32) (a7 : CF S2x5x32x32 .f32) (a8 : CF S2x32 .f32)
    (a9 : CF S32x1 .f32) (a10 : CF S1 .f32) : CF S100x1 .f32 :=
  HV.tailOf a4
    (HV.outLin
      (HV.layerR (HV.rowOf a2) (HV.colOf a2) (nrmR a2 a3)
        (HV.layerR (HV.rowOf a2) (HV.colOf a2) (nrmR a2 a3) (HV.dense0 (HV.xOf a0 a1) a5 a6)
          (HV.wSlice ![0, 0, 0, 0] Facts₀.slices_S2x5x32x32_S1x1x32x32_0_0_0_0 a7) (HV.wSlice ![0, 1, 0, 0] Facts₀.slices_S2x5x32x32_S1x1x32x32_0_1_0_0 a7) (HV.wSlice ![0, 2, 0, 0] Facts₀.slices_S2x5x32x32_S1x1x32x32_0_2_0_0 a7) (HV.wSlice ![0, 3, 0, 0] Facts₀.slices_S2x5x32x32_S1x1x32x32_0_3_0_0 a7) (HV.wSlice ![0, 4, 0, 0] Facts₀.slices_S2x5x32x32_S1x1x32x32_0_4_0_0 a7) (HV.bSlice ![0, 0] Facts₀.slices_S2x32_S1x32_0_0 a8))
        (HV.wSlice ![1, 0, 0, 0] Facts₀.slices_S2x5x32x32_S1x1x32x32_1_0_0_0 a7) (HV.wSlice ![1, 1, 0, 0] Facts₀.slices_S2x5x32x32_S1x1x32x32_1_1_0_0 a7) (HV.wSlice ![1, 2, 0, 0] Facts₀.slices_S2x5x32x32_S1x1x32x32_1_2_0_0 a7) (HV.wSlice ![1, 3, 0, 0] Facts₀.slices_S2x5x32x32_S1x1x32x32_1_3_0_0 a7) (HV.wSlice ![1, 4, 0, 0] Facts₀.slices_S2x5x32x32_S1x1x32x32_1_4_0_0 a7) (HV.bSlice ![1, 0] Facts₀.slices_S2x32_S1x32_1_0 a8))
      a9 a10)

end Cert.ReferenceIdeal.RVal

end
-- ==== Proof.Ref.Stage0.lean ====
/-
  The reference's first window of host operations read as functions of the argument arrays: the edge endpoints and
  normalisation, the read-in layer, its product with the first weight slice of layer 0, and the first half of the
  first propagation step.
-/
import proofs.«179590_j19610820673795_1_alg».proof.Proof.Ref.Ops0
import proofs.«179590_j19610820673795_1_alg».proof.Proof.Ref.StageDefs
import proofs.«179590_j19610820673795_1_alg».proof.Proof.LibLineResults

set_option maxRecDepth 16384

noncomputable section

namespace Cert.ReferenceIdeal.Stage

open Cert.ReferenceIdeal Cert.ReferenceIdeal.Hand Cert.ReferenceIdeal.Facts₀ Idealize.ShloMosaic Idealize.ShloMosaic.TcCoe Idealize.ShloMosaic.StableHlo

variable {F : FTy → Type} [FloatOps F]

local notation "⟪" V ", " b "⟫" => V (b : DevRef τ sig)

theorem r0_v1 (V : Valuation τ sig (Elt F)) :
    after opsP0 V (main_v1 : DevRef τ sig) = HV.rowOf ⟪V, main_arg2⟫ := by
  simp only [opsP0]
  line_results
  rfl

theorem r0_v3 (V : Valuation τ sig (Elt F)) :
    after opsP0 V (main_v3 : DevRef τ sig) = HV.colOf ⟪V, main_arg2⟫ := by
  simp only [opsP0]
  line_results
  rfl

theorem r0_v28 (V : Valuation τ sig (Elt F)) :
    after opsP0 V (main_v28 : DevRef τ sig) = (HV.normOf (HV.rowOf ⟪V, main_arg2⟫) (HV.colOf ⟪V, main_arg2⟫) ⟪V, main_arg3⟫ (HV.dinvOf (HV.degOf (HV.colOf ⟪V, main_arg2⟫) ⟪V, main_arg3⟫))) := by
  simp only [opsP0]
  line_results
  rfl

theorem r0_v34 (V : Valuation τ sig (Elt F)) :
    after opsP0 V (main_v34 : DevRef τ sig) = (HV.dense0 (HV.xOf ⟪V, main_arg0⟫ ⟪V, main_arg1⟫) ⟪V, main_arg5⟫ ⟪V, main_arg6⟫) := by
  simp only [opsP0]
  line_results
  rfl

theorem r0_v37 (V : Valuation τ sig (Elt F)) :
    after opsP0 V (main_v37 : DevRef τ sig) = HV.mm (HV.dense0 (HV.xOf ⟪V, main_arg0⟫ ⟪V, main_arg1⟫) ⟪V, main_arg5⟫ ⟪V, main_arg6⟫) (HV.wSlice ![0, 0, 0, 0] Facts₀.slices_S2x5x32x32_S1x1x32x32_0_0_0_0 ⟪V, main_arg7⟫) := by
  simp only [opsP0]
  line_results
  rfl

theorem r0_v47 (V : Valuation τ sig (Elt F)) :
    after opsP0 V (main_v47 : DevRef τ sig) = HV.msg (HV.rowOf ⟪V, main_arg2⟫) (HV.normOf (HV.rowOf ⟪V, main_arg2⟫) (HV.colOf ⟪V, main_arg2⟫) ⟪V, main_arg3⟫ (HV.dinvOf (HV.degOf (HV.colOf ⟪V, main_arg2⟫) ⟪V, main_arg3⟫))) (HV.dense0 (HV.xOf ⟪V, main_arg0⟫ ⟪V, main_arg1⟫) ⟪V, main_arg5⟫ ⟪V, main_arg6⟫) := by
  simp only [opsP0]
  line_results
  rfl

theorem r0_v48 (V : Valuation τ sig (Elt F)) :
    after opsP0 V (main_v48 : DevRef τ sig) = HV.zeros32 := by
  simp only [opsP0]
  line_results
  rfl

end Cert.ReferenceIdeal.Stage

end
-- ==== Proof.Ref.Stage1.lean ====
/-
  The reference's second window of host operations: the first propagation step completed, two more steps, the
  running sum of products through the fourth weight slice of layer 0, and the first half of the fourth step.
-/
import proofs.«179590_j19610820673795_1_alg».proof.Proof.Ref.Ops1
import proofs.«179590_j19610820673795_1_alg».proof.Proof.Ref.StageDefs
import proofs.«179590_j19610820673795_1_alg».proof.Proof.LibLineResults

set_option maxRecDepth 16384

noncomputable section

namespace Cert.ReferenceIdeal.Stage

open Cert.ReferenceIdeal Cert.ReferenceIdeal.Hand Cert.ReferenceIdeal.Facts₀ Idealize.ShloMosaic Idealize.ShloMosaic.TcCoe Idealize.ShloMosaic.StableHlo

variable {F : FTy → Type} [FloatOps F]

local notation "⟪" V ", " b "⟫" => V (b : DevRef τ sig)

theorem r1_v88 (V : Valuation τ sig (Elt F)) :
    after opsP1 V (main_v88 : DevRef τ sig) = (addf (addf (addf ⟪V, main_v37⟫ (HV.mm (HV.agg ⟪V, main_v3⟫ ⟪V, main_v48⟫ ⟪V, main_v47⟫) (HV.wSlice ![0, 1, 0, 0] Facts₀.slices_S2x5x32x32_S1x1x32x32_0_1_0_0 ⟪V, main_arg7⟫))) (HV.mm (HV.prop ⟪V, main_v1⟫ ⟪V, main_v3⟫ ⟪V, main_v28⟫ (HV.agg ⟪V, main_v3⟫ ⟪V, main_v48⟫ ⟪V, main_v47⟫)) (HV.wSlice ![0, 2, 0, 0] Facts₀.slices_S2x5x32x32_S1x1x32x32_0_2_0_0 ⟪V, main_arg7⟫))) (HV.mm (HV.prop ⟪V, main_v1⟫ ⟪V, main_v3⟫ ⟪V, main_v28⟫ (HV.prop ⟪V, main_v1⟫ ⟪V, main_v3⟫ ⟪V, main_v28⟫ (HV.agg ⟪V, main_v3⟫ ⟪V, main_v48⟫ ⟪V, main_v47⟫))) (HV.wSlice ![0, 3, 0, 0] Facts₀.slices_S2x5x32x32_S1x1x32x32_0_3_0_0 ⟪V, main_arg7⟫))) := by
  simp only [opsP1]
  line_results
  rfl

theorem r1_v98 (V : Valuation τ sig (Elt F)) :
    after opsP1 V (main_v98 : DevRef τ sig) = HV.msg ⟪V, main_v1⟫ ⟪V, main_v28⟫ (HV.prop ⟪V, main_v1⟫ ⟪V, main_v3⟫ ⟪V, main_v28⟫ (HV.prop ⟪V, main_v1⟫ ⟪V, main_v3⟫ ⟪V, main_v28⟫ (HV.agg ⟪V, main_v3⟫ ⟪V, main_v48⟫ ⟪V, main_v47⟫))) := by
  simp only [opsP1]
  line_results
  rfl

theorem r1_v99 (V : Valuation τ sig (Elt F)) :
    after opsP1 V (main_v99 : DevRef τ sig) = HV.zeros32 := by
  simp only [opsP1]
  line_results
  rfl

end Cert.ReferenceIdeal.Stage

end
-- ==== Proof.Ref.Stage2.lean ====
/-
  The reference's third window of host operations: the fourth propagation step and the rest of the first tap layer,
  then the second tap layer's first two propagation steps and its running sum through the third weight slice.
-/
import proofs.«179590_j19610820673795_1_alg».proof.Proof.Ref.Ops2
import proofs.«179590_j19610820673795_1_alg».proof.Proof.Ref.StageDefs
import proofs.«179590_j19610820673795_1_alg».proof.Proof.LibLineResults

set_option maxRecDepth 16384

noncomputable section

namespace Cert.ReferenceIdeal.Stage

open Cert.ReferenceIdeal Cert.ReferenceIdeal.Hand Cert.ReferenceIdeal.Facts₀ Idealize.ShloMosaic Idealize.ShloMosaic.TcCoe Idealize.ShloMosaic.StableHlo

variable {F : FTy → Type} [FloatOps F]

local notation "⟪" V ", " b "⟫" => V (b : DevRef τ sig)

theorem r2_v111 (V : Valuation τ sig (Elt F)) :
    after opsP2 V (main_v111 : DevRef τ sig) = (HV.leaky (addf (addf ⟪V, main_v88⟫ (HV.mm (HV.agg ⟪V, main_v3⟫ ⟪V, main_v99⟫ ⟪V, main_v98⟫) (HV.wSlice ![0, 4, 0, 0] Facts₀.slices_S2x5x32x32_S1x1x32x32_0_4_0_0 ⟪V, main_arg7⟫))) (HV.biasRows (HV.bSlice ![0, 0] Facts₀.slices_S2x32_S1x32_0_0 ⟪V, main_arg8⟫)))) := by
  simp only [opsP2]
  line_results
  rfl

theorem r2_v144 (V : Valuation τ sig (Elt F)) :
    after opsP2 V (main_v144 : DevRef τ sig) = (HV.prop ⟪V, main_v1⟫ ⟪V, main_v3⟫ ⟪V, main_v28⟫ (HV.prop ⟪V, main_v1⟫ ⟪V, main_v3⟫ ⟪V, main_v28⟫ (HV.leaky (addf (addf ⟪V, main_v88⟫ (HV.mm (HV.agg ⟪V, main_v3⟫ ⟪V, main_v99⟫ ⟪V, main_v98⟫) (HV.wSlice ![0, 4, 0, 0] Facts₀.slices_S2x5x32x32_S1x1x32x32_0_4_0_0 ⟪V, main_arg7⟫))) (HV.biasRows (HV.bSlice ![0, 0] Facts₀.slices_S2x32_S1x32_0_0 ⟪V, main_arg8⟫)))))) := by
  simp only [opsP2]
  line_results
  rfl

theorem r2_v148 (V : Valuation τ sig (Elt F)) :
    after opsP2 V (main_v148 : DevRef τ sig) = (addf (addf (HV.mm (HV.leaky (addf (addf ⟪V, main_v88⟫ (HV.mm (HV.agg ⟪V, main_v3⟫ ⟪V, main_v99⟫ ⟪V, main_v98⟫) (HV.wSlice ![0, 4, 0, 0] Facts₀.slices_S2x5x32x32_S1x1x32x32_0_4_0_0 ⟪V, main_arg7⟫))) (HV.biasRows (HV.bSlice ![0, 0] Facts₀.slices_S2x32_S1x32_0_0 ⟪V, main_arg8⟫)))) (HV.wSlice ![1, 0, 0, 0] Facts₀.slices_S2x5x32x32_S1x1x32x32_1_0_0_0 ⟪V, main_arg7⟫)) (HV.mm (HV.prop ⟪V, main_v1⟫ ⟪V, main_v3⟫ ⟪V, main_v28⟫ (HV.leaky (addf (addf ⟪V, main_v88⟫ (HV.mm (HV.agg ⟪V, main_v3⟫ ⟪V, main_v99⟫ ⟪V, main_v98⟫) (HV.wSlice ![0, 4, 0, 0] Facts₀.slices_S2x5x32x32_S1x1x32x32_0_4_0_0 ⟪V, main_arg7⟫))) (HV.biasRows (HV.bSlice ![0, 0] Facts₀.slices_S2x32_S1x32_0_0 ⟪V, main_arg8⟫))))) (HV.wSlice ![1, 1, 0, 0] Facts₀.slices_S2x5x32x32_S1x1x32x32_1_1_0_0 ⟪V, main_arg7⟫))) (HV.mm (HV.prop ⟪V, main_v1⟫ ⟪V, main_v3⟫ ⟪V, main_v28⟫ (HV.prop ⟪V, main_v1⟫ ⟪V, main_v3⟫ ⟪V, main_v28⟫ (HV.leaky (addf (addf ⟪V, main_v88⟫ (HV.mm (HV.agg ⟪V, main_v3⟫ ⟪V, main_v99⟫ ⟪V, main_v98⟫) (HV.wSlice ![0, 4, 0, 0] Facts₀.slices_S2x5x32x32_S1x1x32x32_0_4_0_0 ⟪V, main_arg7⟫))) (HV.biasRows (HV.bSlice ![0, 0] Facts₀.slices_S2x32_S1x32_0_0 ⟪V, main_arg8⟫)))))) (HV.wSlice ![1, 2, 0, 0] Facts₀.slices_S2x5x32x32_S1x1x32x32_1_2_0_0 ⟪V, main_arg7⟫))) := by
  simp only [opsP2]
  line_results
  rfl

theorem r2_v150 (V : Valuation τ sig (Elt F)) :
    after opsP2 V (main_v150 : DevRef τ sig) = cmpi .slt ⟪V, main_v1⟫ (broadcastInDim S3200000 ![] bcast_S_S3200000 (constantI S_ 32 0#32)) := by
  simp only [opsP2]
  line_results

theorem r2_v151 (V : Valuation τ sig (Elt F)) :
    after opsP2 V (main_v151 : DevRef τ sig) = broadcastInDim S3200000 ![] bcast_S_S3200000 (constantI S_ 32 100000#32) := by
  simp only [opsP2]
  line_results

end Cert.ReferenceIdeal.Stage

end
-- ==== Proof.Ref.Stage3.lean ====
/-
  The reference's last window of host operations: the second tap layer completed (its third propagation step
  starting from an index column half prepared by the window before), the read-out layer and the per-graph mean.
-/
import proofs.«179590_j19610820673795_1_alg».proof.Proof.Ref.Ops3
import proofs.«179590_j19610820673795_1_alg».proof.Proof.Ref.StageDefs
import proofs.«179590_j19610820673795_1_alg».proof.Proof.LibLineResults

set_option maxRecDepth 16384

noncomputable section

namespace Cert.ReferenceIdeal.Stage

open Cert.ReferenceIdeal Cert.ReferenceIdeal.Hand Cert.ReferenceIdeal.Facts₀ Idealize.ShloMosaic Idealize.ShloMosaic.TcCoe Idealize.ShloMosaic.StableHlo

variable {F : FTy → Type} [FloatOps F]

local notation "⟪" V ", " b "⟫" => V (b : DevRef τ sig)

set_option maxHeartbeats 4000000 in
theorem r3_out (V : Valuation τ sig (Elt F)) :
    after opsP3 V (main_v202 : DevRef τ sig) = HV.tailOf ⟪V, main_arg4⟫ (HV.outLin (HV.leaky (addf (addf (addf ⟪V, main_v148⟫ (HV.mm (HV.agg ⟪V, main_v3⟫ HV.zeros32 (HV.gmsg (HV.wrapWith ⟪V, main_v150⟫ ⟪V, main_v151⟫ ⟪V, main_v1⟫) ⟪V, main_v28⟫ ⟪V, main_v144⟫)) (HV.wSlice ![1, 3, 0, 0] Facts₀.slices_S2x5x32x32_S1x1x32x32_1_3_0_0 ⟪V, main_arg7⟫))) (HV.mm (HV.prop ⟪V, main_v1⟫ ⟪V, main_v3⟫ ⟪V, main_v28⟫ (HV.agg ⟪V, main_v3⟫ HV.zeros32 (HV.gmsg (HV.wrapWith ⟪V, main_v150⟫ ⟪V, main_v151⟫ ⟪V, main_v1⟫) ⟪V, main_v28⟫ ⟪V, main_v144⟫))) (HV.wSlice ![1, 4, 0, 0] Facts₀.slices_S2x5x32x32_S1x1x32x32_1_4_0_0 ⟪V, main_arg7⟫))) (HV.biasRows (HV.bSlice ![1, 0] Facts₀.slices_S2x32_S1x32_1_0 ⟪V, main_arg8⟫)))) ⟪V, main_arg9⟫ ⟪V, main_arg10⟫) := by
  simp only [opsP3]
  line_results
  rfl

end Cert.ReferenceIdeal.Stage

end
-- ==== Proof.Ref.Value.lean ====
/-
  What the reference computes at the ideal instance, as one function of its eleven argument arrays, and the proof
  that its result buffer ends holding exactly that: the four windows of host operations read as named functions
  (the stage lemmas) and chained, a value computed in one window and read in a later one carried across unchanged.
-/
import proofs.«179590_j19610820673795_1_alg».proof.Proof.Ref.Run
import proofs.«179590_j19610820673795_1_alg».proof.Proof.Ref.ValDef
import proofs.«179590_j19610820673795_1_alg».proof.Proof.Ref.Stage0
import proofs.«179590_j19610820673795_1_alg».proof.Proof.Ref.Stage1
import proofs.«179590_j19610820673795_1_alg».proof.Proof.Ref.Stage2
import proofs.«179590_j19610820673795_1_alg».proof.Proof.Ref.Stage3

set_option maxRecDepth 16384

noncomputable section

namespace Cert.ReferenceIdeal.RVal

open Cert.ReferenceIdeal Cert.ReferenceIdeal.Hand Cert.ReferenceIdeal.Stage Cert.ReferenceIdeal.Facts₀
open Idealize.ShloMosaic Idealize.ShloMosaic.TcCoe Idealize.ShloMosaic.StableHlo

variable {F : FTy → Type} [FloatOps F]

local notation "CF" => HV.C (F := F)

variable (V : Valuation τ sig (Elt F))

/-! ## Values carried across windows -/

theorem c1 (r : Ref sig .tc) (h0 : r ∉ opsP0_W) (h1 : r ∉ opsP1_W) :
    after opsP1 (after opsP0 V) (Proc.devRef .tc r) = V (Proc.devRef .tc r) :=
  (opsP1_keep _ r h1).trans (opsP0_keep V r h0)
theorem c2 (r : Ref sig .tc) (h0 : r ∉ opsP0_W) (h1 : r ∉ opsP1_W) (h2 : r ∉ opsP2_W) :
    after opsP2 (after opsP1 (after opsP0 V)) (Proc.devRef .tc r) = V (Proc.devRef .tc r) :=
  (opsP2_keep _ r h2).trans (c1 V r h0 h1)
/-- A value of the first window that later windows read is still there when the second and third start. -/
theorem m1 (r : Ref sig .tc) (h1 : r ∉ opsP1_W) :
    after opsP1 (after opsP0 V) (Proc.devRef .tc r) = after opsP0 V (Proc.devRef .tc r) := opsP1_keep _ r h1
theorem m2 (r : Ref sig .tc) (h1 : r ∉ opsP1_W) (h2 : r ∉ opsP2_W) :
    after opsP2 (after opsP1 (after opsP0 V)) (Proc.devRef .tc r) = after opsP0 V (Proc.devRef .tc r) :=
  (opsP2_keep _ r h2).trans (opsP1_keep _ r h1)

/-- The reference's result buffer after its operations, from any starting contents. -/
theorem ref_value :
    after ops V (Proc.devRef .tc main_v202)
      = rval (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) := by
  rw [after_ops, r3_out]
  rw [c2 V main_arg4 (by decide) (by decide) (by decide), c2 V main_arg7 (by decide) (by decide) (by decide), c2 V main_arg8 (by decide) (by decide) (by decide), c2 V main_arg9 (by decide) (by decide) (by decide), c2 V main_arg10 (by decide) (by decide) (by decide),
    m2 V main_v1 (by decide) (by decide), m2 V main_v3 (by decide) (by decide), m2 V main_v28 (by decide) (by decide)]
  rw [r2_v148, r2_v144, r2_v150, r2_v151]
  rw [c1 V main_arg7 (by decide) (by decide), c1 V main_arg8 (by decide) (by decide),
    m1 V main_v1 (by decide), m1 V main_v3 (by decide), m1 V main_v28 (by decide)]
  rw [r1_v88, r1_v98, r1_v99]
  rw [opsP0_keep V main_arg7 (by decide), r0_v1, r0_v3, r0_v28, r0_v37, r0_v47, r0_v48]
  rfl

end Cert.ReferenceIdeal.RVal

end
-- ==== Proof.Alg.Regroup.lean ====
/-
  The regrouping law behind the tap layer. A dense layer applied to five 32-column feature matrices laid side by
  side, against five 32-row weight slices stacked on top of each other, contracts over 160 positions; position j
  pairs column j % 32 of matrix j / 32 with row j % 32 of slice j / 32. Splitting the 160 positions into five runs of
  32 turns that one sum into five separate products added together. Only commutativity and associativity of addition
  on the extended reals are used, so nothing has to be finite.
-/
import proofs.«179590_j19610820673795_1_alg».proof.Proof.Spec

noncomputable section

namespace Cert.HostAlg

open Idealize.ShloMosaic Idealize.ShloMosaic.ValueIdx
open scoped BigOperators

/-- A sum over 160 positions of a term that depends on the position only through its quotient and remainder by 32
    is the double sum over the five quotients and the 32 remainders. -/
theorem sum_fin160 {M : Type*} [AddCommMonoid M] (g : Fin 5 → Fin 32 → M) :
    ∑ k : Fin 160, g ⟨k.val / 32, by omega⟩ ⟨k.val % 32, by omega⟩ = ∑ a : Fin 5, ∑ i : Fin 32, g a i := by
  rw [← Fintype.sum_prod_type (f := fun p : Fin 5 × Fin 32 => g p.1 p.2),
    ← Equiv.sum_comp (finProdFinEquiv (m := 5) (n := 32)) (fun k : Fin (5 * 32) => g ⟨k.val / 32, by omega⟩ ⟨k.val % 32, by omega⟩)]
  refine Finset.sum_congr rfl fun p _ => ?_
  obtain ⟨a, i⟩ := p
  have ha : (i.val + 32 * a.val) / 32 = a.val := by omega
  have hi : (i.val + 32 * a.val) % 32 = i.val := by omega
  show g ⟨(i.val + 32 * a.val) / 32, _⟩ ⟨(i.val + 32 * a.val) % 32, _⟩ = g a i
  congr 1
  · exact Fin.ext ha
  · exact Fin.ext hi

/-- One entry, before the rectifier: the wide row against the tall column is the five products added left to right. -/
theorem affine_regroup {N : Nat} (z : Fin 5 → (⟨2, ![N, 32]⟩ : Shape).Idx → EReal)
    (wt : (⟨4, ![2, 5, 32, 32]⟩ : Shape).Idx → EReal) (bg : (⟨2, ![2, 32]⟩ : Shape).Idx → EReal)
    (l : Fin 2) (n : Fin N) (c : Fin 32) :
    Cert.Spec.affineAt (Cert.Spec.sideBySide z) (Cert.Spec.stacked wt l) (Cert.Spec.biasRow bg l) n c
      = Cert.Spec.tapAffineAt z wt bg l n c := by
  unfold Cert.Spec.affineAt Cert.Spec.tapAffineAt
  refine congrArg₂ (· + ·) ?_ rfl
  refine (Eq.trans ?_ (sum_fin160 (fun a i => z a (ix2 n i) * wt (ix4 l a i c)))).trans ?_
  · exact Finset.sum_congr rfl fun k _ => rfl
  · rw [Fin.sum_univ_five]

/-- The dense layer on the side-by-side features, the stacked weights and the bias row is the tap layer. -/
theorem regroup {N : Nat} (z : Fin 5 → (⟨2, ![N, 32]⟩ : Shape).Idx → EReal)
    (wt : (⟨4, ![2, 5, 32, 32]⟩ : Shape).Idx → EReal) (bg : (⟨2, ![2, 32]⟩ : Shape).Idx → EReal) (l : Fin 2) :
    Cert.Spec.denseAct (Cert.Spec.sideBySide z) (Cert.Spec.stacked wt l) (Cert.Spec.biasRow bg l)
      = Cert.Spec.tapLayer z wt bg l := by
  funext i
  exact congrArg Cert.Spec.lrelu (affine_regroup z wt bg l (i 0) (i 1))

end Cert.HostAlg

end
-- ==== Proof.Alg.RefDense.lean ====
/-
  The reference's dense layers read entry by entry. The host's product of an N-by-K matrix with a K-by-C matrix,
  read at row n and column c, is the sum over k of x(n,k) * w(k,c); the bias row laid under every node reads b(c) at
  every row; the rectifier acts on each entry by itself. Put together, the read-in layer is the dense layer with the
  rectifier and the read-out layer is the dense layer without it.
-/
import proofs.«179590_j19610820673795_1_alg».proof.Proof.Spec
import proofs.«179590_j19610820673795_1_alg».proof.Proof.HostDefs
import Idealize.ShloMosaic.Lib.ValueIdx
import Idealize.ShloMosaic.Lib.Pipeline.Value
import Idealize.ShloMosaic.PureOps.Ideal.Laws

noncomputable section

namespace Cert.HostAlg

open Idealize.ShloMosaic Idealize.ShloMosaic.ValueIdx
open Cert.ReferenceIdeal Cert.ReferenceIdeal.Facts₀
open scoped BigOperators

/-! ## The three host products at an entry

Each product contracts the left operand's columns against the right operand's rows. The contraction index is a
one-coordinate index; re-indexing the sum by that coordinate leaves a sum over k of x(n,k) * w(k,c). -/

/-- The product of the 10-column node features with the 10-by-32 read-in weights: the left index at output (n, c) and contraction position q is (n, q) … -/
theorem lhs10_0 (i : S100000x32.Idx) (q : dot_S100000x10_S10x32_S100000x32_1_0_0_1_n_n.contr.Idx) :
    (dot_S100000x10_S10x32_S100000x32_1_0_0_1_n_n.lhsIdx i q 0).val = (i 0).val := by
  unfold DotDims.lhsIdx
  rw [dif_neg (show ¬(0 : Fin S100000x10.rank) ∈ dot_S100000x10_S10x32_S100000x32_1_0_0_1_n_n.lhsBatch by decide),
    dif_pos (show (0 : Fin S100000x10.rank) ∈ dot_S100000x10_S10x32_S100000x32_1_0_0_1_n_n.lhsNonContracting by decide)]
  rfl
theorem lhs10_1 (i : S100000x32.Idx) (q : dot_S100000x10_S10x32_S100000x32_1_0_0_1_n_n.contr.Idx) :
    (dot_S100000x10_S10x32_S100000x32_1_0_0_1_n_n.lhsIdx i q 1).val = (q ⟨0, by decide⟩).val :=
  dot_S100000x10_S10x32_S100000x32_1_0_0_1_n_n.lhsIdx_val_of_single rfl i q
/-- … and the right index is (q, c). -/
theorem rhs10_0 (i : S100000x32.Idx) (q : dot_S100000x10_S10x32_S100000x32_1_0_0_1_n_n.contr.Idx) :
    (dot_S100000x10_S10x32_S100000x32_1_0_0_1_n_n.rhsIdx i q 0).val = (q ⟨0, by decide⟩).val :=
  dot_S100000x10_S10x32_S100000x32_1_0_0_1_n_n.rhsIdx_val_of_single rfl i q
theorem rhs10_1 (i : S100000x32.Idx) (q : dot_S100000x10_S10x32_S100000x32_1_0_0_1_n_n.contr.Idx) :
    (dot_S100000x10_S10x32_S100000x32_1_0_0_1_n_n.rhsIdx i q 1).val = (i 1).val := by
  unfold DotDims.rhsIdx
  rw [dif_neg (show ¬(1 : Fin S10x32.rank) ∈ dot_S100000x10_S10x32_S100000x32_1_0_0_1_n_n.rhsBatch by decide),
    dif_pos (show (1 : Fin S10x32.rank) ∈ dot_S100000x10_S10x32_S100000x32_1_0_0_1_n_n.rhsNonContracting by decide)]
  rfl

/-- The product of the 10-column node features with the 10-by-32 read-in weights, read at row n and column c: the sum over the 10 contraction positions of the products. -/
theorem dot10_apply (x : S100000x10.Idx → EReal) (w : S10x32.Idx → EReal) (n : Fin 100000) (c : Fin 32) :
    Host.dotGeneral (F := Ideal) (φ₁ := .f32) (φ₂ := .f32) dot_S100000x10_S10x32_S100000x32_1_0_0_1_n_n none x w (ix2 n c)
      = ∑ k : Fin 10, x (ix2 n k) * w (ix2 k c) := by
  simp only [Host.dotGeneral]
  rw [Ideal.dotGeneral_apply, ← Equiv.sum_comp (contrEquiv1 dot_S100000x10_S10x32_S100000x32_1_0_0_1_n_n 10 rfl rfl).symm]
  refine Finset.sum_congr rfl fun k _ => ?_
  have hk := contrEquiv1_symm_val dot_S100000x10_S10x32_S100000x32_1_0_0_1_n_n 10 rfl rfl k
  have el : dot_S100000x10_S10x32_S100000x32_1_0_0_1_n_n.lhsIdx (ix2 n c) ((contrEquiv1 dot_S100000x10_S10x32_S100000x32_1_0_0_1_n_n 10 rfl rfl).symm k) = ix2 n k :=
    funext fun a => Fin.ext (by
      match a with
      | ⟨0, _⟩ => exact lhs10_0 _ _
      | ⟨1, _⟩ => exact (lhs10_1 _ _).trans hk)
  have er : dot_S100000x10_S10x32_S100000x32_1_0_0_1_n_n.rhsIdx (ix2 n c) ((contrEquiv1 dot_S100000x10_S10x32_S100000x32_1_0_0_1_n_n 10 rfl rfl).symm k) = ix2 k c :=
    funext fun a => Fin.ext (by
      match a with
      | ⟨0, _⟩ => exact (rhs10_0 _ _).trans hk
      | ⟨1, _⟩ => exact rhs10_1 _ _)
  rw [el, er]

/-- The product of a 32-column feature matrix with a 32-by-32 weight slice: the left index at output (n, c) and contraction position q is (n, q) … -/
theorem lhs32_0 (i : S100000x32.Idx) (q : dot_S100000x32_S32x32_S100000x32_1_0_0_1_n_n.contr.Idx) :
    (dot_S100000x32_S32x32_S100000x32_1_0_0_1_n_n.lhsIdx i q 0).val = (i 0).val := by
  unfold DotDims.lhsIdx
  rw [dif_neg (show ¬(0 : Fin S100000x32.rank) ∈ dot_S100000x32_S32x32_S100000x32_1_0_0_1_n_n.lhsBatch by decide),
    dif_pos (show (0 : Fin S100000x32.rank) ∈ dot_S100000x32_S32x32_S100000x32_1_0_0_1_n_n.lhsNonContracting by decide)]
  rfl
theorem lhs32_1 (i : S100000x32.Idx) (q : dot_S100000x32_S32x32_S100000x32_1_0_0_1_n_n.contr.Idx) :
    (dot_S100000x32_S32x32_S100000x32_1_0_0_1_n_n.lhsIdx i q 1).val = (q ⟨0, by decide⟩).val :=
  dot_S100000x32_S32x32_S100000x32_1_0_0_1_n_n.lhsIdx_val_of_single rfl i q
/-- … and the right index is (q, c). -/
theorem rhs32_0 (i : S100000x32.Idx) (q : dot_S100000x32_S32x32_S100000x32_1_0_0_1_n_n.contr.Idx) :
    (dot_S100000x32_S32x32_S100000x32_1_0_0_1_n_n.rhsIdx i q 0).val = (q ⟨0, by decide⟩).val :=
  dot_S100000x32_S32x32_S100000x32_1_0_0_1_n_n.rhsIdx_val_of_single rfl i q
theorem rhs32_1 (i : S100000x32.Idx) (q : dot_S100000x32_S32x32_S100000x32_1_0_0_1_n_n.contr.Idx) :
    (dot_S100000x32_S32x32_S100000x32_1_0_0_1_n_n.rhsIdx i q 1).val = (i 1).val := by
  unfold DotDims.rhsIdx
  rw [dif_neg (show ¬(1 : Fin S32x32.rank) ∈ dot_S100000x32_S32x32_S100000x32_1_0_0_1_n_n.rhsBatch by decide),
    dif_pos (show (1 : Fin S32x32.rank) ∈ dot_S100000x32_S32x32_S100000x32_1_0_0_1_n_n.rhsNonContracting by decide)]
  rfl

/-- The product of a 32-column feature matrix with a 32-by-32 weight slice, read at row n and column c: the sum over the 32 contraction positions of the products. -/
theorem dot32_apply (x : S100000x32.Idx → EReal) (w : S32x32.Idx → EReal) (n : Fin 100000) (c : Fin 32) :
    Host.dotGeneral (F := Ideal) (φ₁ := .f32) (φ₂ := .f32) dot_S100000x32_S32x32_S100000x32_1_0_0_1_n_n none x w (ix2 n c)
      = ∑ k : Fin 32, x (ix2 n k) * w (ix2 k c) := by
  simp only [Host.dotGeneral]
  rw [Ideal.dotGeneral_apply, ← Equiv.sum_comp (contrEquiv1 dot_S100000x32_S32x32_S100000x32_1_0_0_1_n_n 32 rfl rfl).symm]
  refine Finset.sum_congr rfl fun k _ => ?_
  have hk := contrEquiv1_symm_val dot_S100000x32_S32x32_S100000x32_1_0_0_1_n_n 32 rfl rfl k
  have el : dot_S100000x32_S32x32_S100000x32_1_0_0_1_n_n.lhsIdx (ix2 n c) ((contrEquiv1 dot_S100000x32_S32x32_S100000x32_1_0_0_1_n_n 32 rfl rfl).symm k) = ix2 n k :=
    funext fun a => Fin.ext (by
      match a with
      | ⟨0, _⟩ => exact lhs32_0 _ _
      | ⟨1, _⟩ => exact (lhs32_1 _ _).trans hk)
  have er : dot_S100000x32_S32x32_S100000x32_1_0_0_1_n_n.rhsIdx (ix2 n c) ((contrEquiv1 dot_S100000x32_S32x32_S100000x32_1_0_0_1_n_n 32 rfl rfl).symm k) = ix2 k c :=
    funext fun a => Fin.ext (by
      match a with
      | ⟨0, _⟩ => exact (rhs32_0 _ _).trans hk
      | ⟨1, _⟩ => exact rhs32_1 _ _)
  rw [el, er]

/-- The product of the 32-column hidden features with the 32-by-1 read-out weights: the left index at output (n, c) and contraction position q is (n, q) … -/
theorem lhsOut_0 (i : S100000x1.Idx) (q : dot_S100000x32_S32x1_S100000x1_1_0_0_1_n_n.contr.Idx) :
    (dot_S100000x32_S32x1_S100000x1_1_0_0_1_n_n.lhsIdx i q 0).val = (i 0).val := by
  unfold DotDims.lhsIdx
  rw [dif_neg (show ¬(0 : Fin S100000x32.rank) ∈ dot_S100000x32_S32x1_S100000x1_1_0_0_1_n_n.lhsBatch by decide),
    dif_pos (show (0 : Fin S100000x32.rank) ∈ dot_S100000x32_S32x1_S100000x1_1_0_0_1_n_n.lhsNonContracting by decide)]
  rfl
theorem lhsOut_1 (i : S100000x1.Idx) (q : dot_S100000x32_S32x1_S100000x1_1_0_0_1_n_n.contr.Idx) :
    (dot_S100000x32_S32x1_S100000x1_1_0_0_1_n_n.lhsIdx i q 1).val = (q ⟨0, by decide⟩).val :=
  dot_S100000x32_S32x1_S100000x1_1_0_0_1_n_n.lhsIdx_val_of_single rfl i q
/-- … and the right index is (q, c). -/
theorem rhsOut_0 (i : S100000x1.Idx) (q : dot_S100000x32_S32x1_S100000x1_1_0_0_1_n_n.contr.Idx) :
    (dot_S100000x32_S32x1_S100000x1_1_0_0_1_n_n.rhsIdx i q 0).val = (q ⟨0, by decide⟩).val :=
  dot_S100000x32_S32x1_S100000x1_1_0_0_1_n_n.rhsIdx_val_of_single rfl i q
theorem rhsOut_1 (i : S100000x1.Idx) (q : dot_S100000x32_S32x1_S100000x1_1_0_0_1_n_n.contr.Idx) :
    (dot_S100000x32_S32x1_S100000x1_1_0_0_1_n_n.rhsIdx i q 1).val = (i 1).val := by
  unfold DotDims.rhsIdx
  rw [dif_neg (show ¬(1 : Fin S32x1.rank) ∈ dot_S100000x32_S32x1_S100000x1_1_0_0_1_n_n.rhsBatch by decide),
    dif_pos (show (1 : Fin S32x1.rank) ∈ dot_S100000x32_S32x1_S100000x1_1_0_0_1_n_n.rhsNonContracting by decide)]
  rfl

/-- The product of the 32-column hidden features with the 32-by-1 read-out weights, read at row n and column c: the sum over the 32 contraction positions of the products. -/
theorem dotOut_apply (x : S100000x32.Idx → EReal) (w : S32x1.Idx → EReal) (n : Fin 100000) (c : Fin 1) :
    Host.dotGeneral (F := Ideal) (φ₁ := .f32) (φ₂ := .f32) dot_S100000x32_S32x1_S100000x1_1_0_0_1_n_n none x w (ix2 n c)
      = ∑ k : Fin 32, x (ix2 n k) * w (ix2 k c) := by
  simp only [Host.dotGeneral]
  rw [Ideal.dotGeneral_apply, ← Equiv.sum_comp (contrEquiv1 dot_S100000x32_S32x1_S100000x1_1_0_0_1_n_n 32 rfl rfl).symm]
  refine Finset.sum_congr rfl fun k _ => ?_
  have hk := contrEquiv1_symm_val dot_S100000x32_S32x1_S100000x1_1_0_0_1_n_n 32 rfl rfl k
  have el : dot_S100000x32_S32x1_S100000x1_1_0_0_1_n_n.lhsIdx (ix2 n c) ((contrEquiv1 dot_S100000x32_S32x1_S100000x1_1_0_0_1_n_n 32 rfl rfl).symm k) = ix2 n k :=
    funext fun a => Fin.ext (by
      match a with
      | ⟨0, _⟩ => exact lhsOut_0 _ _
      | ⟨1, _⟩ => exact (lhsOut_1 _ _).trans hk)
  have er : dot_S100000x32_S32x1_S100000x1_1_0_0_1_n_n.rhsIdx (ix2 n c) ((contrEquiv1 dot_S100000x32_S32x1_S100000x1_1_0_0_1_n_n 32 rfl rfl).symm k) = ix2 k c :=
    funext fun a => Fin.ext (by
      match a with
      | ⟨0, _⟩ => exact (rhsOut_0 _ _).trans hk
      | ⟨1, _⟩ => exact rhsOut_1 _ _)
  rw [el, er]

/-! ## The rectifier and the bias rows at an entry -/

/-- The host's rectifier at an entry is the scalar rectifier of that entry: both broadcast constants read their
    literal everywhere. -/
theorem leaky_apply (u : S100000x32.Idx → EReal) (i : S100000x32.Idx) :
    HV.leaky (F := Ideal) u i = Cert.Spec.lrelu (u i) := rfl

/-- The bias row laid under every node reads b(c) at row n, column c. -/
theorem biasRows_apply (b : S32.Idx → EReal) (n : Fin 100000) (c : Fin 32) :
    HV.biasRows (F := Ideal) b (ix2 n c) = b (ix1 c) := by
  unfold HV.biasRows
  refine (broadcastInDim_apply _ _ _ (ix2 n c) (ix2 (0 : Fin 1) c) fun a => ?_).trans ?_
  · match a with
    | ⟨0, _⟩ => rfl
    | ⟨1, _⟩ => rfl
  · refine broadcastInDim_apply _ _ _ (ix2 (0 : Fin 1) c) (ix1 c) fun a => ?_
    match a with
    | ⟨0, _⟩ => rfl

/-! ## The read-in and read-out layers -/

/-- The read-in layer on the host is the dense layer with the rectifier. -/
theorem ref_dense0 (x : S100000x10.Idx → EReal) (w : S10x32.Idx → EReal) (b : S32.Idx → EReal) :
    HV.dense0 (F := Ideal) x w b = Cert.Spec.denseAct x w b := by
  funext i
  obtain ⟨n, c, rfl⟩ : ∃ (n : Fin 100000) (c : Fin 32), i = ix2 n c := ⟨i 0, i 1, eq_ix2 i⟩
  unfold HV.dense0
  rw [leaky_apply]
  refine congrArg Cert.Spec.lrelu ?_
  rw [addf_apply, dot10_apply, biasRows_apply]
  rfl

/-- The read-out layer on the host is the dense layer with no activation. -/
theorem ref_out (h : S100000x32.Idx → EReal) (w : S32x1.Idx → EReal) (b : S1.Idx → EReal) :
    HV.outLin (F := Ideal) h w b = Cert.Spec.denseLin h w b := by
  funext i
  obtain ⟨n, c, rfl⟩ : ∃ (n : Fin 100000) (c : Fin 1), i = ix2 n c := ⟨i 0, i 1, eq_ix2 i⟩
  unfold HV.outLin
  rw [addf_apply, dotOut_apply]
  refine congrArg₂ (· + ·) rfl ?_
  refine (broadcastInDim_apply _ _ _ (ix2 n c) (ix2 (0 : Fin 1) (0 : Fin 1)) fun a => ?_).trans ?_
  · match a with
    | ⟨0, _⟩ => rfl
    | ⟨1, _⟩ => rfl
  · refine (broadcastInDim_apply _ _ _ (ix2 (0 : Fin 1) (0 : Fin 1)) (ix1 c) fun a => ?_)
    match a with
    | ⟨0, _⟩ => exact (Fin.val_eq_zero c)

end Cert.HostAlg

end
-- ==== Proof.Alg.RefTap.lean ====
/-
  The reference's tap layer read entry by entry. Each of the five weight slices is a 1-by-1-by-32-by-32 block of the
  weight tensor reshaped to 32 by 32, so its entry (i, c) is the tensor's entry (l, k, i, c); the bias is row l of
  the bias table. The five host products, read at an entry and added left to right, then the bias entry and the
  rectifier, are exactly the tap layer's formula.
-/
import proofs.«179590_j19610820673795_1_alg».proof.Proof.Alg.RefDense

noncomputable section

namespace Cert.HostAlg

open Idealize.ShloMosaic Idealize.ShloMosaic.ValueIdx
open Cert.ReferenceIdeal Cert.ReferenceIdeal.Facts₀
open scoped BigOperators

/-- A 32-by-32 slice of the weight tensor cut at offsets (l, k, 0, 0): its entry (i, c) is the tensor's (l, k, i, c). -/
theorem ref_wSlice_apply (off : Fin 4 → Nat) (h : S2x5x32x32.Slices off S1x1x32x32) (l : Fin 2) (k : Fin 5)
    (h0 : off 0 = l.val) (h1 : off 1 = k.val) (h2 : off 2 = 0) (h3 : off 3 = 0) (wt : S2x5x32x32.Idx → EReal)
    (i c : Fin 32) : HV.wSlice (F := Ideal) off h wt (ix2 i c) = wt (ix4 l k i c) := by
  unfold HV.wSlice
  refine (shapeCast_apply _ _ (ix2 i c) (ix4 (0 : Fin 1) (0 : Fin 1) i c) ?_).trans ?_
  · rw [Shape.rowMajor_val_four, Shape.rowMajor_val_two]
    show ((0 * 1 + 0) * 32 + i.val) * 32 + c.val = i.val * 32 + c.val
    omega
  refine extractStridedSlice_apply off wt h _ (ix4 l k i c) fun a => ?_
  match a with
  | ⟨0, _⟩ => show l.val = off 0 + 0; omega
  | ⟨1, _⟩ => show k.val = off 1 + 0; omega
  | ⟨2, _⟩ => show i.val = off 2 + i.val; omega
  | ⟨3, _⟩ => show c.val = off 3 + c.val; omega

/-- A row of the bias table cut at offsets (l, 0) and reshaped to a vector: its entry c is the table's (l, c). -/
theorem ref_bSlice_apply (off : Fin 2 → Nat) (h : S2x32.Slices off S1x32) (l : Fin 2) (h0 : off 0 = l.val) (h1 : off 1 = 0)
    (bg : S2x32.Idx → EReal) (c : Fin 32) : HV.bSlice (F := Ideal) off h bg (ix1 c) = bg (ix2 l c) := by
  unfold HV.bSlice
  refine (shapeCast_apply _ _ (ix1 c) (ix2 (0 : Fin 1) c) ?_).trans ?_
  · rw [Shape.rowMajor_val_two, Shape.rowMajor_val_one]
    show 0 * 32 + c.val = c.val
    omega
  refine extractStridedSlice_apply off bg h _ (ix2 l c) fun a => ?_
  match a with
  | ⟨0, _⟩ => show l.val = off 0 + 0; omega
  | ⟨1, _⟩ => show c.val = off 1 + c.val; omega

/-- A feature matrix against one weight slice, at row n and column c. -/
theorem mm_apply (z : S100000x32.Idx → EReal) (w : S32x32.Idx → EReal) (n : Fin 100000) (c : Fin 32) :
    HV.mm (F := Ideal) z w (ix2 n c) = ∑ k : Fin 32, z (ix2 n k) * w (ix2 k c) := by
  unfold HV.mm
  exact dot32_apply z w n c

/-- The tap layer on the host, for any five matrices that read as the five slices of layer l and any vector that
    reads as row l of the bias table. -/
theorem tap_eq (l : Fin 2) (z0 z1 z2 z3 z4 : S100000x32.Idx → EReal) (w0 w1 w2 w3 w4 : S32x32.Idx → EReal)
    (b : S32.Idx → EReal) (wt : S2x5x32x32.Idx → EReal) (bg : S2x32.Idx → EReal)
    (hw0 : ∀ i c : Fin 32, w0 (ix2 i c) = wt (ix4 l 0 i c)) (hw1 : ∀ i c : Fin 32, w1 (ix2 i c) = wt (ix4 l 1 i c))
    (hw2 : ∀ i c : Fin 32, w2 (ix2 i c) = wt (ix4 l 2 i c)) (hw3 : ∀ i c : Fin 32, w3 (ix2 i c) = wt (ix4 l 3 i c))
    (hw4 : ∀ i c : Fin 32, w4 (ix2 i c) = wt (ix4 l 4 i c)) (hb : ∀ c : Fin 32, b (ix1 c) = bg (ix2 l c)) :
    HV.tap (F := Ideal) z0 z1 z2 z3 z4 w0 w1 w2 w3 w4 b = Cert.Spec.tapLayer ![z0, z1, z2, z3, z4] wt bg l := by
  funext i
  obtain ⟨n, c, rfl⟩ : ∃ (n : Fin 100000) (c : Fin 32), i = ix2 n c := ⟨i 0, i 1, eq_ix2 i⟩
  unfold HV.tap
  rw [leaky_apply]
  refine congrArg Cert.Spec.lrelu ?_
  rw [addf_apply, addf_apply, addf_apply, addf_apply, addf_apply, mm_apply, mm_apply, mm_apply, mm_apply, mm_apply,
    biasRows_apply, hb]
  simp only [hw0, hw1, hw2, hw3, hw4]
  rfl

/-- The tap layer of layer 0 on the host, with its five weight slices and its bias row cut from the tables. -/
theorem ref_tap_0 (z0 z1 z2 z3 z4 : S100000x32.Idx → EReal) (wt : S2x5x32x32.Idx → EReal) (bg : S2x32.Idx → EReal) :
    HV.tap (F := Ideal) z0 z1 z2 z3 z4
        (HV.wSlice ![0, 0, 0, 0] slices_S2x5x32x32_S1x1x32x32_0_0_0_0 wt)
        (HV.wSlice ![0, 1, 0, 0] slices_S2x5x32x32_S1x1x32x32_0_1_0_0 wt)
        (HV.wSlice ![0, 2, 0, 0] slices_S2x5x32x32_S1x1x32x32_0_2_0_0 wt)
        (HV.wSlice ![0, 3, 0, 0] slices_S2x5x32x32_S1x1x32x32_0_3_0_0 wt)
        (HV.wSlice ![0, 4, 0, 0] slices_S2x5x32x32_S1x1x32x32_0_4_0_0 wt)
        (HV.bSlice ![0, 0] slices_S2x32_S1x32_0_0 bg)
      = Cert.Spec.tapLayer ![z0, z1, z2, z3, z4] wt bg 0 :=
  tap_eq 0 z0 z1 z2 z3 z4 _ _ _ _ _ _ wt bg
    (fun i c => ref_wSlice_apply ![0, 0, 0, 0] slices_S2x5x32x32_S1x1x32x32_0_0_0_0 0 0 rfl rfl rfl rfl wt i c)
    (fun i c => ref_wSlice_apply ![0, 1, 0, 0] slices_S2x5x32x32_S1x1x32x32_0_1_0_0 0 1 rfl rfl rfl rfl wt i c)
    (fun i c => ref_wSlice_apply ![0, 2, 0, 0] slices_S2x5x32x32_S1x1x32x32_0_2_0_0 0 2 rfl rfl rfl rfl wt i c)
    (fun i c => ref_wSlice_apply ![0, 3, 0, 0] slices_S2x5x32x32_S1x1x32x32_0_3_0_0 0 3 rfl rfl rfl rfl wt i c)
    (fun i c => ref_wSlice_apply ![0, 4, 0, 0] slices_S2x5x32x32_S1x1x32x32_0_4_0_0 0 4 rfl rfl rfl rfl wt i c)
    (fun c => ref_bSlice_apply ![0, 0] slices_S2x32_S1x32_0_0 0 rfl rfl bg c)

/-- The tap layer of layer 1 on the host, with its five weight slices and its bias row cut from the tables. -/
theorem ref_tap_1 (z0 z1 z2 z3 z4 : S100000x32.Idx → EReal) (wt : S2x5x32x32.Idx → EReal) (bg : S2x32.Idx → EReal) :
    HV.tap (F := Ideal) z0 z1 z2 z3 z4
        (HV.wSlice ![1, 0, 0, 0] slices_S2x5x32x32_S1x1x32x32_1_0_0_0 wt)
        (HV.wSlice ![1, 1, 0, 0] slices_S2x5x32x32_S1x1x32x32_1_1_0_0 wt)
        (HV.wSlice ![1, 2, 0, 0] slices_S2x5x32x32_S1x1x32x32_1_2_0_0 wt)
        (HV.wSlice ![1, 3, 0, 0] slices_S2x5x32x32_S1x1x32x32_1_3_0_0 wt)
        (HV.wSlice ![1, 4, 0, 0] slices_S2x5x32x32_S1x1x32x32_1_4_0_0 wt)
        (HV.bSlice ![1, 0] slices_S2x32_S1x32_1_0 bg)
      = Cert.Spec.tapLayer ![z0, z1, z2, z3, z4] wt bg 1 :=
  tap_eq 1 z0 z1 z2 z3 z4 _ _ _ _ _ _ wt bg
    (fun i c => ref_wSlice_apply ![1, 0, 0, 0] slices_S2x5x32x32_S1x1x32x32_1_0_0_0 1 0 rfl rfl rfl rfl wt i c)
    (fun i c => ref_wSlice_apply ![1, 1, 0, 0] slices_S2x5x32x32_S1x1x32x32_1_1_0_0 1 1 rfl rfl rfl rfl wt i c)
    (fun i c => ref_wSlice_apply ![1, 2, 0, 0] slices_S2x5x32x32_S1x1x32x32_1_2_0_0 1 2 rfl rfl rfl rfl wt i c)
    (fun i c => ref_wSlice_apply ![1, 3, 0, 0] slices_S2x5x32x32_S1x1x32x32_1_3_0_0 1 3 rfl rfl rfl rfl wt i c)
    (fun i c => ref_wSlice_apply ![1, 4, 0, 0] slices_S2x5x32x32_S1x1x32x32_1_4_0_0 1 4 rfl rfl rfl rfl wt i c)
    (fun c => ref_bSlice_apply ![1, 0] slices_S2x32_S1x32_1_0 1 rfl rfl bg c)

end Cert.HostAlg

end
-- ==== Proof.Alg.KerLayout.lean ====
/-
  The kernel program's layout steps read entry by entry. Five 32-column feature matrices concatenated along the
  columns give a 160-column matrix whose column j is column j % 32 of matrix j / 32. One layer of the weight tensor,
  cut out as a 1-by-5-by-32-by-32 block and reshaped twice, is the 160-by-32 matrix whose row j is row j % 32 of
  slice j / 32: a reshape keeps every entry at its row-major position. One row of the bias table, cut out and
  reshaped to a vector, is that row.
-/
import proofs.«179590_j19610820673795_1_alg».proof.Proof.Spec
import proofs.«179590_j19610820673795_1_alg».proof.Proof.HostDefs
import Idealize.ShloMosaic.Lib.ValueIdx
import Idealize.ShloMosaic.Lib.Pipeline.Value

noncomputable section

namespace Cert.HostAlg

open Idealize.ShloMosaic Idealize.ShloMosaic.ValueIdx
open Cert.KernelIdeal Cert.KernelIdeal.Facts₀

/-- Five feature matrices side by side on the host: column j reads matrix j / 32 at column j % 32. -/
theorem ker_side5 (u0 u1 u2 u3 u4 : S100000x32.Idx → EReal) :
    HV.side5 (F := Ideal) u0 u1 u2 u3 u4 = Cert.Spec.sideBySide ![u0, u1, u2, u3, u4] := by
  funext i
  obtain ⟨n, j, rfl⟩ : ∃ (n : Fin 100000) (j : Fin 160), i = ix2 n j := ⟨i 0, i 1, eq_ix2 i⟩
  unfold HV.side5
  exact concatenate_ofFn_apply (t := S100000x160) (s₁ := S100000x32) 1 ![u0, u1, u2, u3, u4] _ rfl 32 rfl (ix2 n j)
    ⟨j.val / 32, by omega⟩ rfl (ix2 n ⟨j.val % 32, by omega⟩) rfl
    (fun b hb => by
      match b with
      | ⟨0, _⟩ => rfl
      | ⟨1, _⟩ => exact absurd rfl hb)

/-- A layer of the weight tensor cut at offsets (l, 0, 0, 0) and reshaped to 160 by 32 is the stacked matrix of
    layer l. -/
theorem wCat_eq (off : Fin 4 → Nat) (h : S2x5x32x32.Slices off S1x5x32x32) (l : Fin 2)
    (h0 : off 0 = l.val) (h1 : off 1 = 0) (h2 : off 2 = 0) (h3 : off 3 = 0) (wt : S2x5x32x32.Idx → EReal) :
    HV.wCat (F := Ideal) off h wt = Cert.Spec.stacked wt l := by
  funext i
  obtain ⟨r, c, rfl⟩ : ∃ (r : Fin 160) (c : Fin 32), i = ix2 r c := ⟨i 0, i 1, eq_ix2 i⟩
  have hq : r.val / 32 < 5 := by omega
  have hm : r.val % 32 < 32 := by omega
  unfold HV.wCat
  refine (shapeCast_apply _ _ (ix2 r c) (ix3 (⟨r.val / 32, hq⟩ : Fin 5) (⟨r.val % 32, hm⟩ : Fin 32) c) ?_).trans ?_
  · rw [Shape.rowMajor_val_three, Shape.rowMajor_val_two]
    show ((r.val / 32) * 32 + r.val % 32) * 32 + c.val = r.val * 32 + c.val
    omega
  refine (shapeCast_apply _ _ (ix3 (⟨r.val / 32, hq⟩ : Fin 5) (⟨r.val % 32, hm⟩ : Fin 32) c)
    (ix4 (0 : Fin 1) (⟨r.val / 32, hq⟩ : Fin 5) (⟨r.val % 32, hm⟩ : Fin 32) c) ?_).trans ?_
  · rw [Shape.rowMajor_val_four, Shape.rowMajor_val_three]
    show (((0 * 5 + r.val / 32) * 32 + r.val % 32) * 32 + c.val) = ((r.val / 32) * 32 + r.val % 32) * 32 + c.val
    omega
  refine extractStridedSlice_apply off wt h _ (ix4 l (⟨r.val / 32, hq⟩ : Fin 5) (⟨r.val % 32, hm⟩ : Fin 32) c) fun a => ?_
  match a with
  | ⟨0, _⟩ => show l.val = off 0 + 0; omega
  | ⟨1, _⟩ => show r.val / 32 = off 1 + r.val / 32; omega
  | ⟨2, _⟩ => show r.val % 32 = off 2 + r.val % 32; omega
  | ⟨3, _⟩ => show c.val = off 3 + c.val; omega

/-- Layer 0 of the weight tensor, stacked. -/
theorem ker_wcat_0 (wt : S2x5x32x32.Idx → EReal) :
    HV.wCat (F := Ideal) ![0, 0, 0, 0] slices_S2x5x32x32_S1x5x32x32_0_0_0_0 wt = Cert.Spec.stacked wt 0 :=
  wCat_eq ![0, 0, 0, 0] slices_S2x5x32x32_S1x5x32x32_0_0_0_0 0 rfl rfl rfl rfl wt

/-- Layer 1 of the weight tensor, stacked. -/
theorem ker_wcat_1 (wt : S2x5x32x32.Idx → EReal) :
    HV.wCat (F := Ideal) ![1, 0, 0, 0] slices_S2x5x32x32_S1x5x32x32_1_0_0_0 wt = Cert.Spec.stacked wt 1 :=
  wCat_eq ![1, 0, 0, 0] slices_S2x5x32x32_S1x5x32x32_1_0_0_0 1 rfl rfl rfl rfl wt

/-- A row of the bias table cut at offsets (l, 0) and reshaped to a vector is row l. -/
theorem bSlice_eq (off : Fin 2 → Nat) (h : S2x32.Slices off S1x32) (l : Fin 2) (h0 : off 0 = l.val) (h1 : off 1 = 0)
    (bg : S2x32.Idx → EReal) : HV.bSlice (F := Ideal) off h bg = Cert.Spec.biasRow bg l := by
  funext i
  obtain ⟨c, rfl⟩ : ∃ c : Fin 32, i = ix1 c := ⟨i 0, eq_ix1 i⟩
  unfold HV.bSlice
  refine (shapeCast_apply _ _ (ix1 c) (ix2 (0 : Fin 1) c) ?_).trans ?_
  · rw [Shape.rowMajor_val_two, Shape.rowMajor_val_one]
    show 0 * 32 + c.val = c.val
    omega
  refine extractStridedSlice_apply off bg h _ (ix2 l c) fun a => ?_
  match a with
  | ⟨0, _⟩ => show l.val = off 0 + 0; omega
  | ⟨1, _⟩ => show c.val = off 1 + c.val; omega

/-- Row 0 of the bias table. -/
theorem ker_brow_0 (bg : S2x32.Idx → EReal) :
    HV.bSlice (F := Ideal) ![0, 0] slices_S2x32_S1x32_0_0 bg = Cert.Spec.biasRow bg 0 :=
  bSlice_eq ![0, 0] slices_S2x32_S1x32_0_0 0 rfl rfl bg

/-- Row 1 of the bias table. -/
theorem ker_brow_1 (bg : S2x32.Idx → EReal) :
    HV.bSlice (F := Ideal) ![1, 0] slices_S2x32_S1x32_1_0 bg = Cert.Spec.biasRow bg 1 :=
  bSlice_eq ![1, 0] slices_S2x32_S1x32_1_0 1 rfl rfl bg

end Cert.HostAlg

end
-- ==== Proof.Bridge.lean ====
/-
  The two programs compute the same function. The graph part (edge endpoints, normalisation, propagation, the
  per-graph mean) is the same composition of the same host operations in both. A tap layer differs only in
  arrangement: the kernel program multiplies the five feature matrices, laid side by side, by the five weight
  slices stacked on top of each other; the reference multiplies each matrix by its slice and adds the five products.
  A finite sum of extended reals may be regrouped freely, so the two agree entry by entry with no finiteness
  assumption. The read-in and read-out layers are the same sums on both sides.
-/
import proofs.«179590_j19610820673795_1_alg».proof.Proof.KI.ValDef
import proofs.«179590_j19610820673795_1_alg».proof.Proof.Ref.ValDef
import proofs.«179590_j19610820673795_1_alg».proof.Proof.Alg.Regroup
import proofs.«179590_j19610820673795_1_alg».proof.Proof.Alg.RefDense
import proofs.«179590_j19610820673795_1_alg».proof.Proof.Alg.RefTap
import proofs.«179590_j19610820673795_1_alg».proof.Proof.Alg.KerLayout

set_option maxRecDepth 16384

noncomputable section

namespace Cert.Bridge

open Idealize.ShloMosaic Cert.HostAlg

local notation "KC" => Cert.KernelIdeal.HV.C (F := Ideal)

open Cert.KernelIdeal (S100000x8 S100000x2 S2x3200000 S3200000 S100000 S10x32 S32 S2x5x32x32 S2x32 S32x1 S1 S100000x32)

/-- The first tap layer: side by side against stacked is the five products added. -/
theorem layer0 (row col : KC S3200000 .i32) (nrm : KC S3200000 .f32) (h : KC S100000x32 .f32) (a7 : KC S2x5x32x32 .f32) (a8 : KC S2x32 .f32) :
    Cert.KernelIdeal.KVal.layerK row col nrm h
        (Cert.KernelIdeal.HV.wCat ![0, 0, 0, 0] Cert.KernelIdeal.Facts₀.slices_S2x5x32x32_S1x5x32x32_0_0_0_0 a7)
        (Cert.KernelIdeal.HV.bSlice ![0, 0] Cert.KernelIdeal.Facts₀.slices_S2x32_S1x32_0_0 a8)
      = Cert.ReferenceIdeal.HV.layerR (F := Ideal) row col nrm h
          (Cert.ReferenceIdeal.HV.wSlice ![0, 0, 0, 0] Cert.ReferenceIdeal.Facts₀.slices_S2x5x32x32_S1x1x32x32_0_0_0_0 a7)
          (Cert.ReferenceIdeal.HV.wSlice ![0, 1, 0, 0] Cert.ReferenceIdeal.Facts₀.slices_S2x5x32x32_S1x1x32x32_0_1_0_0 a7)
          (Cert.ReferenceIdeal.HV.wSlice ![0, 2, 0, 0] Cert.ReferenceIdeal.Facts₀.slices_S2x5x32x32_S1x1x32x32_0_2_0_0 a7)
          (Cert.ReferenceIdeal.HV.wSlice ![0, 3, 0, 0] Cert.ReferenceIdeal.Facts₀.slices_S2x5x32x32_S1x1x32x32_0_3_0_0 a7)
          (Cert.ReferenceIdeal.HV.wSlice ![0, 4, 0, 0] Cert.ReferenceIdeal.Facts₀.slices_S2x5x32x32_S1x1x32x32_0_4_0_0 a7)
          (Cert.ReferenceIdeal.HV.bSlice ![0, 0] Cert.ReferenceIdeal.Facts₀.slices_S2x32_S1x32_0_0 a8) := by
  unfold Cert.KernelIdeal.KVal.layerK Cert.ReferenceIdeal.HV.layerR
  rw [ker_side5, ker_wcat_0, ker_brow_0, regroup, ref_tap_0]
  rfl

/-- The second tap layer, likewise. -/
theorem layer1 (row col : KC S3200000 .i32) (nrm : KC S3200000 .f32) (h : KC S100000x32 .f32) (a7 : KC S2x5x32x32 .f32) (a8 : KC S2x32 .f32) :
    Cert.KernelIdeal.KVal.layerK row col nrm h
        (Cert.KernelIdeal.HV.wCat ![1, 0, 0, 0] Cert.KernelIdeal.Facts₀.slices_S2x5x32x32_S1x5x32x32_1_0_0_0 a7)
        (Cert.KernelIdeal.HV.bSlice ![1, 0] Cert.KernelIdeal.Facts₀.slices_S2x32_S1x32_1_0 a8)
      = Cert.ReferenceIdeal.HV.layerR (F := Ideal) row col nrm h
          (Cert.ReferenceIdeal.HV.wSlice ![1, 0, 0, 0] Cert.ReferenceIdeal.Facts₀.slices_S2x5x32x32_S1x1x32x32_1_0_0_0 a7)
          (Cert.ReferenceIdeal.HV.wSlice ![1, 1, 0, 0] Cert.ReferenceIdeal.Facts₀.slices_S2x5x32x32_S1x1x32x32_1_1_0_0 a7)
          (Cert.ReferenceIdeal.HV.wSlice ![1, 2, 0, 0] Cert.ReferenceIdeal.Facts₀.slices_S2x5x32x32_S1x1x32x32_1_2_0_0 a7)
          (Cert.ReferenceIdeal.HV.wSlice ![1, 3, 0, 0] Cert.ReferenceIdeal.Facts₀.slices_S2x5x32x32_S1x1x32x32_1_3_0_0 a7)
          (Cert.ReferenceIdeal.HV.wSlice ![1, 4, 0, 0] Cert.ReferenceIdeal.Facts₀.slices_S2x5x32x32_S1x1x32x32_1_4_0_0 a7)
          (Cert.ReferenceIdeal.HV.bSlice ![1, 0] Cert.ReferenceIdeal.Facts₀.slices_S2x32_S1x32_1_0 a8) := by
  unfold Cert.KernelIdeal.KVal.layerK Cert.ReferenceIdeal.HV.layerR
  rw [ker_side5, ker_wcat_1, ker_brow_1, regroup, ref_tap_1]
  rfl

/-- The kernel program's function of the arguments is the reference's. -/
theorem kval_eq_rval (a0 : KC S100000x8 .f32) (a1 : KC S100000x2 .f32) (a2 : KC S2x3200000 .i32) (a3 : KC S3200000 .f32)
    (a4 : KC S100000 .i32) (a5 : KC S10x32 .f32) (a6 : KC S32 .f32) (a7 : KC S2x5x32x32 .f32) (a8 : KC S2x32 .f32)
    (a9 : KC S32x1 .f32) (a10 : KC S1 .f32) :
    Cert.KernelIdeal.KVal.kval a0 a1 a2 a3 a4 a5 a6 a7 a8 a9 a10
      = Cert.ReferenceIdeal.RVal.rval (F := Ideal) a0 a1 a2 a3 a4 a5 a6 a7 a8 a9 a10 := by
  unfold Cert.KernelIdeal.KVal.kval Cert.ReferenceIdeal.RVal.rval
  rw [layer0, layer1, ref_out, ref_dense0]
  rfl

end Cert.Bridge

end
-- ==== Proof.lean ====
/-
  The certificate of the graph network's kernel program against its reference.

  Frames. The kernel program is host operations around four dense-layer regions; each region's body loads its three
  input blocks, computes, and stores its output block whole, so the run is the library's several-regions launch with
  every buffer's contents named at every boundary (Proof/K/Run.lean at the word level, Proof/KI/Run.lean at the
  ideal instance); no host operation and no region writes an argument array. The reference is a straight line of
  host operations (Proof/Ref/Run.lean).

  Values, at the ideal instance. The kernel program's result is one function of the arguments (Proof/KI/Value.lean):
  each region's output array is the dense-layer sum over the arrays it found (Proof/KI/Val0.lean … Val3.lean), the
  host stretches between are the graph operations. The reference's result is another (Proof/Ref/Value.lean). The
  two are the same function (Proof/Bridge.lean): the graph part is spelt identically, the read-in and read-out
  layers are the same sums, and a tap layer's product of side-by-side features with stacked weights is the sum of
  the five separate products, a regrouping of a finite sum of extended reals that needs no finiteness.
  The ideal pass rewrote nothing, so the idealization claim has no conjunct.
-/
import proofs.«179590_j19610820673795_1_alg».proof.Defs
import proofs.«179590_j19610820673795_1_alg».proof.Proof.Gen.Kernel
import proofs.«179590_j19610820673795_1_alg».proof.Proof.Gen.KernelIdeal
import proofs.«179590_j19610820673795_1_alg».proof.Proof.Gen.ReferenceIdeal
import proofs.«179590_j19610820673795_1_alg».proof.Proof.Gen.Pre_finite_inputs
import proofs.«179590_j19610820673795_1_alg».proof.Proof.K.Run
import proofs.«179590_j19610820673795_1_alg».proof.Proof.KI.Value
import proofs.«179590_j19610820673795_1_alg».proof.Proof.Ref.Value
import proofs.«179590_j19610820673795_1_alg».proof.Proof.Bridge

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

/-- From memories that agree on the arguments the two idealized programs end with the same result array: the
    kernel program's run leaves its function of the arguments, the reference's run leaves its own, and the two
    functions are one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W10 m ρ c (Proc.devRef .tc Cert.KernelIdeal.main_v159), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v159 (by decide)),
      (h c _ (Cert.KernelIdeal.Hand.mem_uc Cert.KernelIdeal.main_arg0 (by decide))).trans (Cert.KernelIdeal.Hand.W10_main_arg0 m ρ c),
      (h c _ (Cert.KernelIdeal.Hand.mem_uc Cert.KernelIdeal.main_arg1 (by decide))).trans (Cert.KernelIdeal.Hand.W10_main_arg1 m ρ c),
      (h c _ (Cert.KernelIdeal.Hand.mem_uc Cert.KernelIdeal.main_arg2 (by decide))).trans (Cert.KernelIdeal.Hand.W10_main_arg2 m ρ c),
      (h c _ (Cert.KernelIdeal.Hand.mem_uc Cert.KernelIdeal.main_arg3 (by decide))).trans (Cert.KernelIdeal.Hand.W10_main_arg3 m ρ c),
      (h c _ (Cert.KernelIdeal.Hand.mem_uc Cert.KernelIdeal.main_arg4 (by decide))).trans (Cert.KernelIdeal.Hand.W10_main_arg4 m ρ c),
      (h c _ (Cert.KernelIdeal.Hand.mem_uc Cert.KernelIdeal.main_arg5 (by decide))).trans (Cert.KernelIdeal.Hand.W10_main_arg5 m ρ c),
      (h c _ (Cert.KernelIdeal.Hand.mem_uc Cert.KernelIdeal.main_arg6 (by decide))).trans (Cert.KernelIdeal.Hand.W10_main_arg6 m ρ c),
      (h c _ (Cert.KernelIdeal.Hand.mem_uc Cert.KernelIdeal.main_arg7 (by decide))).trans (Cert.KernelIdeal.Hand.W10_main_arg7 m ρ c),
      (h c _ (Cert.KernelIdeal.Hand.mem_uc Cert.KernelIdeal.main_arg8 (by decide))).trans (Cert.KernelIdeal.Hand.W10_main_arg8 m ρ c),
      (h c _ (Cert.KernelIdeal.Hand.mem_uc Cert.KernelIdeal.main_arg9 (by decide))).trans (Cert.KernelIdeal.Hand.W10_main_arg9 m ρ c),
      (h c _ (Cert.KernelIdeal.Hand.mem_uc Cert.KernelIdeal.main_arg10 (by decide))).trans (Cert.KernelIdeal.Hand.W10_main_arg10 m ρ c)⟩
  · refine (θ_run Cert.ReferenceIdeal.defs _ _).mono (fun r h c => ?_) (Cert.ReferenceIdeal.Hand.run_main (F := Ideal) m' ρ')
    refine ⟨(h c Cert.ReferenceIdeal.main_v202).trans ?_,
      (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _),
      (h c Cert.ReferenceIdeal.main_arg8).trans (Cert.ReferenceIdeal.Hand.arg8_eq _),
      (h c Cert.ReferenceIdeal.main_arg9).trans (Cert.ReferenceIdeal.Hand.arg9_eq _),
      (h c Cert.ReferenceIdeal.main_arg10).trans (Cert.ReferenceIdeal.Hand.arg10_eq _)⟩
    obtain ⟨e0, e1, e2, e3, e4, e5, e6, e7, e8, e9, e10⟩ := hagree c
    refine (Cert.ReferenceIdeal.RVal.ref_value _).trans ?_
    refine Eq.trans ?_ ((Cert.KernelIdeal.KVal.kernel_value m ρ c).trans (Cert.Bridge.kval_eq_rval _ _ _ _ _ _ _ _ _ _ _)).symm
    show Cert.ReferenceIdeal.RVal.rval (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
